-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x322BCC77#32
  let main_v22 : FVec F S8192 .f32 := broadcastInDim S8192 ![] bcast_S_S8192 main_cst_6
  let main_v23 : FVec F S8192 .f32 := addf main_v21 main_v22
  let main_cst_7 : FVec F S_ .f32 := constant S_ .f32 0x00000000#32
  let main_v24 : FVec F S8192 .f32 := broadcastInDim S8192 ![] bcast_S_S8192 main_cst_7
  let main_v25 : IVec S8192 1 := cmpf .ogt main_v23 main_v24
  let main_c_8 : IVec S_ 1 := constantI S_ 1 1#1
  let main_v26 : IVec S_ 1 := (fun x v => Host.reduce IntOp.andi x v reducesTo_S8192_S_d0 h_S_) main_v25 main_c_8
  let main_v27 : IVec S_ 1 := andi main_v13 main_v26
  main_v27

def fn {F : FTy → Type} [FloatOps F] (main_arg0 : FVec F S8192x128 .f32) (main_arg1 : FVec F S8192x8192 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S2048x1024 : Shape := ⟨2, ![2048, 1024]⟩
abbrev S1024x128 : Shape := ⟨2, ![1024, 128]⟩
abbrev S2048x128 : Shape := ⟨2, ![2048, 128]⟩
abbrev S2048x1 : Shape := ⟨2, ![2048, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x1, .f32⟩
  | .hbm, ⟨4, _⟩ => ⟨S8192x128, .f32⟩
  | .hbm, ⟨5, _⟩ => ⟨S8192x128, .f32⟩
  | .hbm, ⟨6, _⟩ => ⟨S8192x128, .bf16⟩
  | .hbm, ⟨7, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S2048x1024, .f32⟩
  | .local _ .vmem, ⟨6, _⟩ => ⟨S2048x1024, .f32⟩
  | .local _ .vmem, ⟨7, _⟩ => ⟨S1024x128, .bf16⟩
  | .local _ .vmem, ⟨8, _⟩ => ⟨S1024x128, .bf16⟩
  | .local _ .vmem, ⟨9, _⟩ => ⟨S2048x128, .f32⟩
  | .local _ .vmem, ⟨10, _⟩ => ⟨S2048x128, .f32⟩
  | .local _ .vmem, ⟨11, _⟩ => ⟨S2048x1, .f32⟩
  | .local _ .vmem, ⟨12, _⟩ => ⟨S2048x1, .f32⟩
  | .local _ .vmem, ⟨13, _⟩ => ⟨S128x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  bcast_S8192x1_S8192x128_0_1 : S8192x1.BroadcastsInDim S8192x128 (![0, 1] : Fin 2 → Fin S8192x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .f32 = 32 ∨ (Rect.block (s := S8192x8192) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S8192x128.size a
  hwx1_5 : ∀ i : grid1.Coords, EltTy.bits .f32 = 32 ∨ (Rect.block (s := S8192x128) S2048x128.size (cc1_transform_5 i) (hinb1_5 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Bits.DegRuns.lean ====
/-
  The degree kernel's body, run symbolically on any staging memrefs.

  The grid is 16 row blocks by 2 column blocks; the point's column decides what the body does. At a first column it
  zeroes the column accumulator (the scratch), then adds the row sums of the point's 512 x 4096 block of the adjacency
  matrix; the output block is not touched. At a last column it adds the block's row sums to what the point before left
  in the accumulator, then writes 1 / sqrt (accumulator + 1 + eps) into the output block.
-/
import proofs.«149493_j3556232921092_2_alg».proof.Proof.Gen.Kernel.Skeleton
import proofs.«149493_j3556232921092_2_alg».proof.Proof.Gen.Kernel.Launch
import proofs.«149493_j3556232921092_2_alg».proof.Proof.Gen.Kernel.Points
import Idealize.ShloMosaic.Lib.Pipeline.Frame
import Idealize.ShloMosaic.Lib.Tactic

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The point is in the first column of its row of blocks: the accumulator is zeroed. -/
abbrev firstCol (i : grid0.Coords) : Prop :=
  (Scalar.cmpi .ne (Scalar.extui (Scalar.cmpi .eq (BitVec.ofNat 32 (i 1).val) 0#32)) 0#32) = 1#1
/-- The point is in the last column: the normaliser is written out. -/
abbrev lastCol (i : grid0.Coords) : Prop := k0_cond2 i = 1#1

/-- With two columns per row of blocks, the first column is the even points and the last the odd ones. -/
theorem firstCol_iff : ∀ t : Fin cfg0.N, firstCol (grid0.coords t) ↔ t.val % 2 = 0 :=
  (by decide +kernel : ∀ t : Fin grid0.N, firstCol (grid0.coords t) ↔ t.val % 2 = 0)
theorem lastCol_iff : ∀ t : Fin cfg0.N, lastCol (grid0.coords t) ↔ t.val % 2 = 1 :=
  (by decide +kernel : ∀ t : Fin grid0.N, lastCol (grid0.coords t) ↔ t.val % 2 = 1)

/-! ## The body at a first column -/

set_option maxHeartbeats 1000000 in
/-- At a first column: from the adjacency block held whole at `x0`, the output block at anything `xi` and the
    accumulator at anything, the body runs to its return with the first two as they were and the accumulator holding
    the stores it made, last first (the witness the run finds). -/
noncomputable def runFirst (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : firstCol i) (hl : ¬lastCol i) (x0 : Vec F S512x4096 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi
                ∗ (∃ f, arg4.view.loc (c : Thread nD τ) ↦[arg4.view.set]{fullShare} arg4.view.writes (Elt F) f LS)) -∗ K ⟨⟩))
          ⊢ wp frame (wpE (defs₀ (F := F)) Variants.none c none) E (cc0__deg_kernel i arg2 harg2 arg3 harg3 arg4 harg4) K } := by
  refine ⟨?_, fun xi E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Deg

end
-- ==== Proof.Bits.DegRunLast.lean ====
/-
  The degree kernel's body at a last column: the block's row sums are added to what the point before left in the
  accumulator, and the normaliser 1 / sqrt (accumulator + 1 + eps) is written into the output block.
-/
import proofs.«149493_j3556232921092_2_alg».proof.Proof.Bits.DegRuns

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last column: from the adjacency block held whole at `x0`, the accumulator at `xs` (what the point before
    left) and the output block at anything, the body runs to its return with the adjacency block as it was and the
    output block and the accumulator each holding the stores it made, last first (the witnesses the run finds). -/
noncomputable def runLast (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : ¬firstCol i) (hl : lastCol i) (x0 : Vec F S512x4096 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hf | exact hl)
    sl_step
    iapply Hk
    isplitl [H0]
    · iexists _; isplitr; · ipureintro; exact harg2.read_unread _
      iexact H0
    isplitl [H1]
    · iexists _; iexact H1
    iexists _; iexact HS

end Cert.Kernel.Deg

end
-- ==== Proof.Bits.DegData.lean ====
/-
  The degree kernel's pipeline, point by point, from any contents `V` of the buffers at the region's entry.

  The 32 points run through 16 rows of blocks, two columns each. After an even point (a first column) the accumulator
  holds the row sums of that point's block of the adjacency matrix, added to zero; the output block is idle there and is
  not written back. After an odd point (a last column) the accumulator holds the previous contents plus the block's row
  sums, and the output block holds the normaliser computed from it, which the pipeline writes back to rows 512 r .. of the
  result. `colsAt` is that recursion; the invariant between points keeps the accumulator at `colsAt`'s second component.
-/
import proofs.«149493_j3556232921092_2_alg».proof.Proof.Bits.DegRunLast
import Idealize.ShloMosaic.Lib.Pipeline.FrameBody
import Idealize.ShloMosaic.Lib.Pipeline.FrameSuffix
import Idealize.ShloMosaic.Lib.Ring

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- The adjacency window's and the output window's current staging memref at point `t`, and their wholeness. -/
abbrev inM (t : Fin cfg0.N) : Memref sig .tc .vmem S512x4096 .f32 := win0_0.stage (cfg0.slots t 0)
abbrev inW (t : Fin cfg0.N) : (inM t).IsWhole := hstage0_0 ((cfg0.slots t 0).cast nbuf0_0)
abbrev outM (t : Fin cfg0.N) : Memref sig .tc .vmem S512x1 .f32 := win0_1.stage (cfg0.slots t 1)
abbrev outW (t : Fin cfg0.N) : (outM t).IsWhole := hstage0_1 ((cfg0.slots t 1).cast nbuf0_1)
/-- The accumulator: the kernel's own scratch buffer, whole. -/
abbrev accM : Memref sig .tc .vmem S512x1 .f32 := Memref.whole cc0_scratch0
/-- Views through which contents are stated (which staging buffer is chosen does not matter for a covering list). -/
abbrev VOut : View sig .tc .vmem S512x1 .f32 := (Memref.whole cc0_stg1_0 : Memref sig .tc .vmem S512x1 .f32).view
abbrev VAcc : View sig .tc .vmem S512x1 .f32 := accM.view

/-! ## What each case leaves -/

section Cases
variable (c : Dev nD) (i : grid0.Coords)
  (arg2 : Memref sig .tc .vmem S512x4096 .f32) (harg2 : arg2.IsWhole)
  (arg3 : Memref sig .tc .vmem S512x1 .f32) (harg3 : arg3.IsWhole)
  (arg4 : Memref sig .tc .vmem S512x1 .f32) (harg4 : arg4.IsWhole)

/-- The stores a first column makes into the accumulator cover it. -/
theorem accFirst_cover (hf : firstCol i) (hl : ¬lastCol i) (x0 : Vec F S512x4096 .f32) (y : S512x1.Idx) :
    ∃ pc ∈ (runFirst c i arg2 harg2 arg3 harg3 arg4 harg4 hf hl x0).1, y ∈ pc.1.set :=
  View.cover_of_tiledL (runFirst c i arg2 harg2 arg3 harg3 arg4 harg4 hf hl x0).1 S512x1.size (by sl_kernel_rfl) y
/-- What a first column leaves in the accumulator: its stores read back. -/
def accFirst (hf : firstCol i) (hl : ¬lastCol i) (x0 : Vec F S512x4096 .f32) : Vec F S512x1 .f32 :=
  VAcc.read (Elt F) (VAcc.writes (Elt F) VAcc.junk (runFirst c i arg2 harg2 arg3 harg3 arg4 harg4 hf hl x0).1)

/-- The stores a last column makes into the output block cover it, -/
theorem outLast_cover (hf : ¬firstCol i) (hl : lastCol i) (x0 : Vec F S512x4096 .f32) (xs : Vec F S512x1 .f32) (y : S512x1.Idx) :
    ∃ pc ∈ (runLast c i arg2 harg2 arg3 harg3 arg4 harg4 hf hl x0 xs).1, y ∈ pc.1.set :=
  View.cover_of_tiledL (runLast c i arg2 harg2 arg3 harg3 arg4 harg4 hf hl x0 xs).1 S512x1.size (by sl_kernel_rfl) y
/-- and those into the accumulator cover it. -/
theorem accLast_cover (hf : ¬firstCol i) (hl : lastCol i) (x0 : Vec F S512x4096 .f32) (xs : Vec F S512x1 .f32) (y : S512x1.Idx) :
    ∃ pc ∈ (runLast c i arg2 harg2 arg3 harg3 arg4 harg4 hf hl x0 xs).2.1, y ∈ pc.1.set :=
  View.cover_of_tiledL (runLast c i arg2 harg2 arg3 harg3 arg4 harg4 hf hl x0 xs).2.1 S512x1.size (by sl_kernel_rfl) y
/-- What a last column leaves in the output block, -/
def outLast (hf : ¬firstCol i) (hl : lastCol i) (x0 : Vec F S512x4096 .f32) (xs : Vec F S512x1 .f32) : Vec F S512x1 .f32 :=
  VOut.read (Elt F) (VOut.writes (Elt F) VOut.junk (runLast c i arg2 harg2 arg3 harg3 arg4 harg4 hf hl x0 xs).1)
/-- and in the accumulator. -/
def accLast (hf : ¬firstCol i) (hl : lastCol i) (x0 : Vec F S512x4096 .f32) (xs : Vec F S512x1 .f32) : Vec F S512x1 .f32 :=
  VAcc.read (Elt F) (VAcc.writes (Elt F) VAcc.junk (runLast c i arg2 harg2 arg3 harg3 arg4 harg4 hf hl x0 xs).2.1)
end Cases

/-- The output block where the body does not touch it: nothing consults it (the window is idle and not written back). -/
def outIdle : Vec F S512x1 .f32 := VOut.read (Elt F) (VOut.writes (Elt F) VOut.junk [])

/-! ## Point by point -/

variable (V : (c : Dev nD) → (b : Ref sig .tc) → Buf (Elt F) ((c : Thread nD τ).loc b))

/-- The adjacency window's block at point `t`, read off its array as the region finds it. -/
def adjBlk (c : Dev nD) (t : Fin cfg0.N) : ((cfg0.win 0).xblock (cfg0.grid.coords t)).Idx → Elt F (cfg0.win 0).elt :=
  ((cfg0.win 0).blk t).view.read (Elt F) (V c (Pipeline.arrRef spec0 0))

theorem even_first (t : Fin cfg0.N) (h : t.val % 2 = 0) : firstCol (grid0.coords t) := (firstCol_iff t).mpr h
theorem even_notLast (t : Fin cfg0.N) (h : t.val % 2 = 0) : ¬lastCol (grid0.coords t) := fun hl => by
  have := (lastCol_iff t).mp hl; omega
theorem odd_notFirst (t : Fin cfg0.N) (h : ¬t.val % 2 = 0) : ¬firstCol (grid0.coords t) := fun hf => h ((firstCol_iff t).mp hf)
theorem odd_last (t : Fin cfg0.N) (h : ¬t.val % 2 = 0) : lastCol (grid0.coords t) := (lastCol_iff t).mpr (by omega)

/-- THE RECURSION. What the output block and the accumulator hold after the body at position `n`: at an even position the
    idle output and the block's row sums from zero; at an odd one the normaliser and the sums over what position `n - 1` left. -/
def colsAt (c : Dev nD) : (n : ℕ) → n < cfg0.N → Vec F S512x1 .f32 × Vec F S512x1 .f32
  | 0, hn => (outIdle, accFirst c (grid0.coords ⟨0, hn⟩) (inM ⟨0, hn⟩) (inW ⟨0, hn⟩) (outM ⟨0, hn⟩) (outW ⟨0, hn⟩) accM (Memref.isWhole_whole _)
      (even_first ⟨0, hn⟩ rfl) (even_notLast ⟨0, hn⟩ rfl) (adjBlk V c ⟨0, hn⟩))
  | n + 1, hn =>
    if h : (n + 1) % 2 = 0 then
      (outIdle, accFirst c (grid0.coords ⟨n + 1, hn⟩) (inM ⟨n + 1, hn⟩) (inW ⟨n + 1, hn⟩) (outM ⟨n + 1, hn⟩) (outW ⟨n + 1, hn⟩) accM (Memref.isWhole_whole _)
        (even_first ⟨n + 1, hn⟩ h) (even_notLast ⟨n + 1, hn⟩ h) (adjBlk V c ⟨n + 1, hn⟩))
    else
      (outLast c (grid0.coords ⟨n + 1, hn⟩) (inM ⟨n + 1, hn⟩) (inW ⟨n + 1, hn⟩) (outM ⟨n + 1, hn⟩) (outW ⟨n + 1, hn⟩) accM (Memref.isWhole_whole _)
          (odd_notFirst ⟨n + 1, hn⟩ h) (odd_last ⟨n + 1, hn⟩ h) (adjBlk V c ⟨n + 1, hn⟩) (colsAt c n (Nat.lt_of_succ_lt hn)).2,
        accLast c (grid0.coords ⟨n + 1, hn⟩) (inM ⟨n + 1, hn⟩) (inW ⟨n + 1, hn⟩) (outM ⟨n + 1, hn⟩) (outW ⟨n + 1, hn⟩) accM (Memref.isWhole_whole _)
          (odd_notFirst ⟨n + 1, hn⟩ h) (odd_last ⟨n + 1, hn⟩ h) (adjBlk V c ⟨n + 1, hn⟩) (colsAt c n (Nat.lt_of_succ_lt hn)).2)

/-- `colsAt` at an even point. -/
theorem colsAt_even (c : Dev nD) (t : Fin cfg0.N) (h : t.val % 2 = 0) :
    colsAt V c t.val t.isLt = (outIdle, accFirst c (grid0.coords t) (inM t) (inW t) (outM t) (outW t) accM (Memref.isWhole_whole _)
      (even_first t h) (even_notLast t h) (adjBlk V c t)) := by
  obtain ⟨n, hn⟩ := t
  cases n with
  | zero => rfl
  | succ n => exact (dif_pos h).trans rfl

/-- `colsAt` at an odd point: over what the point before left in the accumulator. -/
theorem colsAt_odd (c : Dev nD) (t : Fin cfg0.N) (h : ¬t.val % 2 = 0) :
    colsAt V c t.val t.isLt = (outLast c (grid0.coords t) (inM t) (inW t) (outM t) (outW t) accM (Memref.isWhole_whole _)
        (odd_notFirst t h) (odd_last t h) (adjBlk V c t) (colsAt V c (t.val - 1) (Nat.lt_of_le_of_lt (Nat.sub_le _ _) t.isLt)).2,
      accLast c (grid0.coords t) (inM t) (inW t) (outM t) (outW t) accM (Memref.isWhole_whole _)
        (odd_notFirst t h) (odd_last t h) (adjBlk V c t) (colsAt V c (t.val - 1) (Nat.lt_of_le_of_lt (Nat.sub_le _ _) t.isLt)).2) := by
  obtain ⟨n, hn⟩ := t
  cases n with
  | zero => exact absurd (Nat.zero_mod _) h
  | succ n => exact (dif_neg h).trans rfl

/-! ## The invariant between points -/

/-- The core's scoped buffers other than the accumulator (the other kernel's staging buffers and scratch), each whole at
    some contents: the body never touches them. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- What the region is handed, with the accumulator singled out. -/
theorem scoped_split (c : Dev nD) :
    (Pipeline.ΦA spec0 c : sProp 𝕄)
      = iprop(((∃ d, owns (c : Thread nD τ) accM fullShare d) ∗ others c) ∗ (∃ r, prngReg c r)) := by
  unfold Pipeline.ΦA others; rw [scopedRest0_eq]; simp only [accM, owns_whole]
  rfl

/-- Before position `n`: at the first point everything scoped at anything; afterwards the accumulator at what the point
    before left, the other scoped buffers at anything, the generator register at some state. -/
def Inv (c : Dev nD) : (n : ℕ) → n ≤ cfg0.N → sProp 𝕄
  | 0, _ => Pipeline.ΦA spec0 c
  | n + 1, hn => iprop((owns (c : Thread nD τ) accM fullShare ((colsAt V c n hn).2) ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop((owns (c : Thread nD τ) accM fullShare ((colsAt V c n hn).2) ∗ others c) ∗ (∃ r, prngReg c r)) := rfl
theorem Inv_pos (c : Dev nD) (n : ℕ) (h : n ≤ cfg0.N) (hz : n ≠ 0) :
    Inv V c n h = iprop((owns (c : Thread nD τ) accM fullShare ((colsAt V c (n - 1) (by omega)).2) ∗ others c) ∗ (∃ r, prngReg c r)) := by
  cases n with
  | zero => exact absurd rfl hz
  | succ n => rfl

/-! ## The proof data -/

/-- The pipeline's proof data on core `c`: the two arrays as the region finds them; after the body the adjacency window's
    buffer at its block and the output's at `colsAt`; the invariant above; nothing owed; full shares. -/
def dat (c : Dev nD) : Dat τ (Elt F) Unit ℕ (UR sig nD τ) ℕ cfg0 c where
  A w := V c (Pipeline.arrRef spec0 w)
  after w t := match w with
    | ⟨0, _⟩ => adjBlk V c t
    | ⟨1, _⟩ => (colsAt V c t.val t.isLt).1
  Φ t := Inv V c t.val (Nat.le_of_lt_succ t.isLt)
  q _ := fullShare
  owed _ := 0

theorem dat_A (c : Dev nD) (w : Fin cfg0.W) : (dat V c).A w = V c (Pipeline.arrRef spec0 w) := by dsimp only [dat]
theorem dat_Inv_castSucc (c : Dev nD) (t : Fin cfg0.N) : (dat V c).Φ t.castSucc = Inv V c t.val (Nat.le_of_lt t.isLt) := by
  dsimp only [dat]; simp only [Fin.coe_castSucc]
theorem dat_after_in (c : Dev nD) (t : Fin cfg0.N) : (dat V c).after 0 t = adjBlk V c t := by dsimp only [dat]
theorem dat_after_out (c : Dev nD) (t : Fin cfg0.N) : (dat V c).after 1 t = (colsAt V c t.val t.isLt).1 := by dsimp only [dat]

/-- The adjacency window's current staging buffer holds its block at every point, fetched there or not. -/
theorem dat_before_in (c : Dev nD) (t : Fin cfg0.N) (d) : (dat V c).before 0 t d = adjBlk V c t :=
  ((dat V c).before_in_eq_fetched 0 rfl (fun _ => rfl) (fun _ _ _ => rfl)
      (fun t => by rw [dat_after_in]; unfold Dat.blockOf adjBlk; rw [dat_A]; try rfl) t d).trans
    (by unfold Dat.fetched Dat.blockOf adjBlk; rw [dat_A]; try rfl)

end Cert.Kernel.Deg

end
-- ==== Proof.Bits.DegBody.lean ====
/-
  The degree kernel's body meets its obligation at every point of the grid: from the invariant before the point, the
  adjacency window's staging buffer at its block and the output window's at whatever it holds, the body runs to its return
  leaving the invariant after the point, the adjacency buffer as it was, and the output buffer idle (even points) or at the
  normaliser (odd points).
-/
import proofs.«149493_j3556232921092_2_alg».proof.Proof.Bits.DegData

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- The adjacency window is never idle. -/
theorem in_live : ∀ t : Fin cfg0.N, cfg0.idle 0 (grid0.coords t) = false := by decide +kernel
/-- At the even points the output window is idle and is not written back; at the odd points it is live. -/
theorem out_idle_even : ∀ t : Fin cfg0.N, t.val % 2 = 0 → cfg0.idle 1 (grid0.coords t) = true := by decide +kernel
theorem out_noFlush_even : ∀ t : Fin cfg0.N, t.val % 2 = 0 → (cfg0.win 1).flush t = false := by decide +kernel
theorem out_live_odd : ∀ t : Fin cfg0.N, ¬t.val % 2 = 0 → cfg0.idle 1 (grid0.coords t) = false := by decide +kernel

variable (V : (c : Dev nD) → (b : Ref sig .tc) → Buf (Elt F) ((c : Thread nD τ).loc b))

/-! ## The obligation at a generic point -/

/-- What the body is called with at point `t`, the two windows one by one, -/
def bodyPre (c : Dev nD) (t : Fin cfg0.N) : sProp 𝕄 :=
  iprop((dat V c).Φ t.castSucc ∗ (dat V c).owesAt () t.castSucc
    ∗ (∃ d, owns (c : Thread nD τ) (inM t) fullShare ((dat V c).before 0 t d))
    ∗ (∃ d, owns (c : Thread nD τ) (outM t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (inM t) fullShare ((dat V c).after 0 t) from by
    unfold Dat.leavesExact; rw [in_live t], dat_after_in]
  by_cases h : t.val % 2 = 0
  · -- a first column
    rw [Dat.leavesExact_idle (dat V c) 1 t (out_idle_even t h) (out_noFlush_even t h)]
    rw [colsAt_even V c t h]
    unfold accFirst; (try dsimp only)
    by_cases hz : t.val = 0
    · rw [dat_Inv_castSucc V c t, Inv_zero V c _ _ hz, scoped_split]
      iintro ⟨⟨⟨HS, Hoth⟩, Hg⟩, Ho, ⟨%d0, H0⟩, ⟨%d1, H1⟩⟩
      iapply ((runFirst c (grid0.coords t) _ _ _ _ _ _ (even_first t h) (even_notLast t h) (adjBlk V c t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
    · rw [dat_Inv_castSucc V c t, Inv_pos V c _ _ hz]
      iintro ⟨⟨⟨HS, Hoth⟩, Hg⟩, Ho, ⟨%d0, H0⟩, ⟨%d1, H1⟩⟩
      iapply ((runFirst c (grid0.coords t) _ _ _ _ _ _ (even_first t h) (even_notLast t h) (adjBlk V c t)).2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
  · -- a last column
    rw [show (dat V c).leavesExact 1 t = owns (c : Thread nD τ) (outM t) fullShare ((dat V c).after 1 t) from by
      unfold Dat.leavesExact; rw [out_live_odd t h], dat_after_out]
    rw [colsAt_odd V c t h]
    unfold outLast accLast; (try dsimp only)
    have hz : t.val ≠ 0 := fun e => h (by rw [e])
    rw [dat_Inv_castSucc V c t, Inv_pos V c _ _ hz]
    iintro ⟨⟨⟨HS, Hoth⟩, Hg⟩, Ho, ⟨%d0, H0⟩, ⟨%d1, H1⟩⟩
    iapply ((runLast c (grid0.coords t) _ _ _ _ _ _ (odd_notFirst t h) (odd_last t h) (adjBlk V c t) _).2.2 Set.univ _)
    isplitl [H0]; · iexact H0
    isplitl [H1]; · iexists _; iexact H1
    isplitl [HS]; · iexact HS
    iintro ⟨H0, ⟨%e1, H1⟩, ⟨%es, HS⟩⟩
    isplitl [HS Hoth Hg]
    · isplitl [HS Hoth]
      · isplitl [HS]
        · unfold owns; iexists _; isplitr
          swap; · iexact HS
          ipureintro; exact View.read_writes_of_cover _ _ _ _ _ (accLast_cover c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (outLast_cover c _ _ _ _ _ _ _ _ _ _ _)

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem inv_in (c : Dev nD) : Pipeline.ΦA spec0 c ⊢ (dat V c).Φ 0 := by
  rw [show (dat V c).Φ 0 = Inv V c 0 (Nat.zero_le _) from rfl, Inv_zero V c 0 _ rfl]

/-- and after the last point the invariant gives it back: the accumulator's contents are forgotten. -/
theorem inv_out (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = Inv V c (Fin.last cfg0.N).val (Nat.le_of_lt_succ (Fin.last cfg0.N).isLt) from rfl,
    Inv_pos V c _ _ ht, scoped_split]
  iintro ⟨⟨HS, Hoth⟩, Hg⟩
  isplitl [HS Hoth]
  · isplitl [HS]
    · iexists _; iexact HS
    iexact Hoth
  iexact Hg

end Cert.Kernel.Deg

end
-- ==== Proof.Bits.Whole.lean ====
/-
  The whole program: the degree kernel's region, the three host operations that scale the features by the normaliser,
  and the graph-convolution kernel's region, run from the launch to the return.

  Between two items every unscoped buffer of a core is held at a known valuation: the launch memory, then the first
  region's two arrays replaced by what its pipeline leaves, then the host operations applied, then the second region's six
  arrays replaced by what its pipeline leaves. The run ends with the result array at what the second pipeline wrote and
  the three argument arrays as launched (no host operation writes an argument, and a region only reads them).

  The second region's proof data enters through the two fields that vary, with the three facts the assembly needs of it.
-/
import proofs.«149493_j3556232921092_2_alg».proof.Proof.Bits.DegBody
import proofs.«149493_j3556232921092_2_alg».proof.Proof.Gen.Kernel.Regions
import Idealize.ShloMosaic.Lib.Pipeline.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers, reference by reference. -/
abbrev Vals (F : FTy → Type) : Type := (c : Dev nD) → (b : Ref sig .tc) → Buf (Elt F) ((c : Thread nD τ).loc b)

variable (m : (ℓ : Loc nD τ sig) → Buf (Elt F) ℓ) (ρ : Dev nD → PrngReg)
/-! ## The second region's proof data

What varies in it: what each window's staging buffer holds after the body at each point, and the invariant between points. -/

/-- What each window's staging buffer holds after the body, per entry contents, core, window and point. -/
abbrev AfterT (F : FTy → Type) : Type :=
  Vals F → (c : Dev nD) → (w : Fin cfg1.W) → Fin cfg1.N → (cfg1.win w).block.Idx → Elt F (cfg1.win w).elt
/-- The invariant before each point, per entry contents and core. -/
abbrev InvT (F : FTy → Type) : Type :=
  Vals F → (c : Dev nD) → Fin (cfg1.N + 1) → sProp (MT nD τ sig Unit (Elt F) ℕ (UR sig nD τ) ℕ)

variable (aft : AfterT F) (phi : InvT F)

/-- The second region's proof data from entry contents `V`: its six arrays as found, full shares, nothing owed. -/
def dat1 (V : Vals F) (c : Dev nD) : Dat τ (Elt F) Unit ℕ (UR sig nD τ) ℕ cfg1 c where
  A w := V c (Pipeline.arrRef spec1 w)
  after := aft V c
  Φ := phi V c
  q _ := fullShare
  owed _ := 0

/-- What the assembly needs of it: the body obligation, and the invariant's two ends. -/
structure SecondRegion : Prop where
  body : ∀ (V : Vals F) (c : Dev nD), BodyObligation (dat1 aft phi V c) (defs₀ (F := F)) Variants.none () Set.univ
  entry : ∀ (V : Vals F) (c : Dev nD), Pipeline.ΦA spec1 c ⊢ (dat1 aft phi V c).Φ 0
  exit : ∀ (V : Vals F) (c : Dev nD), (dat1 aft phi V c).Φ (Fin.last cfg1.N) ⊢ Pipeline.ΦA spec1 c

/-! ## The buffers' contents between items -/

/-- At launch (the first region's entry). -/
abbrev B0 : Dev nD → Valuation τ sig (Elt F) := fun c b => m (c, b)
abbrev R0 : Vals F := fun c b => B0 m c b
/-- After the first region: its arrays at what the pipeline leaves, every other buffer as entered. -/
def B1 (c : Dev nD) : Valuation τ sig (Elt F) :=
  Pipeline.withArrays spec0 c (B0 m c) fun w => (Deg.dat (R0 m) c).arrAt w cfg0.N
theorem B1_arr (c : Dev nD) (w : Fin cfg0.W) :
    B1 m c (Proc.devRef .tc (Pipeline.arrRef spec0 w)) = (Deg.dat (R0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev R1 : Vals F := fun c b => B1 m c b
/-- After the host operations (the second region's entry). -/
abbrev B2 : Dev nD → Valuation τ sig (Elt F) := fun c => StableHlo.after hostOps1 (B1 m c)
abbrev R2 : Vals F := fun c b => B2 m c b
/-- After the second region. -/
def B3 (c : Dev nD) : Valuation τ sig (Elt F) :=
  Pipeline.withArrays spec1 c (B2 m c) fun w => (dat1 aft phi (R2 m) c).arrAt w cfg1.N
theorem B3_arr (c : Dev nD) (w : Fin cfg1.W) :
    B3 m aft phi c (Proc.devRef .tc (Pipeline.arrRef spec1 w)) = (dat1 aft phi (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m aft phi c (Proc.devRef .tc b) = B2 m c (Proc.devRef .tc b) := by
  unfold B3; exact Pipeline.withArrays_of_ne spec1 c _ _ b hb
abbrev R3 : Vals F := fun c b => B3 m aft phi c b

theorem exit0_arr (c : Dev nD) (w : Fin cfg0.W) : (Deg.dat (R0 m) c).arrAt w cfg0.N = R1 m c (Pipeline.arrRef spec0 w) :=
  (B1_arr m c w).symm
theorem exit0_rest (c : Dev nD) : ∀ b, b ∉ Finset.univ.image (Pipeline.arrRef spec0) → R1 m c b = R0 m c b :=
  fun b hb => B1_of_ne m c b fun w e => hb (Finset.mem_image.mpr ⟨w, Finset.mem_univ _, e⟩)
theorem exit1_arr (c : Dev nD) (w : Fin cfg1.W) : (dat1 aft phi (R2 m) c).arrAt w cfg1.N = R3 m aft phi c (Pipeline.arrRef spec1 w) :=
  (B3_arr m aft phi c w).symm
theorem exit1_rest (c : Dev nD) : ∀ b, b ∉ Finset.univ.image (Pipeline.arrRef spec1) → R3 m aft phi c b = R2 m c b :=
  fun b hb => B3_of_ne m aft phi c b fun w e => hb (Finset.mem_image.mpr ⟨w, Finset.mem_univ _, e⟩)

/-- No host operation writes a reference outside the three it computes. -/
theorem B2_of (c : Dev nD) (r : Ref sig .tc) (h : r ∉ hostOps1_W) : B2 m c r = B1 m c r :=
  StableHlo.after_of_writes_sub hostOps1 _ hostOps1_writes h

/-! ## The proof data family and what rides along -/

abbrev adm : (p : Fin 2) → (pcfgs (F := F) p).Adm := fun p => (cfgs p).toPCfg_adm
/-- Both pipelines' proof data, each from its region's entry contents. -/
def pdats : (p : Fin 2) → (c : Dev nD) → Dat τ (Elt F) Unit ℕ (UR sig nD τ) ℕ (Pipeline.pin (pcfgs (F := F)) adm p) c
  | ⟨0, _⟩ => fun c => Deg.dat (R0 m) c
  | ⟨1, _⟩ => fun c => dat1 aft phi (R2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev Rest (c : Dev nD) : sProp 𝕄 := iprop((∃ r, prngReg c r) ∗ ∃ W, owes (c : Thread nD τ) (0 : CellTallies nD τ sig Unit) W)

/-- The host operations as a segment from the contents after the first region. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left at `B1`. -/
def reg0 : Pipeline.RegionSeg (pcfgs (F := F)) adm (pdats m aft phi) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (R0 m) c).loose
  hwaits := Pipeline.hwaits_of_owed_zero _ _ _ _ L lv 0 fun _ _ => rfl
  pre c := iprop(StableHlo.held (c : Thread nD τ) (Pipeline.ucRefs τ sig) (B0 m c) ∗ Rest c)
  post c := iprop(StableHlo.held (c : Thread nD τ) (Pipeline.ucRefs τ sig) (B1 m c) ∗ Rest c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m aft phi) launch0.win launch0.arr_whole c
      ((pdats m aft phi 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Deg.inv_in (R0 m) c)
    unfold Pipeline.ΦA
    iintro ⟨Hp, -, Hr⟩
    isplitl [Hr]; · iexact Hr
    iexact Hp
  hout c := by
    rw [Pipeline.ownSems0_none]
    refine Idealize.SL.BI.BIBase.Entails.trans (Deg.inv_out (R0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft phi) ((pdats m aft phi 0 c).share_full fun _ => rfl)
      (R0 m c) (R1 m c) ((pdats m aft phi 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents after the host operations, left at `B3`. -/
def reg1 (h1 : SecondRegion aft phi) : Pipeline.RegionSeg (pcfgs (F := F)) adm (pdats m aft phi) () defs₀ 𝒱₀ L lv 1 where
  win := launch1.win.to₀
  block_pos := launch1.block_pos
  stage_whole := launch1.stage_whole
  K := PEmpty
  osem k := k.elim
  ho := Pipeline.OwnSemFacts.none _
  hbody c := (h1.body (R2 m) c).loose
  hwaits := Pipeline.hwaits_of_owed_zero _ _ _ _ L lv 1 fun _ _ => rfl
  pre c := iprop(StableHlo.held (c : Thread nD τ) (Pipeline.ucRefs τ sig) (B2 m c) ∗ Rest c)
  post c := iprop(StableHlo.held (c : Thread nD τ) (Pipeline.ucRefs τ sig) (B3 m aft phi c) ∗ Rest c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m aft phi) launch1.win launch1.arr_whole c
      ((pdats m aft phi 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (h1.entry (R2 m) c)
    unfold Pipeline.ΦA
    iintro ⟨Hp, -, Hr⟩
    isplitl [Hr]; · iexact Hr
    iexact Hp
  hout c := by
    rw [Pipeline.ownSems0_none]
    refine Idealize.SL.BI.BIBase.Entails.trans (h1.exit (R2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft phi) ((pdats m aft phi 1 c).share_full fun _ => rfl)
      (R2 m c) (R3 m aft phi c) ((pdats m aft phi 1 c).arrAt · cfg1.N) (exit1_arr m aft phi c) (exit1_rest m aft phi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

abbrev segs (h1 : SecondRegion aft phi) : List (Pipeline.Seg (pcfgs (F := F)) adm (pdats m aft phi) () defs₀ 𝒱₀ L lv) :=
  [ .region (reg0 m aft phi), .host (hostSeg m), .region (reg1 m aft phi h1) ]

theorem main_run (h1 : SecondRegion aft phi) (c : Dev nD) : main (F := F) c = Pipeline.Seg.run (segs m aft phi h1) :=
  (main_chain c).trans (by chain_rfl)

/-! ## The arguments end as launched -/

theorem B3_arg1 (h1 : SecondRegion aft phi) (c : Dev nD) : B3 m aft phi c (Proc.devRef .tc main_arg1) = m ((c : Thread nD τ).loc main_arg1) :=
  calc B3 m aft phi c (Proc.devRef .tc main_arg1)
    _ = (dat1 aft phi (R2 m) c).arrAt 0 cfg1.N := B3_arr m aft phi c 0
    _ = (dat1 aft phi (R2 m) c).A 0 := (dat1 aft phi (R2 m) c).arrAt_in 0 rfl _
    _ = B2 m c (Proc.devRef .tc main_arg1) := rfl
    _ = B1 m c (Proc.devRef .tc main_arg1) := B2_of m c main_arg1 (by decide)
    _ = (Deg.dat (R0 m) c).arrAt 0 cfg0.N := B1_arr m c 0
    _ = (Deg.dat (R0 m) c).A 0 := (Deg.dat (R0 m) c).arrAt_in 0 rfl _
    _ = m ((c : Thread nD τ).loc main_arg1) := Deg.dat_A (R0 m) c 0

theorem B3_arg0 (h1 : SecondRegion aft phi) (c : Dev nD) : B3 m aft phi c (Proc.devRef .tc main_arg0) = m ((c : Thread nD τ).loc main_arg0) :=
  calc B3 m aft phi c (Proc.devRef .tc main_arg0)
    _ = (dat1 aft phi (R2 m) c).arrAt 2 cfg1.N := B3_arr m aft phi c 2
    _ = (dat1 aft phi (R2 m) c).A 2 := (dat1 aft phi (R2 m) c).arrAt_in 2 rfl _
    _ = B2 m c (Proc.devRef .tc main_arg0) := rfl
    _ = B1 m c (Proc.devRef .tc main_arg0) := B2_of m c main_arg0 (by decide)
    _ = B0 m c (Proc.devRef .tc main_arg0) := B1_of_ne m c main_arg0 (by decide)
    _ = m ((c : Thread nD τ).loc main_arg0) := rfl

theorem B3_arg2 (h1 : SecondRegion aft phi) (c : Dev nD) : B3 m aft phi c (Proc.devRef .tc main_arg2) = m ((c : Thread nD τ).loc main_arg2) :=
  calc B3 m aft phi c (Proc.devRef .tc main_arg2)
    _ = (dat1 aft phi (R2 m) c).arrAt 4 cfg1.N := B3_arr m aft phi c 4
    _ = (dat1 aft phi (R2 m) c).A 4 := (dat1 aft phi (R2 m) c).arrAt_in 4 rfl _
    _ = B2 m c (Proc.devRef .tc main_arg2) := rfl
    _ = B1 m c (Proc.devRef .tc main_arg2) := B2_of m c main_arg2 (by decide)
    _ = B0 m c (Proc.devRef .tc main_arg2) := B1_of_ne m c main_arg2 (by decide)
    _ = m ((c : Thread nD τ).loc main_arg2) := rfl

/-! ## The run -/

/-- The last thread state without the core's dues. -/
abbrev Tlast (c : Dev nD) : sProp 𝕄 := iprop(StableHlo.held (c : Thread nD τ) (Pipeline.ucRefs τ sig) (B3 m aft phi c) ∗ ∃ r, prngReg c r)

set_option backward.isDefEq.respectTransparency.types false in
/-- THE RUN. From any memory with zero counters every weakly fair execution of the program terminates, nothing faulting,
    with the result array at what the second pipeline leaves in it and the three argument arrays as launched. -/
theorem run_named (h1 : SecondRegion aft phi) :
    θ_run defs (onTc (τ := τ) (main (F := F))) ⟨m, fun _ => 0, ρ⟩ (fun r => ∀ c : Dev nD,
      r.2.mem ((c.tc : Thread nD τ).loc main_v4) = (dat1 aft phi (R2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m aft phi) () cellOf_inj emb₁ defs₀ 𝒱₀ L lv m ρ main (segs m aft phi h1)
    (fun c Q => by rw [main_run m aft phi h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tlast m aft phi)
    (hch := ⟨fun _ => .rfl, fun _ => .rfl, fun _ => .rfl, fun c => by
      show iprop(StableHlo.held (c : Thread nD τ) (Pipeline.ucRefs τ sig) (B3 m aft phi c) ∗ Rest c)
        ⊢ iprop(Tlast m aft phi c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m aft phi c b)
    (hfin := fun c s' => by
      iintro ⟨⟨Hh, -⟩, HSI⟩
      unfold StableHlo.held
      imodintro
      iapply (pointsTo_read_all (Pipeline.ucRefs τ sig) (fun b => (((c : Thread nD τ)).1, b)) (B3 m aft phi c) s')
      isplitl [Hh] <;> iassumption)
    (hQ := fun s h c =>
      ⟨(h c _ (mem_uc main_v4 (by decide))).trans (B3_arr m aft phi c 5),
       (h c _ (mem_uc main_arg0 (by decide))).trans (B3_arg0 m aft phi h1 c),
       (h c _ (mem_uc main_arg1 (by decide))).trans (B3_arg1 m aft phi h1 c),
       (h c _ (mem_uc main_arg2 (by decide))).trans (B3_arg2 m aft phi h1 c)⟩)

end Cert.Kernel.Whole

end
-- ==== Proof.Bits.GcnRuns.lean ====
/-
  The graph-convolution kernel's body, run symbolically on any staging memrefs.

  The grid is 4 row blocks by 8 column blocks; the point's column decides what the body does. At every point it adds,
  to the accumulator (the scratch, 2048 x 128), the product of the point's 2048 x 1024 block of the adjacency matrix
  (rounded to bf16) with the point's 1024 x 128 block of the scaled features. At a first column it zeroes the accumulator
  before that; at a last column it then writes the output block: the accumulator plus the normaliser times the row block
  of the features, scaled by the normaliser, projected by the weight matrix, clamped at zero. Elsewhere the output
  block is not touched.
-/
import proofs.«149493_j3556232921092_2_alg».proof.Proof.Gen.Kernel.Skeleton
import proofs.«149493_j3556232921092_2_alg».proof.Proof.Gen.Kernel.Launch
import proofs.«149493_j3556232921092_2_alg».proof.Proof.Gen.Kernel.Points
import Idealize.ShloMosaic.Lib.Pipeline.Frame
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The point is in the first column of its row of blocks: the accumulator is zeroed. -/
abbrev firstCol (i : grid1.Coords) : Prop :=
  (Scalar.cmpi .ne (Scalar.extui (Scalar.cmpi .eq (BitVec.ofNat 32 (i 1).val) 0#32)) 0#32) = 1#1
/-- The point is in the last column: the output block is written. -/
abbrev lastCol (i : grid1.Coords) : Prop := k1_cond2 i = 1#1

/-- With eight columns per row of blocks, the first column is the points divisible by eight and the last the points
    that leave seven. -/
theorem firstCol_iff : ∀ t : Fin cfg1.N, firstCol (grid1.coords t) ↔ t.val % 8 = 0 :=
  (by decide +kernel : ∀ t : Fin grid1.N, firstCol (grid1.coords t) ↔ t.val % 8 = 0)
theorem lastCol_iff : ∀ t : Fin cfg1.N, lastCol (grid1.coords t) ↔ t.val % 8 = 7 :=
  (by decide +kernel : ∀ t : Fin grid1.N, lastCol (grid1.coords t) ↔ t.val % 8 = 7)

/-! ## The body at a first column -/

set_option maxHeartbeats 1000000 in
/-- At a first column: from the five input blocks held whole at `x0` … `x4`, the output block at anything `xi` and the
    accumulator at anything, the body runs to its return with the first six as they were and the accumulator holding
    the stores it made, last first (the witness the run finds). -/
noncomputable def runFirst (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : firstCol i) (hl : ¬lastCol i)
    (x0 : Vec F S2048x1024 .f32) (x1 : Vec F S1024x128 .bf16) (x2 : Vec F S2048x128 .f32)
    (x3 : Vec F S2048x1 .f32) (x4 : Vec F S128x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, H2, H3, H4, H5, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    isplitl [H4]; · iexact H4
    isplitl [H5]; · iexact H5
    iexists _; iexact HS0

end Cert.Kernel.Gcn

end
-- ==== Proof.Bits.GcnRunMid.lean ====
/-
  The graph-convolution kernel's body at a middle column: the product of the point's adjacency block with its block of
  scaled features is added to what the point before left in the accumulator; the output block is not touched.
-/
import proofs.«149493_j3556232921092_2_alg».proof.Proof.Bits.GcnRuns

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle column: from the five input blocks held whole at `x0` … `x4`, the output block at anything `xi` and the
    accumulator at `xs` (what the point before left), the body runs to its return with the first six as they were and
    the accumulator holding the stores it made, last first (the witness the run finds). -/
noncomputable def runMid (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : ¬firstCol i) (hl : ¬lastCol i)
    (x0 : Vec F S2048x1024 .f32) (x1 : Vec F S1024x128 .bf16) (x2 : Vec F S2048x128 .f32)
    (x3 : Vec F S2048x1 .f32) (x4 : Vec F S128x128 .f32) (xs : Vec F S2048x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, H2, H3, H4, H5, ⟨%fs, %hfs, HS⟩, Hk⟩
    obtain rfl := harg2.eq_unread hf0; obtain rfl := harg3.eq_unread hf1; obtain rfl := harg8.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    isplitl [H4]; · iexact H4
    isplitl [H5]; · iexact H5
    iexists _; iexact HS

end Cert.Kernel.Gcn

end
-- ==== Proof.Bits.GcnRunLast.lean ====
/-
  The graph-convolution kernel's body at a last column: the product of the point's adjacency block with its block of
  scaled features is added to what the point before left in the accumulator, and the output block is written: the
  accumulator plus the normaliser times the features' row block, scaled by the normaliser, projected by the weight
  matrix and clamped at zero.
-/
import proofs.«149493_j3556232921092_2_alg».proof.Proof.Bits.GcnRunMid

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last column: from the five input blocks held whole at `x0` … `x4`, the accumulator at `xs` (what the point
    before left) and the output block at anything, the body runs to its return with the input blocks as they were and
    the output block and the accumulator each holding the stores it made, last first (the witnesses the run finds). -/
noncomputable def runLast (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : ¬firstCol i) (hl : lastCol i)
    (x0 : Vec F S2048x1024 .f32) (x1 : Vec F S1024x128 .bf16) (x2 : Vec F S2048x128 .f32)
    (x3 : Vec F S2048x1 .f32) (x4 : Vec F S128x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.Kernel.Gcn

end
-- ==== Proof.Bits.GcnData.lean ====
/-
  The graph-convolution kernel's pipeline, point by point, from any contents `V` of the buffers at the region's entry.

  The 32 points run through 4 rows of blocks, eight columns each. After a first column (a point divisible by eight) the
  accumulator holds the product of that point's adjacency block with its block of scaled features, added to zero; after
  a middle column the same product added to what the point before left; in both the output block is idle and is not
  written back. After a last column (a point that leaves seven) the accumulator holds the sum over the whole row of
  blocks and the output block holds the layer's rows 2048 r .., which the pipeline writes back. `colsAt` is that
  recursion; the invariant between points keeps the accumulator at `colsAt`'s second component.
-/
import proofs.«149493_j3556232921092_2_alg».proof.Proof.Bits.GcnRunLast
import Idealize.ShloMosaic.Lib.Pipeline.FrameBody
import Idealize.ShloMosaic.Lib.Pipeline.FrameSuffix
import Idealize.ShloMosaic.Lib.Ring

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each input window's current staging memref at point `t`, and its wholeness: the adjacency block, the block of
    scaled features, the features' row block, the normaliser's row block, the weight matrix. -/
abbrev inM0 (t : Fin cfg1.N) : Memref sig .tc .vmem S2048x1024 .f32 := win1_0.stage (cfg1.slots t 0)
abbrev inW0 (t : Fin cfg1.N) : (inM0 t).IsWhole := hstage1_0 ((cfg1.slots t 0).cast nbuf1_0)
abbrev inM1 (t : Fin cfg1.N) : Memref sig .tc .vmem S1024x128 .bf16 := win1_1.stage (cfg1.slots t 1)
abbrev inW1 (t : Fin cfg1.N) : (inM1 t).IsWhole := hstage1_1 ((cfg1.slots t 1).cast nbuf1_1)
abbrev inM2 (t : Fin cfg1.N) : Memref sig .tc .vmem S2048x128 .f32 := win1_2.stage (cfg1.slots t 2)
abbrev inW2 (t : Fin cfg1.N) : (inM2 t).IsWhole := hstage1_2 ((cfg1.slots t 2).cast nbuf1_2)
abbrev inM3 (t : Fin cfg1.N) : Memref sig .tc .vmem S2048x1 .f32 := win1_3.stage (cfg1.slots t 3)
abbrev inW3 (t : Fin cfg1.N) : (inM3 t).IsWhole := hstage1_3 ((cfg1.slots t 3).cast nbuf1_3)
abbrev inM4 (t : Fin cfg1.N) : Memref sig .tc .vmem S128x128 .f32 := win1_4.stage (cfg1.slots t 4)
abbrev inW4 (t : Fin cfg1.N) : (inM4 t).IsWhole := hstage1_4 ((cfg1.slots t 4).cast nbuf1_4)
/-- The output window's current staging memref at point `t`. -/
abbrev outM (t : Fin cfg1.N) : Memref sig .tc .vmem S2048x128 .f32 := win1_5.stage (cfg1.slots t 5)
abbrev outW (t : Fin cfg1.N) : (outM t).IsWhole := hstage1_5 ((cfg1.slots t 5).cast nbuf1_5)
/-- The accumulator: the kernel's own scratch buffer, whole. -/
abbrev accM : Memref sig .tc .vmem S2048x128 .f32 := Memref.whole cc1_scratch0
/-- Views through which contents are stated (which staging buffer is chosen does not matter for a covering list). -/
abbrev VOut : View sig .tc .vmem S2048x128 .f32 := (Memref.whole cc1_stg5_0 : Memref sig .tc .vmem S2048x128 .f32).view
abbrev VAcc : View sig .tc .vmem S2048x128 .f32 := accM.view

/-! ## What each case leaves -/

section Cases
variable (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)

/-- The stores a first column makes into the accumulator cover it. -/
theorem accFirst_cover (hf : firstCol i) (hl : ¬lastCol i) (x0 : Vec F S2048x1024 .f32) (x1 : Vec F S1024x128 .bf16) (x2 : Vec F S2048x128 .f32)
    (x3 : Vec F S2048x1 .f32) (x4 : Vec F S128x128 .f32) (y : S2048x128.Idx) :
    ∃ pc ∈ (runFirst c i arg2 harg2 arg3 harg3 arg4 harg4 arg5 harg5 arg6 harg6 arg7 harg7 arg8 harg8 hf hl x0 x1 x2 x3 x4).1, y ∈ pc.1.set :=
  View.cover_of_tiledL (runFirst c i arg2 harg2 arg3 harg3 arg4 harg4 arg5 harg5 arg6 harg6 arg7 harg7 arg8 harg8 hf hl x0 x1 x2 x3 x4).1 S2048x128.size (by sl_kernel_rfl) y
/-- What a first column leaves in the accumulator: its stores read back. -/
def accFirst (hf : firstCol i) (hl : ¬lastCol i) (x0 : Vec F S2048x1024 .f32) (x1 : Vec F S1024x128 .bf16) (x2 : Vec F S2048x128 .f32)
    (x3 : Vec F S2048x1 .f32) (x4 : Vec F S128x128 .f32) : Vec F S2048x128 .f32 :=
  VAcc.read (Elt F) (VAcc.writes (Elt F) VAcc.junk (runFirst c i arg2 harg2 arg3 harg3 arg4 harg4 arg5 harg5 arg6 harg6 arg7 harg7 arg8 harg8 hf hl x0 x1 x2 x3 x4).1)

/-- The stores a middle column makes into the accumulator cover it. -/
theorem accMid_cover (hf : ¬firstCol i) (hl : ¬lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runMid c i arg2 harg2 arg3 harg3 arg4 harg4 arg5 harg5 arg6 harg6 arg7 harg7 arg8 harg8 hf hl x0 x1 x2 x3 x4 xs).1, y ∈ pc.1.set :=
  View.cover_of_tiledL (runMid c i arg2 harg2 arg3 harg3 arg4 harg4 arg5 harg5 arg6 harg6 arg7 harg7 arg8 harg8 hf hl x0 x1 x2 x3 x4 xs).1 S2048x128.size (by sl_kernel_rfl) y
/-- What a middle column leaves in the accumulator. -/
def accMid (hf : ¬firstCol i) (hl : ¬lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VAcc.read (Elt F) (VAcc.writes (Elt F) VAcc.junk (runMid c i arg2 harg2 arg3 harg3 arg4 harg4 arg5 harg5 arg6 harg6 arg7 harg7 arg8 harg8 hf hl x0 x1 x2 x3 x4 xs).1)

/-- The stores a last column makes into the output block cover it, -/
theorem outLast_cover (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runLast c i arg2 harg2 arg3 harg3 arg4 harg4 arg5 harg5 arg6 harg6 arg7 harg7 arg8 harg8 hf hl x0 x1 x2 x3 x4 xs).1, y ∈ pc.1.set :=
  View.cover_of_tiledL (runLast c i arg2 harg2 arg3 harg3 arg4 harg4 arg5 harg5 arg6 harg6 arg7 harg7 arg8 harg8 hf hl x0 x1 x2 x3 x4 xs).1 S2048x128.size (by sl_kernel_rfl) y
/-- and those into the accumulator cover it. -/
theorem accLast_cover (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runLast c i arg2 harg2 arg3 harg3 arg4 harg4 arg5 harg5 arg6 harg6 arg7 harg7 arg8 harg8 hf hl x0 x1 x2 x3 x4 xs).2.1, y ∈ pc.1.set :=
  View.cover_of_tiledL (runLast c i arg2 harg2 arg3 harg3 arg4 harg4 arg5 harg5 arg6 harg6 arg7 harg7 arg8 harg8 hf hl x0 x1 x2 x3 x4 xs).2.1 S2048x128.size (by sl_kernel_rfl) y
/-- What a last column leaves in the output block, -/
def outLast (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VOut.read (Elt F) (VOut.writes (Elt F) VOut.junk (runLast c i arg2 harg2 arg3 harg3 arg4 harg4 arg5 harg5 arg6 harg6 arg7 harg7 arg8 harg8 hf hl x0 x1 x2 x3 x4 xs).1)
/-- and in the accumulator. -/
def accLast (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VAcc.read (Elt F) (VAcc.writes (Elt F) VAcc.junk (runLast c i arg2 harg2 arg3 harg3 arg4 harg4 arg5 harg5 arg6 harg6 arg7 harg7 arg8 harg8 hf hl x0 x1 x2 x3 x4 xs).2.1)
end Cases

/-- The output block where the body does not touch it: nothing consults it (the window is idle and not written back). -/
def outIdle : Vec F S2048x128 .f32 := VOut.read (Elt F) (VOut.writes (Elt F) VOut.junk [])

/-! ## Point by point -/

variable (V : (c : Dev nD) → (b : Ref sig .tc) → Buf (Elt F) ((c : Thread nD τ).loc b))

/-- The adjacency window's block at point `t`, read off its array as the region finds it. -/
def blk0 (c : Dev nD) (t : Fin cfg1.N) : ((cfg1.win 0).xblock (cfg1.grid.coords t)).Idx → Elt F (cfg1.win 0).elt :=
  ((cfg1.win 0).blk t).view.read (Elt F) (V c (Pipeline.arrRef spec1 0))
/-- The scaled features window's block at point `t`, read off its array as the region finds it. -/
def blk1 (c : Dev nD) (t : Fin cfg1.N) : ((cfg1.win 1).xblock (cfg1.grid.coords t)).Idx → Elt F (cfg1.win 1).elt :=
  ((cfg1.win 1).blk t).view.read (Elt F) (V c (Pipeline.arrRef spec1 1))
/-- The features' row window's block at point `t`, read off its array as the region finds it. -/
def blk2 (c : Dev nD) (t : Fin cfg1.N) : ((cfg1.win 2).xblock (cfg1.grid.coords t)).Idx → Elt F (cfg1.win 2).elt :=
  ((cfg1.win 2).blk t).view.read (Elt F) (V c (Pipeline.arrRef spec1 2))
/-- The normaliser's row window's block at point `t`, read off its array as the region finds it. -/
def blk3 (c : Dev nD) (t : Fin cfg1.N) : ((cfg1.win 3).xblock (cfg1.grid.coords t)).Idx → Elt F (cfg1.win 3).elt :=
  ((cfg1.win 3).blk t).view.read (Elt F) (V c (Pipeline.arrRef spec1 3))
/-- The weight window's block at point `t`, read off its array as the region finds it. -/
def blk4 (c : Dev nD) (t : Fin cfg1.N) : ((cfg1.win 4).xblock (cfg1.grid.coords t)).Idx → Elt F (cfg1.win 4).elt :=
  ((cfg1.win 4).blk t).view.read (Elt F) (V c (Pipeline.arrRef spec1 4))

theorem first_of (t : Fin cfg1.N) (h : t.val % 8 = 0) : firstCol (grid1.coords t) := (firstCol_iff t).mpr h
theorem first_notLast (t : Fin cfg1.N) (h : t.val % 8 = 0) : ¬lastCol (grid1.coords t) := fun hl => by
  have := (lastCol_iff t).mp hl; omega
theorem notFirst_of (t : Fin cfg1.N) (h : ¬t.val % 8 = 0) : ¬firstCol (grid1.coords t) := fun hf => h ((firstCol_iff t).mp hf)
theorem last_of (t : Fin cfg1.N) (h : t.val % 8 = 7) : lastCol (grid1.coords t) := (lastCol_iff t).mpr h
theorem notLast_of (t : Fin cfg1.N) (h : ¬t.val % 8 = 7) : ¬lastCol (grid1.coords t) := fun hl => h ((lastCol_iff t).mp hl)

/-- THE RECURSION. What the output block and the accumulator hold after the body at position `n`: at a first column the
    idle output and the point's product from zero; at a middle column the idle output and the product over what position
    `n - 1` left; at a last column the layer's rows and the product over what position `n - 1` left. -/
def colsAt (c : Dev nD) : (n : ℕ) → n < cfg1.N → Vec F S2048x128 .f32 × Vec F S2048x128 .f32
  | 0, hn => (outIdle, accFirst c (grid1.coords ⟨0, hn⟩) (inM0 ⟨0, hn⟩) (inW0 ⟨0, hn⟩) (inM1 ⟨0, hn⟩) (inW1 ⟨0, hn⟩) (inM2 ⟨0, hn⟩) (inW2 ⟨0, hn⟩) (inM3 ⟨0, hn⟩) (inW3 ⟨0, hn⟩) (inM4 ⟨0, hn⟩) (inW4 ⟨0, hn⟩) (outM ⟨0, hn⟩) (outW ⟨0, hn⟩) accM (Memref.isWhole_whole _)
      (first_of ⟨0, hn⟩ rfl) (first_notLast ⟨0, hn⟩ rfl) (blk0 V c ⟨0, hn⟩) (blk1 V c ⟨0, hn⟩) (blk2 V c ⟨0, hn⟩) (blk3 V c ⟨0, hn⟩) (blk4 V c ⟨0, hn⟩))
  | n + 1, hn =>
    if h : (n + 1) % 8 = 0 then
      (outIdle, accFirst c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
        (first_of ⟨n + 1, hn⟩ h) (first_notLast ⟨n + 1, hn⟩ h) (blk0 V c ⟨n + 1, hn⟩) (blk1 V c ⟨n + 1, hn⟩) (blk2 V c ⟨n + 1, hn⟩) (blk3 V c ⟨n + 1, hn⟩) (blk4 V c ⟨n + 1, hn⟩))
    else if h7 : (n + 1) % 8 = 7 then
      (outLast c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
          (notFirst_of ⟨n + 1, hn⟩ h) (last_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2,
        accLast c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
          (notFirst_of ⟨n + 1, hn⟩ h) (last_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2)
    else
      (outIdle, accMid c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
        (notFirst_of ⟨n + 1, hn⟩ h) (notLast_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2)

/-- `colsAt` at a first column. -/
theorem colsAt_first (c : Dev nD) (t : Fin cfg1.N) (h : t.val % 8 = 0) :
    colsAt V c t.val t.isLt = (outIdle, accFirst c (grid1.coords t) (inM0 t) (inW0 t) (inM1 t) (inW1 t) (inM2 t) (inW2 t) (inM3 t) (inW3 t) (inM4 t) (inW4 t) (outM t) (outW t) accM (Memref.isWhole_whole _)
      (first_of t h) (first_notLast t h) (blk0 V c t) (blk1 V c t) (blk2 V c t) (blk3 V c t) (blk4 V c t)) := by
  obtain ⟨n, hn⟩ := t
  cases n with
  | zero => rfl
  | succ n => exact (dif_pos h).trans rfl

/-- `colsAt` at a middle column: over what the point before left in the accumulator. -/
theorem colsAt_mid (c : Dev nD) (t : Fin cfg1.N) (h : ¬t.val % 8 = 0) (h7 : ¬t.val % 8 = 7) :
    colsAt V c t.val t.isLt = (outIdle, accMid c (grid1.coords t) (inM0 t) (inW0 t) (inM1 t) (inW1 t) (inM2 t) (inW2 t) (inM3 t) (inW3 t) (inM4 t) (inW4 t) (outM t) (outW t) accM (Memref.isWhole_whole _)
      (notFirst_of t h) (notLast_of t h7) (blk0 V c t) (blk1 V c t) (blk2 V c t) (blk3 V c t) (blk4 V c t)
      (colsAt V c (t.val - 1) (Nat.lt_of_le_of_lt (Nat.sub_le _ _) t.isLt)).2) := by
  obtain ⟨n, hn⟩ := t
  cases n with
  | zero => exact absurd (Nat.zero_mod _) h
  | succ n => exact (dif_neg h).trans ((dif_neg h7).trans rfl)

/-- `colsAt` at a last column: the output block written, over what the point before left in the accumulator. -/
theorem colsAt_last (c : Dev nD) (t : Fin cfg1.N) (h : ¬t.val % 8 = 0) (h7 : t.val % 8 = 7) :
    colsAt V c t.val t.isLt = (outLast c (grid1.coords t) (inM0 t) (inW0 t) (inM1 t) (inW1 t) (inM2 t) (inW2 t) (inM3 t) (inW3 t) (inM4 t) (inW4 t) (outM t) (outW t) accM (Memref.isWhole_whole _)
        (notFirst_of t h) (last_of t h7) (blk0 V c t) (blk1 V c t) (blk2 V c t) (blk3 V c t) (blk4 V c t)
        (colsAt V c (t.val - 1) (Nat.lt_of_le_of_lt (Nat.sub_le _ _) t.isLt)).2,
      accLast c (grid1.coords t) (inM0 t) (inW0 t) (inM1 t) (inW1 t) (inM2 t) (inW2 t) (inM3 t) (inW3 t) (inM4 t) (inW4 t) (outM t) (outW t) accM (Memref.isWhole_whole _)
        (notFirst_of t h) (last_of t h7) (blk0 V c t) (blk1 V c t) (blk2 V c t) (blk3 V c t) (blk4 V c t)
        (colsAt V c (t.val - 1) (Nat.lt_of_le_of_lt (Nat.sub_le _ _) t.isLt)).2) := by
  obtain ⟨n, hn⟩ := t
  cases n with
  | zero => exact absurd (Nat.zero_mod _) h
  | succ n => exact (dif_neg h).trans ((dif_pos h7).trans rfl)

/-! ## The invariant between points -/

/-- The core's scoped buffers other than the accumulator (the other kernel's staging buffers and scratch), each whole at
    some contents: the body never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- Six conjuncts and a seventh: the last of the six taken out of the chain. -/
theorem sep_last_out (A B C D E S G : sProp 𝕄) :
    iprop((A ∗ B ∗ C ∗ D ∗ E ∗ S) ∗ G) = iprop(((A ∗ B ∗ C ∗ D ∗ E) ∗ S) ∗ G) :=
  BI.Entails.antisymm
    (show iprop((A ∗ B ∗ C ∗ D ∗ E ∗ S) ∗ G) ⊢ iprop(((A ∗ B ∗ C ∗ D ∗ E) ∗ S) ∗ G) from by
      iintro ⟨⟨Ha, Hb, Hc, Hd, He, HS⟩, Hg⟩
      isplitr [Hg]
      · isplitr [HS]
        · isplitl [Ha]; · iexact Ha
          isplitl [Hb]; · iexact Hb
          isplitl [Hc]; · iexact Hc
          isplitl [Hd]; · iexact Hd
          iexact He
        iexact HS
      iexact Hg)
    (show iprop(((A ∗ B ∗ C ∗ D ∗ E) ∗ S) ∗ G) ⊢ iprop((A ∗ B ∗ C ∗ D ∗ E ∗ S) ∗ G) from by
      iintro ⟨⟨⟨Ha, Hb, Hc, Hd, He⟩, HS⟩, Hg⟩
      isplitr [Hg]
      · isplitl [Ha]; · iexact Ha
        isplitl [Hb]; · iexact Hb
        isplitl [Hc]; · iexact Hc
        isplitl [Hd]; · iexact Hd
        isplitl [He]; · iexact He
        iexact HS
      iexact Hg)

/-- What the region is handed, with the accumulator singled out. -/
theorem scoped_split (c : Dev nD) :
    (Pipeline.ΦA spec1 c : sProp 𝕄)
      = iprop((others c ∗ (∃ d, owns (c : Thread nD τ) accM fullShare d)) ∗ (∃ r, prngReg c r)) := by
  unfold Pipeline.ΦA others; rw [scopedRest1_eq]; simp only [accM, owns_whole]
  exact sep_last_out _ _ _ _ _ _ _

/-- Before position `n`: at the first point everything scoped at anything; afterwards the accumulator at what the point
    before left, the other scoped buffers at anything, the generator register at some state. -/
def Inv (c : Dev nD) : (n : ℕ) → n ≤ cfg1.N → sProp 𝕄
  | 0, _ => Pipeline.ΦA spec1 c
  | n + 1, hn => iprop((others c ∗ owns (c : Thread nD τ) accM fullShare ((colsAt V c n hn).2)) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop((others c ∗ owns (c : Thread nD τ) accM fullShare ((colsAt V c n hn).2)) ∗ (∃ r, prngReg c r)) := rfl
theorem Inv_pos (c : Dev nD) (n : ℕ) (h : n ≤ cfg1.N) (hz : n ≠ 0) :
    Inv V c n h = iprop((others c ∗ owns (c : Thread nD τ) accM fullShare ((colsAt V c (n - 1) (by omega)).2)) ∗ (∃ r, prngReg c r)) := by
  cases n with
  | zero => exact absurd rfl hz
  | succ n => rfl

/-! ## The proof data -/

/-- The pipeline's proof data on core `c`: the six arrays as the region finds them; after the body each input window's
    buffer at its block and the output's at `colsAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => (colsAt V c t.val t.isLt).1
  Φ t := Inv V c t.val (Nat.le_of_lt_succ t.isLt)
  q _ := fullShare
  owed _ := 0

theorem dat_A (c : Dev nD) (w : Fin cfg1.W) : (dat V c).A w = V c (Pipeline.arrRef spec1 w) := by dsimp only [dat]
theorem dat_Inv_castSucc (c : Dev nD) (t : Fin cfg1.N) : (dat V c).Φ t.castSucc = Inv V c t.val (Nat.le_of_lt t.isLt) := by
  dsimp only [dat]; simp only [Fin.coe_castSucc]
theorem dat_after_0 (c : Dev nD) (t : Fin cfg1.N) : (dat V c).after 0 t = blk0 V c t := by dsimp only [dat]
theorem dat_after_1 (c : Dev nD) (t : Fin cfg1.N) : (dat V c).after 1 t = blk1 V c t := by dsimp only [dat]
theorem dat_after_2 (c : Dev nD) (t : Fin cfg1.N) : (dat V c).after 2 t = blk2 V c t := by dsimp only [dat]
theorem dat_after_3 (c : Dev nD) (t : Fin cfg1.N) : (dat V c).after 3 t = blk3 V c t := by dsimp only [dat]
theorem dat_after_4 (c : Dev nD) (t : Fin cfg1.N) : (dat V c).after 4 t = blk4 V c t := by dsimp only [dat]
theorem dat_after_out (c : Dev nD) (t : Fin cfg1.N) : (dat V c).after 5 t = (colsAt V c t.val t.isLt).1 := by dsimp only [dat]

/-- The adjacency window's current staging buffer holds its block at every point, fetched there or not. -/
theorem dat_before_0 (c : Dev nD) (t : Fin cfg1.N) (d) : (dat V c).before 0 t d = blk0 V c t :=
  ((dat V c).before_in_eq_fetched 0 rfl (fun _ => rfl) (fun _ _ _ => rfl)
      (fun t => by rw [dat_after_0]; unfold Dat.blockOf blk0; rw [dat_A]; try rfl) t d).trans
    (by unfold Dat.fetched Dat.blockOf blk0; rw [dat_A]; try rfl)
/-- The scaled features window's current staging buffer holds its block at every point, fetched there or not. -/
theorem dat_before_1 (c : Dev nD) (t : Fin cfg1.N) (d) : (dat V c).before 1 t d = blk1 V c t :=
  ((dat V c).before_in_eq_fetched 1 rfl (fun _ => rfl) (fun _ _ _ => rfl)
      (fun t => by rw [dat_after_1]; unfold Dat.blockOf blk1; rw [dat_A]; try rfl) t d).trans
    (by unfold Dat.fetched Dat.blockOf blk1; rw [dat_A]; try rfl)
/-- The features' row window's current staging buffer holds its block at every point, fetched there or not. -/
theorem dat_before_2 (c : Dev nD) (t : Fin cfg1.N) (d) : (dat V c).before 2 t d = blk2 V c t :=
  ((dat V c).before_in_eq_fetched 2 rfl (fun _ => rfl) (fun _ _ _ => rfl)
      (fun t => by rw [dat_after_2]; unfold Dat.blockOf blk2; rw [dat_A]; try rfl) t d).trans
    (by unfold Dat.fetched Dat.blockOf blk2; rw [dat_A]; try rfl)
/-- The normaliser's row window's current staging buffer holds its block at every point, fetched there or not. -/
theorem dat_before_3 (c : Dev nD) (t : Fin cfg1.N) (d) : (dat V c).before 3 t d = blk3 V c t :=
  ((dat V c).before_in_eq_fetched 3 rfl (fun _ => rfl) (fun _ _ _ => rfl)
      (fun t => by rw [dat_after_3]; unfold Dat.blockOf blk3; rw [dat_A]; try rfl) t d).trans
    (by unfold Dat.fetched Dat.blockOf blk3; rw [dat_A]; try rfl)
/-- The weight window's current staging buffer holds its block at every point, fetched there or not. -/
theorem dat_before_4 (c : Dev nD) (t : Fin cfg1.N) (d) : (dat V c).before 4 t d = blk4 V c t :=
  ((dat V c).before_in_eq_fetched 4 rfl (fun _ => rfl) (fun _ _ _ => rfl)
      (fun t => by rw [dat_after_4]; unfold Dat.blockOf blk4; rw [dat_A]; try rfl) t d).trans
    (by unfold Dat.fetched Dat.blockOf blk4; rw [dat_A]; try rfl)

end Cert.Kernel.Gcn

end
-- ==== Proof.Bits.GcnBody.lean ====
/-
  The graph-convolution kernel's body meets its obligation at every point of the grid: from the invariant before the
  point, the five input windows' staging buffers at their blocks and the output window's at whatever it holds, the body
  runs to its return leaving the invariant after the point, the input buffers as they were, and the output buffer idle
  (first and middle columns) or at the layer's rows (last columns).
-/
import proofs.«149493_j3556232921092_2_alg».proof.Proof.Bits.GcnData

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- No input window is ever idle. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem in_live3 : ∀ t : Fin cfg1.N, cfg1.idle 3 (grid1.coords t) = false := by decide +kernel
theorem in_live4 : ∀ t : Fin cfg1.N, cfg1.idle 4 (grid1.coords t) = false := by decide +kernel
/-- Off the last columns the output window is idle and is not written back; at the last columns it is live. -/
theorem out_idle : ∀ t : Fin cfg1.N, ¬t.val % 8 = 7 → cfg1.idle 5 (grid1.coords t) = true := by decide +kernel
theorem out_noFlush : ∀ t : Fin cfg1.N, ¬t.val % 8 = 7 → (cfg1.win 5).flush t = false := by decide +kernel
theorem out_live : ∀ t : Fin cfg1.N, t.val % 8 = 7 → cfg1.idle 5 (grid1.coords t) = false := by decide +kernel

variable (V : (c : Dev nD) → (b : Ref sig .tc) → Buf (Elt F) ((c : Thread nD τ).loc b))

/-! ## The obligation at a generic point -/

/-- What the body is called with at point `t`, the six windows one by one, -/
def bodyPre (c : Dev nD) (t : Fin cfg1.N) : sProp 𝕄 :=
  iprop((dat V c).Φ t.castSucc ∗ (dat V c).owesAt () t.castSucc
    ∗ (∃ d, owns (c : Thread nD τ) (inM0 t) fullShare ((dat V c).before 0 t d))
    ∗ (∃ d, owns (c : Thread nD τ) (inM1 t) fullShare ((dat V c).before 1 t d))
    ∗ (∃ d, owns (c : Thread nD τ) (inM2 t) fullShare ((dat V c).before 2 t d))
    ∗ (∃ d, owns (c : Thread nD τ) (inM3 t) fullShare ((dat V c).before 3 t d))
    ∗ (∃ d, owns (c : Thread nD τ) (inM4 t) fullShare ((dat V c).before 4 t d))
    ∗ (∃ d, owns (c : Thread nD τ) (outM t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_0, dat_before_1, dat_before_2, dat_before_3, dat_before_4]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg1.N = 32 from N_1)
  rw [show (dat V c).leavesExact 0 t = owns (c : Thread nD τ) (inM0 t) fullShare ((dat V c).after 0 t) from by
    unfold Dat.leavesExact; rw [in_live0 t], dat_after_0]
  rw [show (dat V c).leavesExact 1 t = owns (c : Thread nD τ) (inM1 t) fullShare ((dat V c).after 1 t) from by
    unfold Dat.leavesExact; rw [in_live1 t], dat_after_1]
  rw [show (dat V c).leavesExact 2 t = owns (c : Thread nD τ) (inM2 t) fullShare ((dat V c).after 2 t) from by
    unfold Dat.leavesExact; rw [in_live2 t], dat_after_2]
  rw [show (dat V c).leavesExact 3 t = owns (c : Thread nD τ) (inM3 t) fullShare ((dat V c).after 3 t) from by
    unfold Dat.leavesExact; rw [in_live3 t], dat_after_3]
  rw [show (dat V c).leavesExact 4 t = owns (c : Thread nD τ) (inM4 t) fullShare ((dat V c).after 4 t) from by
    unfold Dat.leavesExact; rw [in_live4 t], dat_after_4]
  by_cases h : t.val % 8 = 0
  · -- a first column
    have h7 : ¬t.val % 8 = 7 := by omega
    rw [Dat.leavesExact_idle (dat V c) 5 t (out_idle t h7) (out_noFlush t h7)]
    rw [colsAt_first V c t h]
    unfold accFirst; (try dsimp only)
    by_cases hz : t.val = 0
    · rw [dat_Inv_castSucc V c t, Inv_zero V c _ _ hz, scoped_split]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ (first_of t h) (first_notLast t h) (blk0 V c t) (blk1 V c t) (blk2 V c t) (blk3 V c t) (blk4 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accFirst_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ (first_of t h) (first_notLast t h) (blk0 V c t) (blk1 V c t) (blk2 V c t) (blk3 V c t) (blk4 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accFirst_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h (by rw [e])
    by_cases h7 : t.val % 8 = 7
    · -- a last column
      rw [show (dat V c).leavesExact 5 t = owns (c : Thread nD τ) (outM t) fullShare ((dat V c).after 5 t) from by
        unfold Dat.leavesExact; rw [out_live t h7], dat_after_out]
      rw [colsAt_last V c t h h7]
      unfold outLast accLast; (try dsimp only)
      rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (notFirst_of t h) (last_of t h7) (blk0 V c t) (blk1 V c t) (blk2 V c t) (blk3 V c t) (blk4 V c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accLast_cover c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outLast_cover c _ _ _ _ _ _ _ _ _ _ _ _ _ _ _ _ _ _ _ _ _ _ _)
    · -- a middle column
      rw [Dat.leavesExact_idle (dat V c) 5 t (out_idle t h7) (out_noFlush t h7)]
      rw [colsAt_mid V c t h h7]
      unfold accMid; (try dsimp only)
      rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (notFirst_of t h) (notLast_of t h7) (blk0 V c t) (blk1 V c t) (blk2 V c t) (blk3 V c t) (blk4 V c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accMid_cover c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem inv_in (c : Dev nD) : Pipeline.ΦA spec1 c ⊢ (dat V c).Φ 0 := by
  rw [show (dat V c).Φ 0 = Inv V c 0 (Nat.zero_le _) from rfl, Inv_zero V c 0 _ rfl]

/-- and after the last point the invariant gives it back: the accumulator's contents are forgotten. -/
theorem inv_out (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = Inv V c (Fin.last cfg1.N).val (Nat.le_of_lt_succ (Fin.last cfg1.N).isLt) from rfl,
    Inv_pos V c _ _ ht, scoped_split]
  iintro ⟨⟨Hoth, HS⟩, Hg⟩
  isplitl [HS Hoth]
  · isplitl [Hoth]
    · iexact Hoth
    iexists _; iexact HS
  iexact Hg

end Cert.Kernel.Gcn

end
-- ==== Proof.Bits.KernelRun.lean ====
/-
  The kernel's program, as printed at the word level, run from the launch to the return: the assembly of the two regions with the
  graph-convolution kernel's proof data put in for the second region.
-/
import proofs.«149493_j3556232921092_2_alg».proof.Proof.Bits.Whole
import proofs.«149493_j3556232921092_2_alg».proof.Proof.Bits.GcnBody

noncomputable section

namespace Cert.Kernel.Whole

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-- The second region's two varying fields, taken from the graph-convolution kernel's proof data. -/
abbrev gcnAfter : AfterT F := fun V c => (Gcn.dat V c).after
abbrev gcnInv : InvT F := fun V c => (Gcn.dat V c).Φ

/-- The record the assembly builds from them is that proof data itself. -/
theorem dat1_gcn (V : Vals F) (c : Dev nD) : dat1 gcnAfter gcnInv V c = Gcn.dat V c := rfl

/-- The three facts the assembly needs of the second region. -/
theorem gcnRegion : SecondRegion (F := F) gcnAfter gcnInv where
  body V c := Gcn.body_obligation V c
  entry V c := Gcn.inv_in V c
  exit V c := Gcn.inv_out V c

variable (m : (ℓ : Loc nD τ sig) → Buf (Elt F) ℓ) (ρ : Dev nD → PrngReg)

/-- THE RUN of the program: it terminates without a fault, the result array holding what the second pipeline leaves in it
    from the contents after the host operations, the three argument arrays as launched. -/
theorem run :
    θ_run defs (onTc (τ := τ) (main (F := F))) ⟨m, fun _ => 0, ρ⟩ (fun r => ∀ c : Dev nD,
      r.2.mem ((c.tc : Thread nD τ).loc main_v4) = (Gcn.dat (R2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_named m ρ gcnAfter gcnInv gcnRegion

/-- The frame: the three argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.Kernel.Whole

end
-- ==== Proof.DegRuns.lean ====
/-
  The degree kernel's body, run symbolically on any staging memrefs.

  The grid is 16 row blocks by 2 column blocks; the point's column decides what the body does. At a first column it
  zeroes the column accumulator (the scratch), then adds the row sums of the point's 512 x 4096 block of the adjacency
  matrix; the output block is not touched. At a last column it adds the block's row sums to what the point before left
  in the accumulator, then writes 1 / sqrt (accumulator + 1 + eps) into the output block.
-/
import proofs.«149493_j3556232921092_2_alg».proof.Proof.Gen.KernelIdeal.Skeleton
import proofs.«149493_j3556232921092_2_alg».proof.Proof.Gen.KernelIdeal.Launch
import proofs.«149493_j3556232921092_2_alg».proof.Proof.Gen.KernelIdeal.Points
import Idealize.ShloMosaic.Lib.Pipeline.Frame
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The point is in the first column of its row of blocks: the accumulator is zeroed. -/
abbrev firstCol (i : grid0.Coords) : Prop :=
  (Scalar.cmpi .ne (Scalar.extui (Scalar.cmpi .eq (BitVec.ofNat 32 (i 1).val) 0#32)) 0#32) = 1#1
/-- The point is in the last column: the normaliser is written out. -/
abbrev lastCol (i : grid0.Coords) : Prop := k0_cond2 i = 1#1

/-- With two columns per row of blocks, the first column is the even points and the last the odd ones. -/
theorem firstCol_iff : ∀ t : Fin cfg0.N, firstCol (grid0.coords t) ↔ t.val % 2 = 0 :=
  (by decide +kernel : ∀ t : Fin grid0.N, firstCol (grid0.coords t) ↔ t.val % 2 = 0)
theorem lastCol_iff : ∀ t : Fin cfg0.N, lastCol (grid0.coords t) ↔ t.val % 2 = 1 :=
  (by decide +kernel : ∀ t : Fin grid0.N, lastCol (grid0.coords t) ↔ t.val % 2 = 1)

/-! ## The body at a first column -/

set_option maxHeartbeats 1000000 in
/-- At a first column: from the adjacency block held whole at `x0`, the output block at anything `xi` and the
    accumulator at anything, the body runs to its return with the first two as they were and the accumulator holding
    the stores it made, last first (the witness the run finds). -/
noncomputable def runFirst (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : firstCol i) (hl : ¬lastCol i) (x0 : Vec F S512x4096 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi
                ∗ (∃ f, arg4.view.loc (c : Thread nD τ) ↦[arg4.view.set]{fullShare} arg4.view.writes (Elt F) f LS)) -∗ K ⟨⟩))
          ⊢ wp frame (wpE (defs₀ (F := F)) Variants.none c none) E (cc0__deg_kernel i arg2 harg2 arg3 harg3 arg4 harg4) K } := by
  refine ⟨?_, fun xi E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Deg

end
-- ==== Proof.DegRunLast.lean ====
/-
  The degree kernel's body at a last column: the block's row sums are added to what the point before left in the
  accumulator, and the normaliser 1 / sqrt (accumulator + 1 + eps) is written into the output block.
-/
import proofs.«149493_j3556232921092_2_alg».proof.Proof.DegRuns

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last column: from the adjacency block held whole at `x0`, the accumulator at `xs` (what the point before
    left) and the output block at anything, the body runs to its return with the adjacency block as it was and the
    output block and the accumulator each holding the stores it made, last first (the witnesses the run finds). -/
noncomputable def runLast (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : ¬firstCol i) (hl : lastCol i) (x0 : Vec F S512x4096 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__deg_kernel i arg2 harg2 arg3 harg3 arg4 harg4) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hf | exact hl)
    sl_step
    iapply Hk
    isplitl [H0]
    · iexists _; isplitr; · ipureintro; exact harg2.read_unread _
      iexact H0
    isplitl [H1]
    · iexists _; iexact H1
    iexists _; iexact HS

end Cert.KernelIdeal.Deg

end
-- ==== Proof.DegData.lean ====
/-
  The degree kernel's pipeline, point by point, from any contents `V` of the buffers at the region's entry.

  The 32 points run through 16 rows of blocks, two columns each. After an even point (a first column) the accumulator
  holds the row sums of that point's block of the adjacency matrix, added to zero; the output block is idle there and is
  not written back. After an odd point (a last column) the accumulator holds the previous contents plus the block's row
  sums, and the output block holds the normaliser computed from it, which the pipeline writes back to rows 512 r .. of the
  result. `colsAt` is that recursion; the invariant between points keeps the accumulator at `colsAt`'s second component.
-/
import proofs.«149493_j3556232921092_2_alg».proof.Proof.DegRunLast
import Idealize.ShloMosaic.Lib.Pipeline.FrameBody
import Idealize.ShloMosaic.Lib.Pipeline.FrameSuffix
import Idealize.ShloMosaic.Lib.Ring

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- The adjacency window's and the output window's current staging memref at point `t`, and their wholeness. -/
abbrev inM (t : Fin cfg0.N) : Memref sig .tc .vmem S512x4096 .f32 := win0_0.stage (cfg0.slots t 0)
abbrev inW (t : Fin cfg0.N) : (inM t).IsWhole := hstage0_0 ((cfg0.slots t 0).cast nbuf0_0)
abbrev outM (t : Fin cfg0.N) : Memref sig .tc .vmem S512x1 .f32 := win0_1.stage (cfg0.slots t 1)
abbrev outW (t : Fin cfg0.N) : (outM t).IsWhole := hstage0_1 ((cfg0.slots t 1).cast nbuf0_1)
/-- The accumulator: the kernel's own scratch buffer, whole. -/
abbrev accM : Memref sig .tc .vmem S512x1 .f32 := Memref.whole cc0_scratch0
/-- Views through which contents are stated (which staging buffer is chosen does not matter for a covering list). -/
abbrev VOut : View sig .tc .vmem S512x1 .f32 := (Memref.whole cc0_stg1_0 : Memref sig .tc .vmem S512x1 .f32).view
abbrev VAcc : View sig .tc .vmem S512x1 .f32 := accM.view

/-! ## What each case leaves -/

section Cases
variable (c : Dev nD) (i : grid0.Coords)
  (arg2 : Memref sig .tc .vmem S512x4096 .f32) (harg2 : arg2.IsWhole)
  (arg3 : Memref sig .tc .vmem S512x1 .f32) (harg3 : arg3.IsWhole)
  (arg4 : Memref sig .tc .vmem S512x1 .f32) (harg4 : arg4.IsWhole)

/-- The stores a first column makes into the accumulator cover it. -/
theorem accFirst_cover (hf : firstCol i) (hl : ¬lastCol i) (x0 : Vec F S512x4096 .f32) (y : S512x1.Idx) :
    ∃ pc ∈ (runFirst c i arg2 harg2 arg3 harg3 arg4 harg4 hf hl x0).1, y ∈ pc.1.set :=
  View.cover_of_tiledL (runFirst c i arg2 harg2 arg3 harg3 arg4 harg4 hf hl x0).1 S512x1.size (by sl_kernel_rfl) y
/-- What a first column leaves in the accumulator: its stores read back. -/
def accFirst (hf : firstCol i) (hl : ¬lastCol i) (x0 : Vec F S512x4096 .f32) : Vec F S512x1 .f32 :=
  VAcc.read (Elt F) (VAcc.writes (Elt F) VAcc.junk (runFirst c i arg2 harg2 arg3 harg3 arg4 harg4 hf hl x0).1)

/-- The stores a last column makes into the output block cover it, -/
theorem outLast_cover (hf : ¬firstCol i) (hl : lastCol i) (x0 : Vec F S512x4096 .f32) (xs : Vec F S512x1 .f32) (y : S512x1.Idx) :
    ∃ pc ∈ (runLast c i arg2 harg2 arg3 harg3 arg4 harg4 hf hl x0 xs).1, y ∈ pc.1.set :=
  View.cover_of_tiledL (runLast c i arg2 harg2 arg3 harg3 arg4 harg4 hf hl x0 xs).1 S512x1.size (by sl_kernel_rfl) y
/-- and those into the accumulator cover it. -/
theorem accLast_cover (hf : ¬firstCol i) (hl : lastCol i) (x0 : Vec F S512x4096 .f32) (xs : Vec F S512x1 .f32) (y : S512x1.Idx) :
    ∃ pc ∈ (runLast c i arg2 harg2 arg3 harg3 arg4 harg4 hf hl x0 xs).2.1, y ∈ pc.1.set :=
  View.cover_of_tiledL (runLast c i arg2 harg2 arg3 harg3 arg4 harg4 hf hl x0 xs).2.1 S512x1.size (by sl_kernel_rfl) y
/-- What a last column leaves in the output block, -/
def outLast (hf : ¬firstCol i) (hl : lastCol i) (x0 : Vec F S512x4096 .f32) (xs : Vec F S512x1 .f32) : Vec F S512x1 .f32 :=
  VOut.read (Elt F) (VOut.writes (Elt F) VOut.junk (runLast c i arg2 harg2 arg3 harg3 arg4 harg4 hf hl x0 xs).1)
/-- and in the accumulator. -/
def accLast (hf : ¬firstCol i) (hl : lastCol i) (x0 : Vec F S512x4096 .f32) (xs : Vec F S512x1 .f32) : Vec F S512x1 .f32 :=
  VAcc.read (Elt F) (VAcc.writes (Elt F) VAcc.junk (runLast c i arg2 harg2 arg3 harg3 arg4 harg4 hf hl x0 xs).2.1)
end Cases

/-- The output block where the body does not touch it: nothing consults it (the window is idle and not written back). -/
def outIdle : Vec F S512x1 .f32 := VOut.read (Elt F) (VOut.writes (Elt F) VOut.junk [])

/-! ## Point by point -/

variable (V : (c : Dev nD) → (b : Ref sig .tc) → Buf (Elt F) ((c : Thread nD τ).loc b))

/-- The adjacency window's block at point `t`, read off its array as the region finds it. -/
def adjBlk (c : Dev nD) (t : Fin cfg0.N) : ((cfg0.win 0).xblock (cfg0.grid.coords t)).Idx → Elt F (cfg0.win 0).elt :=
  ((cfg0.win 0).blk t).view.read (Elt F) (V c (Pipeline.arrRef spec0 0))

theorem even_first (t : Fin cfg0.N) (h : t.val % 2 = 0) : firstCol (grid0.coords t) := (firstCol_iff t).mpr h
theorem even_notLast (t : Fin cfg0.N) (h : t.val % 2 = 0) : ¬lastCol (grid0.coords t) := fun hl => by
  have := (lastCol_iff t).mp hl; omega
theorem odd_notFirst (t : Fin cfg0.N) (h : ¬t.val % 2 = 0) : ¬firstCol (grid0.coords t) := fun hf => h ((firstCol_iff t).mp hf)
theorem odd_last (t : Fin cfg0.N) (h : ¬t.val % 2 = 0) : lastCol (grid0.coords t) := (lastCol_iff t).mpr (by omega)

/-- THE RECURSION. What the output block and the accumulator hold after the body at position `n`: at an even position the
    idle output and the block's row sums from zero; at an odd one the normaliser and the sums over what position `n - 1` left. -/
def colsAt (c : Dev nD) : (n : ℕ) → n < cfg0.N → Vec F S512x1 .f32 × Vec F S512x1 .f32
  | 0, hn => (outIdle, accFirst c (grid0.coords ⟨0, hn⟩) (inM ⟨0, hn⟩) (inW ⟨0, hn⟩) (outM ⟨0, hn⟩) (outW ⟨0, hn⟩) accM (Memref.isWhole_whole _)
      (even_first ⟨0, hn⟩ rfl) (even_notLast ⟨0, hn⟩ rfl) (adjBlk V c ⟨0, hn⟩))
  | n + 1, hn =>
    if h : (n + 1) % 2 = 0 then
      (outIdle, accFirst c (grid0.coords ⟨n + 1, hn⟩) (inM ⟨n + 1, hn⟩) (inW ⟨n + 1, hn⟩) (outM ⟨n + 1, hn⟩) (outW ⟨n + 1, hn⟩) accM (Memref.isWhole_whole _)
        (even_first ⟨n + 1, hn⟩ h) (even_notLast ⟨n + 1, hn⟩ h) (adjBlk V c ⟨n + 1, hn⟩))
    else
      (outLast c (grid0.coords ⟨n + 1, hn⟩) (inM ⟨n + 1, hn⟩) (inW ⟨n + 1, hn⟩) (outM ⟨n + 1, hn⟩) (outW ⟨n + 1, hn⟩) accM (Memref.isWhole_whole _)
          (odd_notFirst ⟨n + 1, hn⟩ h) (odd_last ⟨n + 1, hn⟩ h) (adjBlk V c ⟨n + 1, hn⟩) (colsAt c n (Nat.lt_of_succ_lt hn)).2,
        accLast c (grid0.coords ⟨n + 1, hn⟩) (inM ⟨n + 1, hn⟩) (inW ⟨n + 1, hn⟩) (outM ⟨n + 1, hn⟩) (outW ⟨n + 1, hn⟩) accM (Memref.isWhole_whole _)
          (odd_notFirst ⟨n + 1, hn⟩ h) (odd_last ⟨n + 1, hn⟩ h) (adjBlk V c ⟨n + 1, hn⟩) (colsAt c n (Nat.lt_of_succ_lt hn)).2)

/-- `colsAt` at an even point. -/
theorem colsAt_even (c : Dev nD) (t : Fin cfg0.N) (h : t.val % 2 = 0) :
    colsAt V c t.val t.isLt = (outIdle, accFirst c (grid0.coords t) (inM t) (inW t) (outM t) (outW t) accM (Memref.isWhole_whole _)
      (even_first t h) (even_notLast t h) (adjBlk V c t)) := by
  obtain ⟨n, hn⟩ := t
  cases n with
  | zero => rfl
  | succ n => exact (dif_pos h).trans rfl

/-- `colsAt` at an odd point: over what the point before left in the accumulator. -/
theorem colsAt_odd (c : Dev nD) (t : Fin cfg0.N) (h : ¬t.val % 2 = 0) :
    colsAt V c t.val t.isLt = (outLast c (grid0.coords t) (inM t) (inW t) (outM t) (outW t) accM (Memref.isWhole_whole _)
        (odd_notFirst t h) (odd_last t h) (adjBlk V c t) (colsAt V c (t.val - 1) (Nat.lt_of_le_of_lt (Nat.sub_le _ _) t.isLt)).2,
      accLast c (grid0.coords t) (inM t) (inW t) (outM t) (outW t) accM (Memref.isWhole_whole _)
        (odd_notFirst t h) (odd_last t h) (adjBlk V c t) (colsAt V c (t.val - 1) (Nat.lt_of_le_of_lt (Nat.sub_le _ _) t.isLt)).2) := by
  obtain ⟨n, hn⟩ := t
  cases n with
  | zero => exact absurd (Nat.zero_mod _) h
  | succ n => exact (dif_neg h).trans rfl

/-! ## The invariant between points -/

/-- The core's scoped buffers other than the accumulator (the other kernel's staging buffers and scratch), each whole at
    some contents: the body never touches them. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- What the region is handed, with the accumulator singled out. -/
theorem scoped_split (c : Dev nD) :
    (Pipeline.ΦA spec0 c : sProp 𝕄)
      = iprop(((∃ d, owns (c : Thread nD τ) accM fullShare d) ∗ others c) ∗ (∃ r, prngReg c r)) := by
  unfold Pipeline.ΦA others; rw [scopedRest0_eq]; simp only [accM, owns_whole]
  rfl

/-- Before position `n`: at the first point everything scoped at anything; afterwards the accumulator at what the point
    before left, the other scoped buffers at anything, the generator register at some state. -/
def Inv (c : Dev nD) : (n : ℕ) → n ≤ cfg0.N → sProp 𝕄
  | 0, _ => Pipeline.ΦA spec0 c
  | n + 1, hn => iprop((owns (c : Thread nD τ) accM fullShare ((colsAt V c n hn).2) ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop((owns (c : Thread nD τ) accM fullShare ((colsAt V c n hn).2) ∗ others c) ∗ (∃ r, prngReg c r)) := rfl
theorem Inv_pos (c : Dev nD) (n : ℕ) (h : n ≤ cfg0.N) (hz : n ≠ 0) :
    Inv V c n h = iprop((owns (c : Thread nD τ) accM fullShare ((colsAt V c (n - 1) (by omega)).2) ∗ others c) ∗ (∃ r, prngReg c r)) := by
  cases n with
  | zero => exact absurd rfl hz
  | succ n => rfl

/-! ## The proof data -/

/-- The pipeline's proof data on core `c`: the two arrays as the region finds them; after the body the adjacency window's
    buffer at its block and the output's at `colsAt`; the invariant above; nothing owed; full shares. -/
def dat (c : Dev nD) : Dat τ (Elt F) Unit ℕ (UR sig nD τ) ℕ cfg0 c where
  A w := V c (Pipeline.arrRef spec0 w)
  after w t := match w with
    | ⟨0, _⟩ => adjBlk V c t
    | ⟨1, _⟩ => (colsAt V c t.val t.isLt).1
  Φ t := Inv V c t.val (Nat.le_of_lt_succ t.isLt)
  q _ := fullShare
  owed _ := 0

theorem dat_A (c : Dev nD) (w : Fin cfg0.W) : (dat V c).A w = V c (Pipeline.arrRef spec0 w) := by dsimp only [dat]
theorem dat_Inv_castSucc (c : Dev nD) (t : Fin cfg0.N) : (dat V c).Φ t.castSucc = Inv V c t.val (Nat.le_of_lt t.isLt) := by
  dsimp only [dat]; simp only [Fin.coe_castSucc]
theorem dat_after_in (c : Dev nD) (t : Fin cfg0.N) : (dat V c).after 0 t = adjBlk V c t := by dsimp only [dat]
theorem dat_after_out (c : Dev nD) (t : Fin cfg0.N) : (dat V c).after 1 t = (colsAt V c t.val t.isLt).1 := by dsimp only [dat]

/-- The adjacency window's current staging buffer holds its block at every point, fetched there or not. -/
theorem dat_before_in (c : Dev nD) (t : Fin cfg0.N) (d) : (dat V c).before 0 t d = adjBlk V c t :=
  ((dat V c).before_in_eq_fetched 0 rfl (fun _ => rfl) (fun _ _ _ => rfl)
      (fun t => by rw [dat_after_in]; unfold Dat.blockOf adjBlk; rw [dat_A]; try rfl) t d).trans
    (by unfold Dat.fetched Dat.blockOf adjBlk; rw [dat_A]; try rfl)

end Cert.KernelIdeal.Deg

end
-- ==== Proof.DegBody.lean ====
/-
  The degree kernel's body meets its obligation at every point of the grid: from the invariant before the point, the
  adjacency window's staging buffer at its block and the output window's at whatever it holds, the body runs to its return
  leaving the invariant after the point, the adjacency buffer as it was, and the output buffer idle (even points) or at the
  normaliser (odd points).
-/
import proofs.«149493_j3556232921092_2_alg».proof.Proof.DegData

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- The adjacency window is never idle. -/
theorem in_live : ∀ t : Fin cfg0.N, cfg0.idle 0 (grid0.coords t) = false := by decide +kernel
/-- At the even points the output window is idle and is not written back; at the odd points it is live. -/
theorem out_idle_even : ∀ t : Fin cfg0.N, t.val % 2 = 0 → cfg0.idle 1 (grid0.coords t) = true := by decide +kernel
theorem out_noFlush_even : ∀ t : Fin cfg0.N, t.val % 2 = 0 → (cfg0.win 1).flush t = false := by decide +kernel
theorem out_live_odd : ∀ t : Fin cfg0.N, ¬t.val % 2 = 0 → cfg0.idle 1 (grid0.coords t) = false := by decide +kernel

variable (V : (c : Dev nD) → (b : Ref sig .tc) → Buf (Elt F) ((c : Thread nD τ).loc b))

/-! ## The obligation at a generic point -/

/-- What the body is called with at point `t`, the two windows one by one, -/
def bodyPre (c : Dev nD) (t : Fin cfg0.N) : sProp 𝕄 :=
  iprop((dat V c).Φ t.castSucc ∗ (dat V c).owesAt () t.castSucc
    ∗ (∃ d, owns (c : Thread nD τ) (inM t) fullShare ((dat V c).before 0 t d))
    ∗ (∃ d, owns (c : Thread nD τ) (outM t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (inM t) fullShare ((dat V c).after 0 t) from by
    unfold Dat.leavesExact; rw [in_live t], dat_after_in]
  by_cases h : t.val % 2 = 0
  · -- a first column
    rw [Dat.leavesExact_idle (dat V c) 1 t (out_idle_even t h) (out_noFlush_even t h)]
    rw [colsAt_even V c t h]
    unfold accFirst; (try dsimp only)
    by_cases hz : t.val = 0
    · rw [dat_Inv_castSucc V c t, Inv_zero V c _ _ hz, scoped_split]
      iintro ⟨⟨⟨HS, Hoth⟩, Hg⟩, Ho, ⟨%d0, H0⟩, ⟨%d1, H1⟩⟩
      iapply ((runFirst c (grid0.coords t) _ _ _ _ _ _ (even_first t h) (even_notLast t h) (adjBlk V c t)).2 _ Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
    · rw [dat_Inv_castSucc V c t, Inv_pos V c _ _ hz]
      iintro ⟨⟨⟨HS, Hoth⟩, Hg⟩, Ho, ⟨%d0, H0⟩, ⟨%d1, H1⟩⟩
      iapply ((runFirst c (grid0.coords t) _ _ _ _ _ _ (even_first t h) (even_notLast t h) (adjBlk V c t)).2 _ Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _)
          iexact Hoth
        iexact Hg
      isplitl [Ho]; · iexact Ho
      isplitl [H0]; · iexact H0
      iexists _; iexact H1
  · -- a last column
    rw [show (dat V c).leavesExact 1 t = owns (c : Thread nD τ) (outM t) fullShare ((dat V c).after 1 t) from by
      unfold Dat.leavesExact; rw [out_live_odd t h], dat_after_out]
    rw [colsAt_odd V c t h]
    unfold outLast accLast; (try dsimp only)
    have hz : t.val ≠ 0 := fun e => h (by rw [e])
    rw [dat_Inv_castSucc V c t, Inv_pos V c _ _ hz]
    iintro ⟨⟨⟨HS, Hoth⟩, Hg⟩, Ho, ⟨%d0, H0⟩, ⟨%d1, H1⟩⟩
    iapply ((runLast c (grid0.coords t) _ _ _ _ _ _ (odd_notFirst t h) (odd_last t h) (adjBlk V c t) _).2.2 Set.univ _)
    isplitl [H0]; · iexact H0
    isplitl [H1]; · iexists _; iexact H1
    isplitl [HS]; · iexact HS
    iintro ⟨H0, ⟨%e1, H1⟩, ⟨%es, HS⟩⟩
    isplitl [HS Hoth Hg]
    · isplitl [HS Hoth]
      · isplitl [HS]
        · unfold owns; iexists _; isplitr
          swap; · iexact HS
          ipureintro; exact View.read_writes_of_cover _ _ _ _ _ (accLast_cover c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (outLast_cover c _ _ _ _ _ _ _ _ _ _ _)

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem inv_in (c : Dev nD) : Pipeline.ΦA spec0 c ⊢ (dat V c).Φ 0 := by
  rw [show (dat V c).Φ 0 = Inv V c 0 (Nat.zero_le _) from rfl, Inv_zero V c 0 _ rfl]

/-- and after the last point the invariant gives it back: the accumulator's contents are forgotten. -/
theorem inv_out (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = Inv V c (Fin.last cfg0.N).val (Nat.le_of_lt_succ (Fin.last cfg0.N).isLt) from rfl,
    Inv_pos V c _ _ ht, scoped_split]
  iintro ⟨⟨HS, Hoth⟩, Hg⟩
  isplitl [HS Hoth]
  · isplitl [HS]
    · iexists _; iexact HS
    iexact Hoth
  iexact Hg

end Cert.KernelIdeal.Deg

end
-- ==== Proof.Whole.lean ====
/-
  The whole program: the degree kernel's region, the three host operations that scale the features by the normaliser,
  and the graph-convolution kernel's region, run from the launch to the return.

  Between two items every unscoped buffer of a core is held at a known valuation: the launch memory, then the first
  region's two arrays replaced by what its pipeline leaves, then the host operations applied, then the second region's six
  arrays replaced by what its pipeline leaves. The run ends with the result array at what the second pipeline wrote and
  the three argument arrays as launched (no host operation writes an argument, and a region only reads them).

  The second region's proof data enters through the two fields that vary, with the three facts the assembly needs of it.
-/
import proofs.«149493_j3556232921092_2_alg».proof.Proof.DegBody
import proofs.«149493_j3556232921092_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers, reference by reference. -/
abbrev Vals (F : FTy → Type) : Type := (c : Dev nD) → (b : Ref sig .tc) → Buf (Elt F) ((c : Thread nD τ).loc b)

variable (m : (ℓ : Loc nD τ sig) → Buf (Elt F) ℓ) (ρ : Dev nD → PrngReg)
/-! ## The second region's proof data

What varies in it: what each window's staging buffer holds after the body at each point, and the invariant between points. -/

/-- What each window's staging buffer holds after the body, per entry contents, core, window and point. -/
abbrev AfterT (F : FTy → Type) : Type :=
  Vals F → (c : Dev nD) → (w : Fin cfg1.W) → Fin cfg1.N → (cfg1.win w).block.Idx → Elt F (cfg1.win w).elt
/-- The invariant before each point, per entry contents and core. -/
abbrev InvT (F : FTy → Type) : Type :=
  Vals F → (c : Dev nD) → Fin (cfg1.N + 1) → sProp (MT nD τ sig Unit (Elt F) ℕ (UR sig nD τ) ℕ)

variable (aft : AfterT F) (phi : InvT F)

/-- The second region's proof data from entry contents `V`: its six arrays as found, full shares, nothing owed. -/
def dat1 (V : Vals F) (c : Dev nD) : Dat τ (Elt F) Unit ℕ (UR sig nD τ) ℕ cfg1 c where
  A w := V c (Pipeline.arrRef spec1 w)
  after := aft V c
  Φ := phi V c
  q _ := fullShare
  owed _ := 0

/-- What the assembly needs of it: the body obligation, and the invariant's two ends. -/
structure SecondRegion : Prop where
  body : ∀ (V : Vals F) (c : Dev nD), BodyObligation (dat1 aft phi V c) (defs₀ (F := F)) Variants.none () Set.univ
  entry : ∀ (V : Vals F) (c : Dev nD), Pipeline.ΦA spec1 c ⊢ (dat1 aft phi V c).Φ 0
  exit : ∀ (V : Vals F) (c : Dev nD), (dat1 aft phi V c).Φ (Fin.last cfg1.N) ⊢ Pipeline.ΦA spec1 c

/-! ## The buffers' contents between items -/

/-- At launch (the first region's entry). -/
abbrev B0 : Dev nD → Valuation τ sig (Elt F) := fun c b => m (c, b)
abbrev R0 : Vals F := fun c b => B0 m c b
/-- After the first region: its arrays at what the pipeline leaves, every other buffer as entered. -/
def B1 (c : Dev nD) : Valuation τ sig (Elt F) :=
  Pipeline.withArrays spec0 c (B0 m c) fun w => (Deg.dat (R0 m) c).arrAt w cfg0.N
theorem B1_arr (c : Dev nD) (w : Fin cfg0.W) :
    B1 m c (Proc.devRef .tc (Pipeline.arrRef spec0 w)) = (Deg.dat (R0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev R1 : Vals F := fun c b => B1 m c b
/-- After the host operations (the second region's entry). -/
abbrev B2 : Dev nD → Valuation τ sig (Elt F) := fun c => StableHlo.after hostOps1 (B1 m c)
abbrev R2 : Vals F := fun c b => B2 m c b
/-- After the second region. -/
def B3 (c : Dev nD) : Valuation τ sig (Elt F) :=
  Pipeline.withArrays spec1 c (B2 m c) fun w => (dat1 aft phi (R2 m) c).arrAt w cfg1.N
theorem B3_arr (c : Dev nD) (w : Fin cfg1.W) :
    B3 m aft phi c (Proc.devRef .tc (Pipeline.arrRef spec1 w)) = (dat1 aft phi (R2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m aft phi c (Proc.devRef .tc b) = B2 m c (Proc.devRef .tc b) := by
  unfold B3; exact Pipeline.withArrays_of_ne spec1 c _ _ b hb
abbrev R3 : Vals F := fun c b => B3 m aft phi c b

theorem exit0_arr (c : Dev nD) (w : Fin cfg0.W) : (Deg.dat (R0 m) c).arrAt w cfg0.N = R1 m c (Pipeline.arrRef spec0 w) :=
  (B1_arr m c w).symm
theorem exit0_rest (c : Dev nD) : ∀ b, b ∉ Finset.univ.image (Pipeline.arrRef spec0) → R1 m c b = R0 m c b :=
  fun b hb => B1_of_ne m c b fun w e => hb (Finset.mem_image.mpr ⟨w, Finset.mem_univ _, e⟩)
theorem exit1_arr (c : Dev nD) (w : Fin cfg1.W) : (dat1 aft phi (R2 m) c).arrAt w cfg1.N = R3 m aft phi c (Pipeline.arrRef spec1 w) :=
  (B3_arr m aft phi c w).symm
theorem exit1_rest (c : Dev nD) : ∀ b, b ∉ Finset.univ.image (Pipeline.arrRef spec1) → R3 m aft phi c b = R2 m c b :=
  fun b hb => B3_of_ne m aft phi c b fun w e => hb (Finset.mem_image.mpr ⟨w, Finset.mem_univ _, e⟩)

/-- No host operation writes a reference outside the three it computes. -/
theorem B2_of (c : Dev nD) (r : Ref sig .tc) (h : r ∉ hostOps1_W) : B2 m c r = B1 m c r :=
  StableHlo.after_of_writes_sub hostOps1 _ hostOps1_writes h

/-! ## The proof data family and what rides along -/

abbrev adm : (p : Fin 2) → (pcfgs (F := F) p).Adm := fun p => (cfgs p).toPCfg_adm
/-- Both pipelines' proof data, each from its region's entry contents. -/
def pdats : (p : Fin 2) → (c : Dev nD) → Dat τ (Elt F) Unit ℕ (UR sig nD τ) ℕ (Pipeline.pin (pcfgs (F := F)) adm p) c
  | ⟨0, _⟩ => fun c => Deg.dat (R0 m) c
  | ⟨1, _⟩ => fun c => dat1 aft phi (R2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev Rest (c : Dev nD) : sProp 𝕄 := iprop((∃ r, prngReg c r) ∗ ∃ W, owes (c : Thread nD τ) (0 : CellTallies nD τ sig Unit) W)

/-- The host operations as a segment from the contents after the first region. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (B1 m) Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region: entered from the launch contents, left at `B1`. -/
def reg0 : Pipeline.RegionSeg (pcfgs (F := F)) adm (pdats m aft phi) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation (R0 m) c).loose
  hwaits := Pipeline.hwaits_of_owed_zero _ _ _ _ L lv 0 fun _ _ => rfl
  pre c := iprop(StableHlo.held (c : Thread nD τ) (Pipeline.ucRefs τ sig) (B0 m c) ∗ Rest c)
  post c := iprop(StableHlo.held (c : Thread nD τ) (Pipeline.ucRefs τ sig) (B1 m c) ∗ Rest c)
  X c := iprop(∃ r, prngReg c r)
  Y c := iprop(∃ r, prngReg c r)
  Z c := Pipeline.unscopedRest (Ix := Unit) (Name := ℕ) (U := UR sig nD τ) (Lvl := ℕ) spec0 c (R0 m c)
  hentry c := by
    rw [Pipeline.ownSems0_none]
    have hsplit := Pipeline.arrays_of_unscopedBufs (p := 0) (pcfgs (F := F)) adm (pdats m aft phi) launch0.win launch0.arr_whole c
      ((pdats m aft phi 0 c).share_full fun _ => rfl) (R0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Deg.inv_in (R0 m) c)
    unfold Pipeline.ΦA
    iintro ⟨Hp, -, Hr⟩
    isplitl [Hr]; · iexact Hr
    iexact Hp
  hout c := by
    rw [Pipeline.ownSems0_none]
    refine Idealize.SL.BI.BIBase.Entails.trans (Deg.inv_out (R0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m aft phi) ((pdats m aft phi 0 c).share_full fun _ => rfl)
      (R0 m c) (R1 m c) ((pdats m aft phi 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents after the host operations, left at `B3`. -/
def reg1 (h1 : SecondRegion aft phi) : Pipeline.RegionSeg (pcfgs (F := F)) adm (pdats m aft phi) () defs₀ 𝒱₀ L lv 1 where
  win := launch1.win.to₀
  block_pos := launch1.block_pos
  stage_whole := launch1.stage_whole
  K := PEmpty
  osem k := k.elim
  ho := Pipeline.OwnSemFacts.none _
  hbody c := (h1.body (R2 m) c).loose
  hwaits := Pipeline.hwaits_of_owed_zero _ _ _ _ L lv 1 fun _ _ => rfl
  pre c := iprop(StableHlo.held (c : Thread nD τ) (Pipeline.ucRefs τ sig) (B2 m c) ∗ Rest c)
  post c := iprop(StableHlo.held (c : Thread nD τ) (Pipeline.ucRefs τ sig) (B3 m aft phi c) ∗ Rest c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdats m aft phi) launch1.win launch1.arr_whole c
      ((pdats m aft phi 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (h1.entry (R2 m) c)
    unfold Pipeline.ΦA
    iintro ⟨Hp, -, Hr⟩
    isplitl [Hr]; · iexact Hr
    iexact Hp
  hout c := by
    rw [Pipeline.ownSems0_none]
    refine Idealize.SL.BI.BIBase.Entails.trans (h1.exit (R2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m aft phi) ((pdats m aft phi 1 c).share_full fun _ => rfl)
      (R2 m c) (R3 m aft phi c) ((pdats m aft phi 1 c).arrAt · cfg1.N) (exit1_arr m aft phi c) (exit1_rest m aft phi c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

abbrev segs (h1 : SecondRegion aft phi) : List (Pipeline.Seg (pcfgs (F := F)) adm (pdats m aft phi) () defs₀ 𝒱₀ L lv) :=
  [ .region (reg0 m aft phi), .host (hostSeg m), .region (reg1 m aft phi h1) ]

theorem main_run (h1 : SecondRegion aft phi) (c : Dev nD) : main (F := F) c = Pipeline.Seg.run (segs m aft phi h1) :=
  (main_chain c).trans (by chain_rfl)

/-! ## The arguments end as launched -/

theorem B3_arg1 (h1 : SecondRegion aft phi) (c : Dev nD) : B3 m aft phi c (Proc.devRef .tc main_arg1) = m ((c : Thread nD τ).loc main_arg1) :=
  calc B3 m aft phi c (Proc.devRef .tc main_arg1)
    _ = (dat1 aft phi (R2 m) c).arrAt 0 cfg1.N := B3_arr m aft phi c 0
    _ = (dat1 aft phi (R2 m) c).A 0 := (dat1 aft phi (R2 m) c).arrAt_in 0 rfl _
    _ = B2 m c (Proc.devRef .tc main_arg1) := rfl
    _ = B1 m c (Proc.devRef .tc main_arg1) := B2_of m c main_arg1 (by decide)
    _ = (Deg.dat (R0 m) c).arrAt 0 cfg0.N := B1_arr m c 0
    _ = (Deg.dat (R0 m) c).A 0 := (Deg.dat (R0 m) c).arrAt_in 0 rfl _
    _ = m ((c : Thread nD τ).loc main_arg1) := Deg.dat_A (R0 m) c 0

theorem B3_arg0 (h1 : SecondRegion aft phi) (c : Dev nD) : B3 m aft phi c (Proc.devRef .tc main_arg0) = m ((c : Thread nD τ).loc main_arg0) :=
  calc B3 m aft phi c (Proc.devRef .tc main_arg0)
    _ = (dat1 aft phi (R2 m) c).arrAt 2 cfg1.N := B3_arr m aft phi c 2
    _ = (dat1 aft phi (R2 m) c).A 2 := (dat1 aft phi (R2 m) c).arrAt_in 2 rfl _
    _ = B2 m c (Proc.devRef .tc main_arg0) := rfl
    _ = B1 m c (Proc.devRef .tc main_arg0) := B2_of m c main_arg0 (by decide)
    _ = B0 m c (Proc.devRef .tc main_arg0) := B1_of_ne m c main_arg0 (by decide)
    _ = m ((c : Thread nD τ).loc main_arg0) := rfl

theorem B3_arg2 (h1 : SecondRegion aft phi) (c : Dev nD) : B3 m aft phi c (Proc.devRef .tc main_arg2) = m ((c : Thread nD τ).loc main_arg2) :=
  calc B3 m aft phi c (Proc.devRef .tc main_arg2)
    _ = (dat1 aft phi (R2 m) c).arrAt 4 cfg1.N := B3_arr m aft phi c 4
    _ = (dat1 aft phi (R2 m) c).A 4 := (dat1 aft phi (R2 m) c).arrAt_in 4 rfl _
    _ = B2 m c (Proc.devRef .tc main_arg2) := rfl
    _ = B1 m c (Proc.devRef .tc main_arg2) := B2_of m c main_arg2 (by decide)
    _ = B0 m c (Proc.devRef .tc main_arg2) := B1_of_ne m c main_arg2 (by decide)
    _ = m ((c : Thread nD τ).loc main_arg2) := rfl

/-! ## The run -/

/-- The last thread state without the core's dues. -/
abbrev Tlast (c : Dev nD) : sProp 𝕄 := iprop(StableHlo.held (c : Thread nD τ) (Pipeline.ucRefs τ sig) (B3 m aft phi c) ∗ ∃ r, prngReg c r)

set_option backward.isDefEq.respectTransparency.types false in
/-- THE RUN. From any memory with zero counters every weakly fair execution of the program terminates, nothing faulting,
    with the result array at what the second pipeline leaves in it and the three argument arrays as launched. -/
theorem run_named (h1 : SecondRegion aft phi) :
    θ_run defs (onTc (τ := τ) (main (F := F))) ⟨m, fun _ => 0, ρ⟩ (fun r => ∀ c : Dev nD,
      r.2.mem ((c.tc : Thread nD τ).loc main_v4) = (dat1 aft phi (R2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m aft phi) () cellOf_inj emb₁ defs₀ 𝒱₀ L lv m ρ main (segs m aft phi h1)
    (fun c Q => by rw [main_run m aft phi h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tlast m aft phi)
    (hch := ⟨fun _ => .rfl, fun _ => .rfl, fun _ => .rfl, fun c => by
      show iprop(StableHlo.held (c : Thread nD τ) (Pipeline.ucRefs τ sig) (B3 m aft phi c) ∗ Rest c)
        ⊢ iprop(Tlast m aft phi c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m aft phi c b)
    (hfin := fun c s' => by
      iintro ⟨⟨Hh, -⟩, HSI⟩
      unfold StableHlo.held
      imodintro
      iapply (pointsTo_read_all (Pipeline.ucRefs τ sig) (fun b => (((c : Thread nD τ)).1, b)) (B3 m aft phi c) s')
      isplitl [Hh] <;> iassumption)
    (hQ := fun s h c =>
      ⟨(h c _ (mem_uc main_v4 (by decide))).trans (B3_arr m aft phi c 5),
       (h c _ (mem_uc main_arg0 (by decide))).trans (B3_arg0 m aft phi h1 c),
       (h c _ (mem_uc main_arg1 (by decide))).trans (B3_arg1 m aft phi h1 c),
       (h c _ (mem_uc main_arg2 (by decide))).trans (B3_arg2 m aft phi h1 c)⟩)

end Cert.KernelIdeal.Whole

end
-- ==== Proof.GcnRuns.lean ====
/-
  The graph-convolution kernel's body, run symbolically on any staging memrefs.

  The grid is 4 row blocks by 8 column blocks; the point's column decides what the body does. At every point it adds,
  to the accumulator (the scratch, 2048 x 128), the product of the point's 2048 x 1024 block of the adjacency matrix
  (rounded to bf16) with the point's 1024 x 128 block of the scaled features. At a first column it zeroes the accumulator
  before that; at a last column it then writes the output block: the accumulator plus the normaliser times the row block
  of the features, scaled by the normaliser, projected by the weight matrix, clamped at zero. Elsewhere the output
  block is not touched.
-/
import proofs.«149493_j3556232921092_2_alg».proof.Proof.Gen.KernelIdeal.Skeleton
import proofs.«149493_j3556232921092_2_alg».proof.Proof.Gen.KernelIdeal.Launch
import proofs.«149493_j3556232921092_2_alg».proof.Proof.Gen.KernelIdeal.Points
import Idealize.ShloMosaic.Lib.Pipeline.Frame
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The point is in the first column of its row of blocks: the accumulator is zeroed. -/
abbrev firstCol (i : grid1.Coords) : Prop :=
  (Scalar.cmpi .ne (Scalar.extui (Scalar.cmpi .eq (BitVec.ofNat 32 (i 1).val) 0#32)) 0#32) = 1#1
/-- The point is in the last column: the output block is written. -/
abbrev lastCol (i : grid1.Coords) : Prop := k1_cond2 i = 1#1

/-- With eight columns per row of blocks, the first column is the points divisible by eight and the last the points
    that leave seven. -/
theorem firstCol_iff : ∀ t : Fin cfg1.N, firstCol (grid1.coords t) ↔ t.val % 8 = 0 :=
  (by decide +kernel : ∀ t : Fin grid1.N, firstCol (grid1.coords t) ↔ t.val % 8 = 0)
theorem lastCol_iff : ∀ t : Fin cfg1.N, lastCol (grid1.coords t) ↔ t.val % 8 = 7 :=
  (by decide +kernel : ∀ t : Fin grid1.N, lastCol (grid1.coords t) ↔ t.val % 8 = 7)

/-! ## The body at a first column -/

set_option maxHeartbeats 1000000 in
/-- At a first column: from the five input blocks held whole at `x0` … `x4`, the output block at anything `xi` and the
    accumulator at anything, the body runs to its return with the first six as they were and the accumulator holding
    the stores it made, last first (the witness the run finds). -/
noncomputable def runFirst (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : firstCol i) (hl : ¬lastCol i)
    (x0 : Vec F S2048x1024 .f32) (x1 : Vec F S1024x128 .bf16) (x2 : Vec F S2048x128 .f32)
    (x3 : Vec F S2048x1 .f32) (x4 : Vec F S128x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, H2, H3, H4, H5, ⟨%ds0, %fs0, -, HS0⟩, Hk⟩
    obtain rfl := harg2.eq_unread hf0; obtain rfl := harg3.eq_unread hf1
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    isplitl [H4]; · iexact H4
    isplitl [H5]; · iexact H5
    iexists _; iexact HS0

end Cert.KernelIdeal.Gcn

end
-- ==== Proof.GcnRunMid.lean ====
/-
  The graph-convolution kernel's body at a middle column: the product of the point's adjacency block with its block of
  scaled features is added to what the point before left in the accumulator; the output block is not touched.
-/
import proofs.«149493_j3556232921092_2_alg».proof.Proof.GcnRuns

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle column: from the five input blocks held whole at `x0` … `x4`, the output block at anything `xi` and the
    accumulator at `xs` (what the point before left), the body runs to its return with the first six as they were and
    the accumulator holding the stores it made, last first (the witness the run finds). -/
noncomputable def runMid (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : ¬firstCol i) (hl : ¬lastCol i)
    (x0 : Vec F S2048x1024 .f32) (x1 : Vec F S1024x128 .bf16) (x2 : Vec F S2048x128 .f32)
    (x3 : Vec F S2048x1 .f32) (x4 : Vec F S128x128 .f32) (xs : Vec F S2048x128 .f32) :
    { LS : List (View.Piece (Elt F) S2048x128 .f32) //
      ∀ (xi : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, H2, H3, H4, H5, ⟨%fs, %hfs, HS⟩, Hk⟩
    obtain rfl := harg2.eq_unread hf0; obtain rfl := harg3.eq_unread hf1; obtain rfl := harg8.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    isplitl [H4]; · iexact H4
    isplitl [H5]; · iexact H5
    iexists _; iexact HS

end Cert.KernelIdeal.Gcn

end
-- ==== Proof.GcnRunLast.lean ====
/-
  The graph-convolution kernel's body at a last column: the product of the point's adjacency block with its block of
  scaled features is added to what the point before left in the accumulator, and the output block is written: the
  accumulator plus the normaliser times the features' row block, scaled by the normaliser, projected by the weight
  matrix and clamped at zero.
-/
import proofs.«149493_j3556232921092_2_alg».proof.Proof.GcnRunMid

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last column: from the five input blocks held whole at `x0` … `x4`, the accumulator at `xs` (what the point
    before left) and the output block at anything, the body runs to its return with the input blocks as they were and
    the output block and the accumulator each holding the stores it made, last first (the witnesses the run finds). -/
noncomputable def runLast (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)
    (hf : ¬firstCol i) (hl : lastCol i)
    (x0 : Vec F S2048x1024 .f32) (x1 : Vec F S1024x128 .bf16) (x2 : Vec F S2048x128 .f32)
    (x3 : Vec F S2048x1 .f32) (x4 : Vec F S128x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.KernelIdeal.Gcn

end
-- ==== Proof.GcnData.lean ====
/-
  The graph-convolution kernel's pipeline, point by point, from any contents `V` of the buffers at the region's entry.

  The 32 points run through 4 rows of blocks, eight columns each. After a first column (a point divisible by eight) the
  accumulator holds the product of that point's adjacency block with its block of scaled features, added to zero; after
  a middle column the same product added to what the point before left; in both the output block is idle and is not
  written back. After a last column (a point that leaves seven) the accumulator holds the sum over the whole row of
  blocks and the output block holds the layer's rows 2048 r .., which the pipeline writes back. `colsAt` is that
  recursion; the invariant between points keeps the accumulator at `colsAt`'s second component.
-/
import proofs.«149493_j3556232921092_2_alg».proof.Proof.GcnRunLast
import Idealize.ShloMosaic.Lib.Pipeline.FrameBody
import Idealize.ShloMosaic.Lib.Pipeline.FrameSuffix
import Idealize.ShloMosaic.Lib.Ring

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The memrefs the body is called with -/

/-- Each input window's current staging memref at point `t`, and its wholeness: the adjacency block, the block of
    scaled features, the features' row block, the normaliser's row block, the weight matrix. -/
abbrev inM0 (t : Fin cfg1.N) : Memref sig .tc .vmem S2048x1024 .f32 := win1_0.stage (cfg1.slots t 0)
abbrev inW0 (t : Fin cfg1.N) : (inM0 t).IsWhole := hstage1_0 ((cfg1.slots t 0).cast nbuf1_0)
abbrev inM1 (t : Fin cfg1.N) : Memref sig .tc .vmem S1024x128 .bf16 := win1_1.stage (cfg1.slots t 1)
abbrev inW1 (t : Fin cfg1.N) : (inM1 t).IsWhole := hstage1_1 ((cfg1.slots t 1).cast nbuf1_1)
abbrev inM2 (t : Fin cfg1.N) : Memref sig .tc .vmem S2048x128 .f32 := win1_2.stage (cfg1.slots t 2)
abbrev inW2 (t : Fin cfg1.N) : (inM2 t).IsWhole := hstage1_2 ((cfg1.slots t 2).cast nbuf1_2)
abbrev inM3 (t : Fin cfg1.N) : Memref sig .tc .vmem S2048x1 .f32 := win1_3.stage (cfg1.slots t 3)
abbrev inW3 (t : Fin cfg1.N) : (inM3 t).IsWhole := hstage1_3 ((cfg1.slots t 3).cast nbuf1_3)
abbrev inM4 (t : Fin cfg1.N) : Memref sig .tc .vmem S128x128 .f32 := win1_4.stage (cfg1.slots t 4)
abbrev inW4 (t : Fin cfg1.N) : (inM4 t).IsWhole := hstage1_4 ((cfg1.slots t 4).cast nbuf1_4)
/-- The output window's current staging memref at point `t`. -/
abbrev outM (t : Fin cfg1.N) : Memref sig .tc .vmem S2048x128 .f32 := win1_5.stage (cfg1.slots t 5)
abbrev outW (t : Fin cfg1.N) : (outM t).IsWhole := hstage1_5 ((cfg1.slots t 5).cast nbuf1_5)
/-- The accumulator: the kernel's own scratch buffer, whole. -/
abbrev accM : Memref sig .tc .vmem S2048x128 .f32 := Memref.whole cc1_scratch0
/-- Views through which contents are stated (which staging buffer is chosen does not matter for a covering list). -/
abbrev VOut : View sig .tc .vmem S2048x128 .f32 := (Memref.whole cc1_stg5_0 : Memref sig .tc .vmem S2048x128 .f32).view
abbrev VAcc : View sig .tc .vmem S2048x128 .f32 := accM.view

/-! ## What each case leaves -/

section Cases
variable (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)

/-- The stores a first column makes into the accumulator cover it. -/
theorem accFirst_cover (hf : firstCol i) (hl : ¬lastCol i) (x0 : Vec F S2048x1024 .f32) (x1 : Vec F S1024x128 .bf16) (x2 : Vec F S2048x128 .f32)
    (x3 : Vec F S2048x1 .f32) (x4 : Vec F S128x128 .f32) (y : S2048x128.Idx) :
    ∃ pc ∈ (runFirst c i arg2 harg2 arg3 harg3 arg4 harg4 arg5 harg5 arg6 harg6 arg7 harg7 arg8 harg8 hf hl x0 x1 x2 x3 x4).1, y ∈ pc.1.set :=
  View.cover_of_tiledL (runFirst c i arg2 harg2 arg3 harg3 arg4 harg4 arg5 harg5 arg6 harg6 arg7 harg7 arg8 harg8 hf hl x0 x1 x2 x3 x4).1 S2048x128.size (by sl_kernel_rfl) y
/-- What a first column leaves in the accumulator: its stores read back. -/
def accFirst (hf : firstCol i) (hl : ¬lastCol i) (x0 : Vec F S2048x1024 .f32) (x1 : Vec F S1024x128 .bf16) (x2 : Vec F S2048x128 .f32)
    (x3 : Vec F S2048x1 .f32) (x4 : Vec F S128x128 .f32) : Vec F S2048x128 .f32 :=
  VAcc.read (Elt F) (VAcc.writes (Elt F) VAcc.junk (runFirst c i arg2 harg2 arg3 harg3 arg4 harg4 arg5 harg5 arg6 harg6 arg7 harg7 arg8 harg8 hf hl x0 x1 x2 x3 x4).1)

/-- The stores a middle column makes into the accumulator cover it. -/
theorem accMid_cover (hf : ¬firstCol i) (hl : ¬lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runMid c i arg2 harg2 arg3 harg3 arg4 harg4 arg5 harg5 arg6 harg6 arg7 harg7 arg8 harg8 hf hl x0 x1 x2 x3 x4 xs).1, y ∈ pc.1.set :=
  View.cover_of_tiledL (runMid c i arg2 harg2 arg3 harg3 arg4 harg4 arg5 harg5 arg6 harg6 arg7 harg7 arg8 harg8 hf hl x0 x1 x2 x3 x4 xs).1 S2048x128.size (by sl_kernel_rfl) y
/-- What a middle column leaves in the accumulator. -/
def accMid (hf : ¬firstCol i) (hl : ¬lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VAcc.read (Elt F) (VAcc.writes (Elt F) VAcc.junk (runMid c i arg2 harg2 arg3 harg3 arg4 harg4 arg5 harg5 arg6 harg6 arg7 harg7 arg8 harg8 hf hl x0 x1 x2 x3 x4 xs).1)

/-- The stores a last column makes into the output block cover it, -/
theorem outLast_cover (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runLast c i arg2 harg2 arg3 harg3 arg4 harg4 arg5 harg5 arg6 harg6 arg7 harg7 arg8 harg8 hf hl x0 x1 x2 x3 x4 xs).1, y ∈ pc.1.set :=
  View.cover_of_tiledL (runLast c i arg2 harg2 arg3 harg3 arg4 harg4 arg5 harg5 arg6 harg6 arg7 harg7 arg8 harg8 hf hl x0 x1 x2 x3 x4 xs).1 S2048x128.size (by sl_kernel_rfl) y
/-- and those into the accumulator cover it. -/
theorem accLast_cover (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) (y : S2048x128.Idx) :
    ∃ pc ∈ (runLast c i arg2 harg2 arg3 harg3 arg4 harg4 arg5 harg5 arg6 harg6 arg7 harg7 arg8 harg8 hf hl x0 x1 x2 x3 x4 xs).2.1, y ∈ pc.1.set :=
  View.cover_of_tiledL (runLast c i arg2 harg2 arg3 harg3 arg4 harg4 arg5 harg5 arg6 harg6 arg7 harg7 arg8 harg8 hf hl x0 x1 x2 x3 x4 xs).2.1 S2048x128.size (by sl_kernel_rfl) y
/-- What a last column leaves in the output block, -/
def outLast (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VOut.read (Elt F) (VOut.writes (Elt F) VOut.junk (runLast c i arg2 harg2 arg3 harg3 arg4 harg4 arg5 harg5 arg6 harg6 arg7 harg7 arg8 harg8 hf hl x0 x1 x2 x3 x4 xs).1)
/-- and in the accumulator. -/
def accLast (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) : Vec F S2048x128 .f32 :=
  VAcc.read (Elt F) (VAcc.writes (Elt F) VAcc.junk (runLast c i arg2 harg2 arg3 harg3 arg4 harg4 arg5 harg5 arg6 harg6 arg7 harg7 arg8 harg8 hf hl x0 x1 x2 x3 x4 xs).2.1)
end Cases

/-- The output block where the body does not touch it: nothing consults it (the window is idle and not written back). -/
def outIdle : Vec F S2048x128 .f32 := VOut.read (Elt F) (VOut.writes (Elt F) VOut.junk [])

/-! ## Point by point -/

variable (V : (c : Dev nD) → (b : Ref sig .tc) → Buf (Elt F) ((c : Thread nD τ).loc b))

/-- The adjacency window's block at point `t`, read off its array as the region finds it. -/
def blk0 (c : Dev nD) (t : Fin cfg1.N) : ((cfg1.win 0).xblock (cfg1.grid.coords t)).Idx → Elt F (cfg1.win 0).elt :=
  ((cfg1.win 0).blk t).view.read (Elt F) (V c (Pipeline.arrRef spec1 0))
/-- The scaled features window's block at point `t`, read off its array as the region finds it. -/
def blk1 (c : Dev nD) (t : Fin cfg1.N) : ((cfg1.win 1).xblock (cfg1.grid.coords t)).Idx → Elt F (cfg1.win 1).elt :=
  ((cfg1.win 1).blk t).view.read (Elt F) (V c (Pipeline.arrRef spec1 1))
/-- The features' row window's block at point `t`, read off its array as the region finds it. -/
def blk2 (c : Dev nD) (t : Fin cfg1.N) : ((cfg1.win 2).xblock (cfg1.grid.coords t)).Idx → Elt F (cfg1.win 2).elt :=
  ((cfg1.win 2).blk t).view.read (Elt F) (V c (Pipeline.arrRef spec1 2))
/-- The normaliser's row window's block at point `t`, read off its array as the region finds it. -/
def blk3 (c : Dev nD) (t : Fin cfg1.N) : ((cfg1.win 3).xblock (cfg1.grid.coords t)).Idx → Elt F (cfg1.win 3).elt :=
  ((cfg1.win 3).blk t).view.read (Elt F) (V c (Pipeline.arrRef spec1 3))
/-- The weight window's block at point `t`, read off its array as the region finds it. -/
def blk4 (c : Dev nD) (t : Fin cfg1.N) : ((cfg1.win 4).xblock (cfg1.grid.coords t)).Idx → Elt F (cfg1.win 4).elt :=
  ((cfg1.win 4).blk t).view.read (Elt F) (V c (Pipeline.arrRef spec1 4))

theorem first_of (t : Fin cfg1.N) (h : t.val % 8 = 0) : firstCol (grid1.coords t) := (firstCol_iff t).mpr h
theorem first_notLast (t : Fin cfg1.N) (h : t.val % 8 = 0) : ¬lastCol (grid1.coords t) := fun hl => by
  have := (lastCol_iff t).mp hl; omega
theorem notFirst_of (t : Fin cfg1.N) (h : ¬t.val % 8 = 0) : ¬firstCol (grid1.coords t) := fun hf => h ((firstCol_iff t).mp hf)
theorem last_of (t : Fin cfg1.N) (h : t.val % 8 = 7) : lastCol (grid1.coords t) := (lastCol_iff t).mpr h
theorem notLast_of (t : Fin cfg1.N) (h : ¬t.val % 8 = 7) : ¬lastCol (grid1.coords t) := fun hl => h ((lastCol_iff t).mp hl)

/-- THE RECURSION. What the output block and the accumulator hold after the body at position `n`: at a first column the
    idle output and the point's product from zero; at a middle column the idle output and the product over what position
    `n - 1` left; at a last column the layer's rows and the product over what position `n - 1` left. -/
def colsAt (c : Dev nD) : (n : ℕ) → n < cfg1.N → Vec F S2048x128 .f32 × Vec F S2048x128 .f32
  | 0, hn => (outIdle, accFirst c (grid1.coords ⟨0, hn⟩) (inM0 ⟨0, hn⟩) (inW0 ⟨0, hn⟩) (inM1 ⟨0, hn⟩) (inW1 ⟨0, hn⟩) (inM2 ⟨0, hn⟩) (inW2 ⟨0, hn⟩) (inM3 ⟨0, hn⟩) (inW3 ⟨0, hn⟩) (inM4 ⟨0, hn⟩) (inW4 ⟨0, hn⟩) (outM ⟨0, hn⟩) (outW ⟨0, hn⟩) accM (Memref.isWhole_whole _)
      (first_of ⟨0, hn⟩ rfl) (first_notLast ⟨0, hn⟩ rfl) (blk0 V c ⟨0, hn⟩) (blk1 V c ⟨0, hn⟩) (blk2 V c ⟨0, hn⟩) (blk3 V c ⟨0, hn⟩) (blk4 V c ⟨0, hn⟩))
  | n + 1, hn =>
    if h : (n + 1) % 8 = 0 then
      (outIdle, accFirst c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
        (first_of ⟨n + 1, hn⟩ h) (first_notLast ⟨n + 1, hn⟩ h) (blk0 V c ⟨n + 1, hn⟩) (blk1 V c ⟨n + 1, hn⟩) (blk2 V c ⟨n + 1, hn⟩) (blk3 V c ⟨n + 1, hn⟩) (blk4 V c ⟨n + 1, hn⟩))
    else if h7 : (n + 1) % 8 = 7 then
      (outLast c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
          (notFirst_of ⟨n + 1, hn⟩ h) (last_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2,
        accLast c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
          (notFirst_of ⟨n + 1, hn⟩ h) (last_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2)
    else
      (outIdle, accMid c (grid1.coords ⟨n + 1, hn⟩) (inM0 ⟨n + 1, hn⟩) (inW0 ⟨n + 1, hn⟩) (inM1 ⟨n + 1, hn⟩) (inW1 ⟨n + 1, hn⟩) (inM2 ⟨n + 1, hn⟩) (inW2 ⟨n + 1, hn⟩) (inM3 ⟨n + 1, hn⟩) (inW3 ⟨n + 1, hn⟩) (inM4 ⟨n + 1, hn⟩) (inW4 ⟨n + 1, hn⟩) (outM ⟨n + 1, hn⟩) (outW ⟨n + 1, hn⟩) accM (Memref.isWhole_whole _)
        (notFirst_of ⟨n + 1, hn⟩ h) (notLast_of ⟨n + 1, hn⟩ h7) (blk0 V c ⟨n + 1, hn⟩) (blk1 V c ⟨n + 1, hn⟩) (blk2 V c ⟨n + 1, hn⟩) (blk3 V c ⟨n + 1, hn⟩) (blk4 V c ⟨n + 1, hn⟩) (colsAt c n (Nat.lt_of_succ_lt hn)).2)

/-- `colsAt` at a first column. -/
theorem colsAt_first (c : Dev nD) (t : Fin cfg1.N) (h : t.val % 8 = 0) :
    colsAt V c t.val t.isLt = (outIdle, accFirst c (grid1.coords t) (inM0 t) (inW0 t) (inM1 t) (inW1 t) (inM2 t) (inW2 t) (inM3 t) (inW3 t) (inM4 t) (inW4 t) (outM t) (outW t) accM (Memref.isWhole_whole _)
      (first_of t h) (first_notLast t h) (blk0 V c t) (blk1 V c t) (blk2 V c t) (blk3 V c t) (blk4 V c t)) := by
  obtain ⟨n, hn⟩ := t
  cases n with
  | zero => rfl
  | succ n => exact (dif_pos h).trans rfl

/-- `colsAt` at a middle column: over what the point before left in the accumulator. -/
theorem colsAt_mid (c : Dev nD) (t : Fin cfg1.N) (h : ¬t.val % 8 = 0) (h7 : ¬t.val % 8 = 7) :
    colsAt V c t.val t.isLt = (outIdle, accMid c (grid1.coords t) (inM0 t) (inW0 t) (inM1 t) (inW1 t) (inM2 t) (inW2 t) (inM3 t) (inW3 t) (inM4 t) (inW4 t) (outM t) (outW t) accM (Memref.isWhole_whole _)
      (notFirst_of t h) (notLast_of t h7) (blk0 V c t) (blk1 V c t) (blk2 V c t) (blk3 V c t) (blk4 V c t)
      (colsAt V c (t.val - 1) (Nat.lt_of_le_of_lt (Nat.sub_le _ _) t.isLt)).2) := by
  obtain ⟨n, hn⟩ := t
  cases n with
  | zero => exact absurd (Nat.zero_mod _) h
  | succ n => exact (dif_neg h).trans ((dif_neg h7).trans rfl)

/-- `colsAt` at a last column: the output block written, over what the point before left in the accumulator. -/
theorem colsAt_last (c : Dev nD) (t : Fin cfg1.N) (h : ¬t.val % 8 = 0) (h7 : t.val % 8 = 7) :
    colsAt V c t.val t.isLt = (outLast c (grid1.coords t) (inM0 t) (inW0 t) (inM1 t) (inW1 t) (inM2 t) (inW2 t) (inM3 t) (inW3 t) (inM4 t) (inW4 t) (outM t) (outW t) accM (Memref.isWhole_whole _)
        (notFirst_of t h) (last_of t h7) (blk0 V c t) (blk1 V c t) (blk2 V c t) (blk3 V c t) (blk4 V c t)
        (colsAt V c (t.val - 1) (Nat.lt_of_le_of_lt (Nat.sub_le _ _) t.isLt)).2,
      accLast c (grid1.coords t) (inM0 t) (inW0 t) (inM1 t) (inW1 t) (inM2 t) (inW2 t) (inM3 t) (inW3 t) (inM4 t) (inW4 t) (outM t) (outW t) accM (Memref.isWhole_whole _)
        (notFirst_of t h) (last_of t h7) (blk0 V c t) (blk1 V c t) (blk2 V c t) (blk3 V c t) (blk4 V c t)
        (colsAt V c (t.val - 1) (Nat.lt_of_le_of_lt (Nat.sub_le _ _) t.isLt)).2) := by
  obtain ⟨n, hn⟩ := t
  cases n with
  | zero => exact absurd (Nat.zero_mod _) h
  | succ n => exact (dif_neg h).trans ((dif_pos h7).trans rfl)

/-! ## The invariant between points -/

/-- The core's scoped buffers other than the accumulator (the other kernel's staging buffers and scratch), each whole at
    some contents: the body never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- Six conjuncts and a seventh: the last of the six taken out of the chain. -/
theorem sep_last_out (A B C D E S G : sProp 𝕄) :
    iprop((A ∗ B ∗ C ∗ D ∗ E ∗ S) ∗ G) = iprop(((A ∗ B ∗ C ∗ D ∗ E) ∗ S) ∗ G) :=
  BI.Entails.antisymm
    (show iprop((A ∗ B ∗ C ∗ D ∗ E ∗ S) ∗ G) ⊢ iprop(((A ∗ B ∗ C ∗ D ∗ E) ∗ S) ∗ G) from by
      iintro ⟨⟨Ha, Hb, Hc, Hd, He, HS⟩, Hg⟩
      isplitr [Hg]
      · isplitr [HS]
        · isplitl [Ha]; · iexact Ha
          isplitl [Hb]; · iexact Hb
          isplitl [Hc]; · iexact Hc
          isplitl [Hd]; · iexact Hd
          iexact He
        iexact HS
      iexact Hg)
    (show iprop(((A ∗ B ∗ C ∗ D ∗ E) ∗ S) ∗ G) ⊢ iprop((A ∗ B ∗ C ∗ D ∗ E ∗ S) ∗ G) from by
      iintro ⟨⟨⟨Ha, Hb, Hc, Hd, He⟩, HS⟩, Hg⟩
      isplitr [Hg]
      · isplitl [Ha]; · iexact Ha
        isplitl [Hb]; · iexact Hb
        isplitl [Hc]; · iexact Hc
        isplitl [Hd]; · iexact Hd
        isplitl [He]; · iexact He
        iexact HS
      iexact Hg)

/-- What the region is handed, with the accumulator singled out. -/
theorem scoped_split (c : Dev nD) :
    (Pipeline.ΦA spec1 c : sProp 𝕄)
      = iprop((others c ∗ (∃ d, owns (c : Thread nD τ) accM fullShare d)) ∗ (∃ r, prngReg c r)) := by
  unfold Pipeline.ΦA others; rw [scopedRest1_eq]; simp only [accM, owns_whole]
  exact sep_last_out _ _ _ _ _ _ _

/-- Before position `n`: at the first point everything scoped at anything; afterwards the accumulator at what the point
    before left, the other scoped buffers at anything, the generator register at some state. -/
def Inv (c : Dev nD) : (n : ℕ) → n ≤ cfg1.N → sProp 𝕄
  | 0, _ => Pipeline.ΦA spec1 c
  | n + 1, hn => iprop((others c ∗ owns (c : Thread nD τ) accM fullShare ((colsAt V c n hn).2)) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop((others c ∗ owns (c : Thread nD τ) accM fullShare ((colsAt V c n hn).2)) ∗ (∃ r, prngReg c r)) := rfl
theorem Inv_pos (c : Dev nD) (n : ℕ) (h : n ≤ cfg1.N) (hz : n ≠ 0) :
    Inv V c n h = iprop((others c ∗ owns (c : Thread nD τ) accM fullShare ((colsAt V c (n - 1) (by omega)).2)) ∗ (∃ r, prngReg c r)) := by
  cases n with
  | zero => exact absurd rfl hz
  | succ n => rfl

/-! ## The proof data -/

/-- The pipeline's proof data on core `c`: the six arrays as the region finds them; after the body each input window's
    buffer at its block and the output's at `colsAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => (colsAt V c t.val t.isLt).1
  Φ t := Inv V c t.val (Nat.le_of_lt_succ t.isLt)
  q _ := fullShare
  owed _ := 0

theorem dat_A (c : Dev nD) (w : Fin cfg1.W) : (dat V c).A w = V c (Pipeline.arrRef spec1 w) := by dsimp only [dat]
theorem dat_Inv_castSucc (c : Dev nD) (t : Fin cfg1.N) : (dat V c).Φ t.castSucc = Inv V c t.val (Nat.le_of_lt t.isLt) := by
  dsimp only [dat]; simp only [Fin.coe_castSucc]
theorem dat_after_0 (c : Dev nD) (t : Fin cfg1.N) : (dat V c).after 0 t = blk0 V c t := by dsimp only [dat]
theorem dat_after_1 (c : Dev nD) (t : Fin cfg1.N) : (dat V c).after 1 t = blk1 V c t := by dsimp only [dat]
theorem dat_after_2 (c : Dev nD) (t : Fin cfg1.N) : (dat V c).after 2 t = blk2 V c t := by dsimp only [dat]
theorem dat_after_3 (c : Dev nD) (t : Fin cfg1.N) : (dat V c).after 3 t = blk3 V c t := by dsimp only [dat]
theorem dat_after_4 (c : Dev nD) (t : Fin cfg1.N) : (dat V c).after 4 t = blk4 V c t := by dsimp only [dat]
theorem dat_after_out (c : Dev nD) (t : Fin cfg1.N) : (dat V c).after 5 t = (colsAt V c t.val t.isLt).1 := by dsimp only [dat]

/-- The adjacency window's current staging buffer holds its block at every point, fetched there or not. -/
theorem dat_before_0 (c : Dev nD) (t : Fin cfg1.N) (d) : (dat V c).before 0 t d = blk0 V c t :=
  ((dat V c).before_in_eq_fetched 0 rfl (fun _ => rfl) (fun _ _ _ => rfl)
      (fun t => by rw [dat_after_0]; unfold Dat.blockOf blk0; rw [dat_A]; try rfl) t d).trans
    (by unfold Dat.fetched Dat.blockOf blk0; rw [dat_A]; try rfl)
/-- The scaled features window's current staging buffer holds its block at every point, fetched there or not. -/
theorem dat_before_1 (c : Dev nD) (t : Fin cfg1.N) (d) : (dat V c).before 1 t d = blk1 V c t :=
  ((dat V c).before_in_eq_fetched 1 rfl (fun _ => rfl) (fun _ _ _ => rfl)
      (fun t => by rw [dat_after_1]; unfold Dat.blockOf blk1; rw [dat_A]; try rfl) t d).trans
    (by unfold Dat.fetched Dat.blockOf blk1; rw [dat_A]; try rfl)
/-- The features' row window's current staging buffer holds its block at every point, fetched there or not. -/
theorem dat_before_2 (c : Dev nD) (t : Fin cfg1.N) (d) : (dat V c).before 2 t d = blk2 V c t :=
  ((dat V c).before_in_eq_fetched 2 rfl (fun _ => rfl) (fun _ _ _ => rfl)
      (fun t => by rw [dat_after_2]; unfold Dat.blockOf blk2; rw [dat_A]; try rfl) t d).trans
    (by unfold Dat.fetched Dat.blockOf blk2; rw [dat_A]; try rfl)
/-- The normaliser's row window's current staging buffer holds its block at every point, fetched there or not. -/
theorem dat_before_3 (c : Dev nD) (t : Fin cfg1.N) (d) : (dat V c).before 3 t d = blk3 V c t :=
  ((dat V c).before_in_eq_fetched 3 rfl (fun _ => rfl) (fun _ _ _ => rfl)
      (fun t => by rw [dat_after_3]; unfold Dat.blockOf blk3; rw [dat_A]; try rfl) t d).trans
    (by unfold Dat.fetched Dat.blockOf blk3; rw [dat_A]; try rfl)
/-- The weight window's current staging buffer holds its block at every point, fetched there or not. -/
theorem dat_before_4 (c : Dev nD) (t : Fin cfg1.N) (d) : (dat V c).before 4 t d = blk4 V c t :=
  ((dat V c).before_in_eq_fetched 4 rfl (fun _ => rfl) (fun _ _ _ => rfl)
      (fun t => by rw [dat_after_4]; unfold Dat.blockOf blk4; rw [dat_A]; try rfl) t d).trans
    (by unfold Dat.fetched Dat.blockOf blk4; rw [dat_A]; try rfl)

end Cert.KernelIdeal.Gcn

end
-- ==== Proof.GcnBody.lean ====
/-
  The graph-convolution kernel's body meets its obligation at every point of the grid: from the invariant before the
  point, the five input windows' staging buffers at their blocks and the output window's at whatever it holds, the body
  runs to its return leaving the invariant after the point, the input buffers as they were, and the output buffer idle
  (first and middle columns) or at the layer's rows (last columns).
-/
import proofs.«149493_j3556232921092_2_alg».proof.Proof.GcnData

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

/-- No input window is ever idle. -/
theorem in_live0 : ∀ t : Fin cfg1.N, cfg1.idle 0 (grid1.coords t) = false := by decide +kernel
theorem in_live1 : ∀ t : Fin cfg1.N, cfg1.idle 1 (grid1.coords t) = false := by decide +kernel
theorem in_live2 : ∀ t : Fin cfg1.N, cfg1.idle 2 (grid1.coords t) = false := by decide +kernel
theorem in_live3 : ∀ t : Fin cfg1.N, cfg1.idle 3 (grid1.coords t) = false := by decide +kernel
theorem in_live4 : ∀ t : Fin cfg1.N, cfg1.idle 4 (grid1.coords t) = false := by decide +kernel
/-- Off the last columns the output window is idle and is not written back; at the last columns it is live. -/
theorem out_idle : ∀ t : Fin cfg1.N, ¬t.val % 8 = 7 → cfg1.idle 5 (grid1.coords t) = true := by decide +kernel
theorem out_noFlush : ∀ t : Fin cfg1.N, ¬t.val % 8 = 7 → (cfg1.win 5).flush t = false := by decide +kernel
theorem out_live : ∀ t : Fin cfg1.N, t.val % 8 = 7 → cfg1.idle 5 (grid1.coords t) = false := by decide +kernel

variable (V : (c : Dev nD) → (b : Ref sig .tc) → Buf (Elt F) ((c : Thread nD τ).loc b))

/-! ## The obligation at a generic point -/

/-- What the body is called with at point `t`, the six windows one by one, -/
def bodyPre (c : Dev nD) (t : Fin cfg1.N) : sProp 𝕄 :=
  iprop((dat V c).Φ t.castSucc ∗ (dat V c).owesAt () t.castSucc
    ∗ (∃ d, owns (c : Thread nD τ) (inM0 t) fullShare ((dat V c).before 0 t d))
    ∗ (∃ d, owns (c : Thread nD τ) (inM1 t) fullShare ((dat V c).before 1 t d))
    ∗ (∃ d, owns (c : Thread nD τ) (inM2 t) fullShare ((dat V c).before 2 t d))
    ∗ (∃ d, owns (c : Thread nD τ) (inM3 t) fullShare ((dat V c).before 3 t d))
    ∗ (∃ d, owns (c : Thread nD τ) (inM4 t) fullShare ((dat V c).before 4 t d))
    ∗ (∃ d, owns (c : Thread nD τ) (outM t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_0, dat_before_1, dat_before_2, dat_before_3, dat_before_4]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg1.N = 32 from N_1)
  rw [show (dat V c).leavesExact 0 t = owns (c : Thread nD τ) (inM0 t) fullShare ((dat V c).after 0 t) from by
    unfold Dat.leavesExact; rw [in_live0 t], dat_after_0]
  rw [show (dat V c).leavesExact 1 t = owns (c : Thread nD τ) (inM1 t) fullShare ((dat V c).after 1 t) from by
    unfold Dat.leavesExact; rw [in_live1 t], dat_after_1]
  rw [show (dat V c).leavesExact 2 t = owns (c : Thread nD τ) (inM2 t) fullShare ((dat V c).after 2 t) from by
    unfold Dat.leavesExact; rw [in_live2 t], dat_after_2]
  rw [show (dat V c).leavesExact 3 t = owns (c : Thread nD τ) (inM3 t) fullShare ((dat V c).after 3 t) from by
    unfold Dat.leavesExact; rw [in_live3 t], dat_after_3]
  rw [show (dat V c).leavesExact 4 t = owns (c : Thread nD τ) (inM4 t) fullShare ((dat V c).after 4 t) from by
    unfold Dat.leavesExact; rw [in_live4 t], dat_after_4]
  by_cases h : t.val % 8 = 0
  · -- a first column
    have h7 : ¬t.val % 8 = 7 := by omega
    rw [Dat.leavesExact_idle (dat V c) 5 t (out_idle t h7) (out_noFlush t h7)]
    rw [colsAt_first V c t h]
    unfold accFirst; (try dsimp only)
    by_cases hz : t.val = 0
    · rw [dat_Inv_castSucc V c t, Inv_zero V c _ _ hz, scoped_split]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ (first_of t h) (first_notLast t h) (blk0 V c t) (blk1 V c t) (blk2 V c t) (blk3 V c t) (blk4 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accFirst_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ (first_of t h) (first_notLast t h) (blk0 V c t) (blk1 V c t) (blk2 V c t) (blk3 V c t) (blk4 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accFirst_cover c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h (by rw [e])
    by_cases h7 : t.val % 8 = 7
    · -- a last column
      rw [show (dat V c).leavesExact 5 t = owns (c : Thread nD τ) (outM t) fullShare ((dat V c).after 5 t) from by
        unfold Dat.leavesExact; rw [out_live t h7], dat_after_out]
      rw [colsAt_last V c t h h7]
      unfold outLast accLast; (try dsimp only)
      rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (notFirst_of t h) (last_of t h7) (blk0 V c t) (blk1 V c t) (blk2 V c t) (blk3 V c t) (blk4 V c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accLast_cover c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outLast_cover c _ _ _ _ _ _ _ _ _ _ _ _ _ _ _ _ _ _ _ _ _ _ _)
    · -- a middle column
      rw [Dat.leavesExact_idle (dat V c) 5 t (out_idle t h7) (out_noFlush t h7)]
      rw [colsAt_mid V c t h h7]
      unfold accMid; (try dsimp only)
      rw [dat_Inv_castSucc V c t, Inv_pos V c _ _ hz]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (notFirst_of t h) (notLast_of t h7) (blk0 V c t) (blk1 V c t) (blk2 V c t) (blk3 V c t) (blk4 V c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [Hoth]; · iexact Hoth
          unfold owns; iexists _; isplitr
          swap; · iexact HS
          ipureintro; exact View.read_writes_of_cover _ _ _ _ _ (accMid_cover c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem inv_in (c : Dev nD) : Pipeline.ΦA spec1 c ⊢ (dat V c).Φ 0 := by
  rw [show (dat V c).Φ 0 = Inv V c 0 (Nat.zero_le _) from rfl, Inv_zero V c 0 _ rfl]

/-- and after the last point the invariant gives it back: the accumulator's contents are forgotten. -/
theorem inv_out (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = Inv V c (Fin.last cfg1.N).val (Nat.le_of_lt_succ (Fin.last cfg1.N).isLt) from rfl,
    Inv_pos V c _ _ ht, scoped_split]
  iintro ⟨⟨Hoth, HS⟩, Hg⟩
  isplitl [HS Hoth]
  · isplitl [Hoth]
    · iexact Hoth
    iexists _; iexact HS
  iexact Hg

end Cert.KernelIdeal.Gcn

end
-- ==== Proof.KernelIdealRun.lean ====
/-
  The idealized kernel's program run from the launch to the return: the assembly of the two regions with the
  graph-convolution kernel's proof data put in for the second region.
-/
import proofs.«149493_j3556232921092_2_alg».proof.Proof.Whole
import proofs.«149493_j3556232921092_2_alg».proof.Proof.GcnBody

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-- The second region's two varying fields, taken from the graph-convolution kernel's proof data. -/
abbrev gcnAfter : AfterT F := fun V c => (Gcn.dat V c).after
abbrev gcnInv : InvT F := fun V c => (Gcn.dat V c).Φ

/-- The record the assembly builds from them is that proof data itself. -/
theorem dat1_gcn (V : Vals F) (c : Dev nD) : dat1 gcnAfter gcnInv V c = Gcn.dat V c := rfl

/-- The three facts the assembly needs of the second region. -/
theorem gcnRegion : SecondRegion (F := F) gcnAfter gcnInv where
  body V c := Gcn.body_obligation V c
  entry V c := Gcn.inv_in V c
  exit V c := Gcn.inv_out V c

variable (m : (ℓ : Loc nD τ sig) → Buf (Elt F) ℓ) (ρ : Dev nD → PrngReg)

/-- THE RUN of the program: it terminates without a fault, the result array holding what the second pipeline leaves in it
    from the contents after the host operations, the three argument arrays as launched. -/
theorem run :
    θ_run defs (onTc (τ := τ) (main (F := F))) ⟨m, fun _ => 0, ρ⟩ (fun r => ∀ c : Dev nD,
      r.2.mem ((c.tc : Thread nD τ).loc main_v4) = (Gcn.dat (R2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_named m ρ gcnAfter gcnInv gcnRegion

/-- The frame: the three argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.KernelIdeal.Whole

end
-- ==== Proof.GcnSpec.lean ====
/-
  What the graph-convolution layer computes, as ONE function of the three argument arrays over the extended reals.

  For a feature matrix x [8192,128], an adjacency matrix a [8192,8192] and a weight matrix w [128,128]:
  the degree of row p is the row sum of a plus one (the identity's contribution), the normaliser is
  d p = 1 / sqrt (deg p + eps), and the layer is

      out (p, g) = max (sum_f (d p * (sum_k a (p,k) * (d k * x (k,f)) + d p * x (p,f))) * w (f,g)) 0.

  This is the arrangement in which the kernel computes it: the neighbour sum first, the node's own term added, the
  row scaled once, then the projection. The reference's arrangement, sum_k (d p * (a + I)(p,k) * d k) * x (k,f),
  is the same function wherever every d is a real number; that law is not stated here.
-/
import Idealize.ShloMosaic.PureOps.Ideal
import Idealize.ShloMosaic.Lib.ValueIdx

noncomputable section

open Idealize.ShloMosaic Idealize.ShloMosaic.ValueIdx
open scoped BigOperators

namespace Cert.Proof.GcnSpec

/-- The three array shapes, spelt at the library's level. -/
abbrev SX : Shape := ⟨2, ![8192, 128]⟩
abbrev SA : Shape := ⟨2, ![8192, 8192]⟩
abbrev SW : Shape := ⟨2, ![128, 128]⟩

/-- The two float words the programs share: 1.0 and the binary32 nearest to 1e-8. -/
abbrev one : EReal := Ideal.ofBits .f32 0x3F800000#32
abbrev eps : EReal := Ideal.ofBits .f32 0x322BCC77#32

/-- Row p's degree plus the regulariser: the base of the normaliser. -/
def base (a : SA.Idx → EReal) (p : Fin 8192) : EReal := ((∑ k : Fin 8192, a (ix2 p k)) + one) + eps

/-- The normaliser of row p, one over the square root of its base. -/
def dinv (a : SA.Idx → EReal) (p : Fin 8192) : EReal := Ideal.div one (Ideal.sqrt (base a p))

/-- Row p of the scaled aggregate, before the projection. -/
def agg (x : SX.Idx → EReal) (a : SA.Idx → EReal) (p : Fin 8192) (f : Fin 128) : EReal :=
  dinv a p * ((∑ k : Fin 8192, a (ix2 p k) * (dinv a k * x (ix2 k f))) + dinv a p * x (ix2 p f))

/-- The layer's result at (p, g). -/
def G (x : SX.Idx → EReal) (a : SA.Idx → EReal) (w : SW.Idx → EReal) : SX.Idx → EReal := fun j =>
  max (∑ f : Fin 128, agg x a (j 0) f * w (ix2 f (j 1))) 0

end Cert.Proof.GcnSpec

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.RefLaws.lean ====
/-
  Laws of the extended reals that the layer's two arrangements meet in.

  A finite sum of real numbers, read in the extended reals, is the sum of the readings.  The float words 1.0 and -0.5 are
  the real numbers they name, and the regulariser's word is a real number.  For a positive real v: v to the power -1/2 is
  one over the square root of v, and so is the quotient of one by the square root of v.  The indicator of the diagonal
  sums to one along a row.  Last, the row identity: with every normaliser, adjacency entry and feature a real number,

      sum_k ((d p * (a k + [p = k])) * d k) * x k  =  d p * ((sum_k a k * (d k * x k)) + d p * x p).
-/
import proofs.«149493_j3556232921092_2_alg».proof.Proof.LibFinite
import Idealize.ShloMosaic.PureOps.Ideal.Laws

noncomputable section

open Idealize.ShloMosaic Cert.Fin
open scoped BigOperators

namespace Cert.Proof.RefLaws

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; exact EReal.coe_zero
  | insert a s ha ih => rw [Finset.sum_insert ha, Finset.sum_insert ha, EReal.coe_add, ih]

/-- The word 0x3F800000 is the real number one. -/
theorem wOne : Ideal.ofBits .f32 0x3F800000#32 = ((1 : ℝ) : EReal) := by
  simp [Ideal.ofBits, Ideal.ieee]
  rw [← EReal.coe_mul, ← EReal.coe_one]
  exact congrArg _ (by norm_num)

/-- The word 0xBF000000 is the real number -1/2. -/
theorem wNegHalf : Ideal.ofBits .f32 0xBF000000#32 = ((-(1 / 2) : ℝ) : EReal) := by
  simp [Ideal.ofBits, Ideal.ieee]
  rw [← EReal.coe_mul]
  exact congrArg _ (by norm_num)

/-- The word 0x322BCC77 is a real number: its exponent field is neither all ones nor zero. -/
theorem isReal_wEps : IsReal (Ideal.ofBits .f32 0x322BCC77#32) := by
  unfold Ideal.ofBits Ideal.ieee
  dsimp only
  rw [if_neg (by decide), if_neg (by decide)]
  exact ⟨_, rfl⟩

/-- For a positive real v: v to the power -1/2 is one over the square root of v. -/
theorem pow_neg_half {v : ℝ} (hv : 0 < v) :
    Ideal.pow (v : EReal) (Ideal.ofBits .f32 0xBF000000#32) = (((Real.sqrt v)⁻¹ : ℝ) : EReal) := by
  rw [wNegHalf, Ideal.pow_coe_coe]
  refine congrArg _ ?_
  show v ^ (-(1 / 2) : ℝ) = (Real.sqrt v)⁻¹
  rw [Real.rpow_neg hv.le, Real.sqrt_eq_rpow]

/-- For a positive real v: one divided by the square root of v is one over the square root of v. -/
theorem div_one_sqrt {v : ℝ} (hv : 0 < v) :
    Ideal.div (Ideal.ofBits .f32 0x3F800000#32) (Ideal.sqrt (v : EReal)) = (((Real.sqrt v)⁻¹ : ℝ) : EReal) := by
  rw [wOne, Ideal.sqrt_coe, if_neg (not_lt.mpr hv.le), Ideal.div_coe (ne_of_gt (Real.sqrt_pos.mpr hv)), ← EReal.coe_mul]
  exact congrArg _ (by rw [one_mul, one_div])

/-- A row of a + I sums to the row sum of a, plus one. -/
theorem sum_add_eye {n : ℕ} (a : Fin n → EReal) (p : Fin n) :
    ∑ k : Fin n, (a k + (if p = k then (1 : EReal) else 0)) = (∑ k : Fin n, a k) + 1 := by
  rw [Finset.sum_add_distrib, Finset.sum_ite_eq Finset.univ p (fun _ => (1 : EReal)), if_pos (Finset.mem_univ p)]

/-- The row identity over the reals. -/
theorem row_identity_real {ι : Type} [Fintype ι] [DecidableEq ι] (d a x : ι → ℝ) (p : ι) :
    ∑ k, ((d p * (a k + if p = k then 1 else 0)) * d k) * x k = d p * ((∑ k, a k * (d k * x k)) + d p * x p) := by
  have h : ∀ k, ((d p * (a k + if p = k then 1 else 0)) * d k) * x k
      = d p * (a k * (d k * x k)) + (if p = k then d p * (d k * x k) else 0) := by
    intro k
    by_cases hk : p = k
    · rw [if_pos hk, if_pos hk]; ring
    · rw [if_neg hk, if_neg hk]; ring
  rw [Finset.sum_congr rfl (fun k _ => h k), Finset.sum_add_distrib, ← Finset.mul_sum,
    Finset.sum_ite_eq Finset.univ p (fun k => d p * (d k * x k)), if_pos (Finset.mem_univ p), mul_add]

/-- The row identity over the extended reals, where every normaliser, adjacency entry and feature is a real number. -/
theorem row_identity {ι : Type} [Fintype ι] [DecidableEq ι] (d a x : ι → EReal) (p : ι)
    (hd : ∀ k, IsReal (d k)) (ha : ∀ k, IsReal (a k)) (hx : ∀ k, IsReal (x k)) :
    ∑ k, ((d p * (a k + if p = k then (1 : EReal) else 0)) * d k) * x k
      = d p * ((∑ k, a k * (d k * x k)) + d p * x p) := by
  choose dr hdr using hd
  choose ar har using ha
  choose xr hxr using hx
  have hind : ∀ k, (if p = k then (1 : EReal) else 0) = ((if p = k then (1 : ℝ) else 0 : ℝ) : EReal) := by
    intro k
    by_cases hk : p = k
    · rw [if_pos hk, if_pos hk, EReal.coe_one]
    · rw [if_neg hk, if_neg hk, EReal.coe_zero]
  have hl : ∀ k, ((d p * (a k + if p = k then (1 : EReal) else 0)) * d k) * x k
      = ((((dr p * (ar k + if p = k then 1 else 0)) * dr k) * xr k : ℝ) : EReal) := by
    intro k
    rw [hdr p, hdr k, har k, hxr k, hind k, ← EReal.coe_add, ← EReal.coe_mul, ← EReal.coe_mul, ← EReal.coe_mul]
  have hr : ∀ k, a k * (d k * x k) = ((ar k * (dr k * xr k) : ℝ) : EReal) := by
    intro k
    rw [hdr k, har k, hxr k, ← EReal.coe_mul, ← EReal.coe_mul]
  rw [Finset.sum_congr rfl (fun k _ => hl k), Finset.sum_congr rfl (fun k _ => hr k), ← coe_sum, ← coe_sum, hdr p, hxr p,
    ← EReal.coe_mul, ← EReal.coe_add, ← EReal.coe_mul]
  exact congrArg _ (row_identity_real dr ar xr p)

end Cert.Proof.RefLaws

end
-- ==== Proof.LibFiniteConjunct.lean ====
/-
  One conjunct of a "every floating-point input is finite" precondition, read.

  Such a precondition is a conjunction of `jnp.all (|x| < +inf)`, one per array: a reduce-by-and, into a result of one
  index, of the comparison of each entry's absolute value against the word of plus infinity.  If the conjunct is `1`
  then every entry's absolute value `max a (-a)` is below plus infinity, so the entry is neither infinity: a real number.
  General in the array's shape and in the reduced axes.
-/
import proofs.«149493_j3556232921092_2_alg».proof.Proof.LibFinite
import Idealize.ShloMosaic.Lib.ReduceAll
import Idealize.ShloMosaic.Lib.ValueIdx

noncomputable section

namespace Cert.Lib.FiniteConjunct

open Idealize.ShloMosaic Cert.Fin

instance : Subsingleton (⟨0, ![]⟩ : Shape).Idx := ⟨fun a b => funext fun d => d.elim0⟩

/-- The word `0x7F800000` is plus infinity. -/
theorem wInf_eq : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [wInf_eq] at h
  have hlt : max a (-a) < ⊤ := by
    by_contra hc
    have : Ideal.cmp .olt (max a (-a)) ⊤ = 0#1 := by
      unfold Ideal.cmp
      simp [hc]
    rw [this] at h
    exact absurd h (by decide)
  refine isReal_of_ne (fun e => ?_) (fun e => ?_)
  · rw [e] at hlt; simp at hlt
  · rw [e] at hlt; simp at hlt

/-- One conjunct: "every entry's absolute value is below plus infinity" makes every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : AllReal x := fun i =>
  isReal_of_abs_lt_inf (x i) (Host.reduce_andi_all _ _ hr hu ValueIdx.ix0 e i)

end Cert.Lib.FiniteConjunct

end
-- ==== Proof.RefRow.lean ====
/-
  The base of a row's normaliser, as the programs compute it, read at a row.

  Both the reference and the precondition form  (0 + sum_k (a (p,k) + I (p,k))) + eps  row by row, where the identity matrix
  I is the conversion to float of the comparison of the row counter (plus a zero) with the column counter.  Read at the
  extended reals and at row p this is  (0 + sum_k (a (p,k) + [p = k])) + eps,  whatever proofs of the shape side conditions
  the term carries.
-/
import Idealize.ShloMosaic.Lib.Pipeline.Value
import Idealize.ShloMosaic.Lib.ValueIdx
import Idealize.ShloMosaic.PureOps.Ideal.Laws
import Idealize.ShloMosaic.PureOps.Contract
import Idealize.ShloMosaic.PureOps.Vector

noncomputable section

open Idealize.ShloMosaic Idealize.ShloMosaic.ValueIdx
open scoped BigOperators

namespace Cert.Proof.RefRow

abbrev S0 : Shape := ⟨0, ![]⟩
abbrev S1 : Shape := ⟨1, ![8192]⟩
abbrev SA : Shape := ⟨2, ![8192, 8192]⟩

/-- The identity matrix's entry: one on the diagonal, zero off it. -/
def eyeE (p k : Fin 8192) : EReal := if p = k then 1 else 0

/-- The base of row p as the programs form it: zero, plus the row sum of a + I, plus the regulariser's word. -/
def rbase (a : SA.Idx → EReal) (p : Fin 8192) : EReal :=
  (Ideal.ofBits .f32 0x00000000#32 + ∑ k : Fin 8192, (a (ix2 p k) + eyeE p k)) + Ideal.ofBits .f32 0x322BCC77#32

/-- Two counters below 2^32 are equal as 32-bit words exactly when they are equal. -/
theorem word_beq (p k : Fin 8192) : (BitVec.ofNat 32 p.val == BitVec.ofNat 32 k.val) = decide (p = k) := by
  have hp := p.isLt
  have hk := k.isLt
  by_cases h : p = k
  · subst h; simp
  · have hne : BitVec.ofNat 32 p.val ≠ BitVec.ofNat 32 k.val := by
      intro e
      have e' := congrArg BitVec.toNat e
      simp only [BitVec.toNat_ofNat] at e'
      rw [Nat.mod_eq_of_lt (by omega), Nat.mod_eq_of_lt (by omega)] at e'
      exact h (Fin.ext e')
    simp [h, hne]

/-- The identity's entry as the programs compute it, at the extended reals. -/
theorem eye_entry (p k : Fin 8192) :
    FloatOps.uitofp (F := Ideal) .f32 (IntOp.cmpi .eq (IntOp.addi (BitVec.ofNat 32 p.val) 0#32) (BitVec.ofNat 32 k.val))
      = eyeE p k := by
  show (((BitVec.ofBool (BitVec.ofNat 32 p.val + 0#32 == BitVec.ofNat 32 k.val)).toNat : ℝ) : EReal) = eyeE p k
  rw [BitVec.add_zero, word_beq]
  unfold eyeE
  by_cases h : p = k <;> simp [h]

/-- A host sum along the columns, read at row p: the initial value plus the sum of the row. -/
theorem reduce_row (hred : SA.ReducesTo [1] S1) (hu : 0 < S0.numel) (y : FVec Ideal SA .f32) (init : S0.Idx → Ideal .f32)
    (p : Fin 8192) :
    Host.reduceAdd (F := Ideal) y init hred hu (ix1 p) = init (Shape.Idx.first hu) + ∑ k : Fin 8192, y (ix2 p k) := by
  simp only [Host.reduceAdd, Ideal.hostReduceAdd_def]
  rw [Ideal.hostReduceAdd_single hred (by decide)]
  refine congrArg (_ + ·) (Finset.sum_congr rfl fun k _ => ?_)
  exact congrArg y (funext fun a => Fin.ext (by match a with | ⟨0, _⟩ => rfl | ⟨1, _⟩ => rfl))

/-- The matrix a + I as the programs form it, read at (p, k). -/
theorem addEye_at (hb2 : S0.BroadcastsInDim SA (![] : Fin 0 → Fin SA.rank)) (x1 : FVec Ideal SA .f32) (p k : Fin 8192) :
    addf x1 (uitofp .f32 (cmpi .eq (addi (iotaInDim SA 32 0) (broadcastInDim SA ![] hb2 (constantI S0 32 0#32)))
      (iotaInDim SA 32 1))) (ix2 p k) = x1 (ix2 p k) + eyeE p k := by
  show x1 (ix2 p k) + FloatOps.uitofp (F := Ideal) .f32 (IntOp.cmpi .eq (IntOp.addi (BitVec.ofNat 32 p.val)
    (broadcastInDim SA ![] hb2 (constantI S0 32 0#32) (ix2 p k))) (BitVec.ofNat 32 k.val)) = _
  rw [broadcastInDim_apply _ hb2 _ (ix2 p k) ix0 (fun a => a.elim0)]
  show x1 (ix2 p k) + FloatOps.uitofp (F := Ideal) .f32 (IntOp.cmpi .eq (IntOp.addi (BitVec.ofNat 32 p.val) 0#32)
    (BitVec.ofNat 32 k.val)) = _
  rw [eye_entry]

/-- The row's base as the programs form it, read at row p. -/
theorem rowBase_at (hred : SA.ReducesTo [1] S1) (hu : 0 < S0.numel)
    (hb1 : S0.BroadcastsInDim S1 (![] : Fin 0 → Fin S1.rank)) (hb2 : S0.BroadcastsInDim SA (![] : Fin 0 → Fin SA.rank))
    (x1 : FVec Ideal SA .f32) (p : Fin 8192) :
    addf (Host.reduceAdd (F := Ideal) (addf x1 (uitofp .f32 (cmpi .eq (addi (iotaInDim SA 32 0)
        (broadcastInDim SA ![] hb2 (constantI S0 32 0#32))) (iotaInDim SA 32 1))))
        (constant (F := Ideal) S0 .f32 0x00000000#32) hred hu)
      (broadcastInDim S1 ![] hb1 (constant (F := Ideal) S0 .f32 0x322BCC77#32)) (ix1 p) = rbase x1 p := by
  generalize hy : addf x1 (uitofp .f32 (cmpi .eq (addi (iotaInDim SA 32 0)
        (broadcastInDim SA ![] hb2 (constantI S0 32 0#32))) (iotaInDim SA 32 1))) = y
  show Host.reduceAdd (F := Ideal) y (constant (F := Ideal) S0 .f32 0x00000000#32) hred hu (ix1 p)
    + broadcastInDim S1 ![] hb1 (constant (F := Ideal) S0 .f32 0x322BCC77#32) (ix1 p) = _
  rw [broadcastInDim_apply _ hb1 _ (ix1 p) ix0 (fun a => a.elim0), reduce_row hred hu y _ p]
  subst hy
  unfold rbase
  refine congrArg (· + _) (congrArg (_ + ·) (Finset.sum_congr rfl fun k _ => ?_))
  exact addEye_at hb2 x1 p k

end Cert.Proof.RefRow

end
-- ==== Proof.RefPre.lean ====
/-
  The precondition, decoded.

  The precondition is the conjunction of four tests, each a reduce-by-and of a comparison: every entry of each of the three
  arrays has absolute value below plus infinity, and every row's base  (0 + sum_k (a (p,k) + I (p,k))) + eps  compares
  above zero.  If it is 1 then every entry of the three arrays is a real number and every row's base is positive.
-/
import proofs.«149493_j3556232921092_2_alg».proof.Pre_finite_inputs
import proofs.«149493_j3556232921092_2_alg».proof.Proof.LibFiniteConjunct
import proofs.«149493_j3556232921092_2_alg».proof.Proof.RefRow
import Idealize.ShloMosaic.Lib.ReduceAll

noncomputable section

open Idealize.ShloMosaic Idealize.ShloMosaic.ValueIdx Cert.Fin Cert.Proof.RefRow
open scoped BigOperators

namespace Cert.Proof.RefPre

/-- The fourth test read: every row's base, as the programs form it, is above zero. -/
theorem pos_of_all (hred : SA.ReducesTo [1] S1) (hu : 0 < S0.numel)
    (hb1 : S0.BroadcastsInDim S1 (![] : Fin 0 → Fin S1.rank)) (hb2 : S0.BroadcastsInDim SA (![] : Fin 0 → Fin SA.rank))
    (hr0 : S1.ReducesTo [0] S0) (x1 : FVec Ideal SA .f32)
    (e : Host.reduce IntOp.andi (cmpf .ogt (addf (Host.reduceAdd (F := Ideal) (addf x1 (uitofp .f32 (cmpi .eq
        (addi (iotaInDim SA 32 0) (broadcastInDim SA ![] hb2 (constantI S0 32 0#32))) (iotaInDim SA 32 1))))
        (constant (F := Ideal) S0 .f32 0x00000000#32) hred hu)
        (broadcastInDim S1 ![] hb1 (constant (F := Ideal) S0 .f32 0x322BCC77#32)))
        (broadcastInDim S1 ![] hb1 (constant (F := Ideal) S0 .f32 0x00000000#32)))
      (constantI S0 1 1#1) hr0 hu ix0 = 1#1) (p : Fin 8192) : 0 < rbase x1 p := by
  have h := Host.reduce_andi_all _ _ hr0 hu ix0 e (ix1 p)
  rw [cmpf_apply, rowBase_at hred hu hb1 hb2 x1 p, broadcastInDim_apply _ hb1 _ (ix1 p) ix0 (fun a => a.elim0)] at h
  change Ideal.cmp .ogt (rbase x1 p) (Ideal.ofBits .f32 0x00000000#32) = 1#1 at h
  rw [Ideal.ofBits_zero_f32] at h
  by_contra hc
  have h0 : Ideal.cmp .ogt (rbase x1 p) 0 = 0#1 := by
    unfold Ideal.cmp
    simp [hc]
  rw [h0] at h
  exact absurd h (by decide)

/-- The precondition decoded: real entries in all three arrays, and a positive base in every row. -/
theorem decode [Cert.Pre_finite_inputs.Facts] (x0 : FVec Ideal Cert.Pre_finite_inputs.S8192x128 .f32)
    (x1 : FVec Ideal Cert.Pre_finite_inputs.S8192x8192 .f32) (x2 : FVec Ideal Cert.Pre_finite_inputs.S128x128 .f32)
    (hpre : Cert.Pre_finite_inputs.fn (F := Ideal) x0 x1 x2 = (fun _ => 1#1)) :
    AllReal x0 ∧ AllReal x1 ∧ AllReal x2 ∧ ∀ p : Fin 8192, 0 < rbase x1 p := by
  have h := congrFun hpre ix0
  dsimp only [Cert.Pre_finite_inputs.fn, Cert.Pre_finite_inputs.fn_part1] at h
  obtain ⟨h123, h4⟩ := IntOp.andi_eq_one.1 h
  obtain ⟨h12, h3⟩ := IntOp.andi_eq_one.1 h123
  obtain ⟨h1, h2⟩ := IntOp.andi_eq_one.1 h12
  exact ⟨Cert.Lib.FiniteConjunct.allReal_of_all x0 _ _ _ h1, Cert.Lib.FiniteConjunct.allReal_of_all x1 _ _ _ h2,
    Cert.Lib.FiniteConjunct.allReal_of_all x2 _ _ _ h3, pos_of_all _ _ _ _ _ x1 h4⟩

end Cert.Proof.RefPre

end
-- ==== Proof.RefRead.lean ====
/-
  The reference's result, read at an index of the extended reals.

  Stage by stage: the matrix a + I at (p, k); the row's base at p; the normaliser  base ^ (-1/2)  at p; the scaled matrix
  (n p * (a + I) (p,k)) * n k  at (p, k); its product with the features at (p, f); the projection and the maximum with zero
  at (p, g).  No precondition is used: these are readings of the program's term.
-/
import proofs.«149493_j3556232921092_2_alg».proof.Proof.Gen.ReferenceIdeal.Read
import proofs.«149493_j3556232921092_2_alg».proof.Proof.RefRow

noncomputable section

open Idealize.ShloMosaic Idealize.ShloMosaic.ValueIdx Cert.ReferenceIdeal Cert.ReferenceIdeal.Read Cert.Proof.RefRow
open scoped BigOperators

namespace Cert.Proof.RefRead

abbrev SX : Shape := ⟨2, ![8192, 128]⟩
abbrev SW : Shape := ⟨2, ![128, 128]⟩

/-- The reference's normaliser of row p: the row's base to the power of the word -0.5. -/
def rpw (a : SA.Idx → EReal) (p : Fin 8192) : EReal := Ideal.pow (rbase a p) (Ideal.ofBits .f32 0xBF000000#32)

/-- The reference's scaled matrix times the features, at (p, f). -/
def rsup (x : SX.Idx → EReal) (a : SA.Idx → EReal) (p : Fin 8192) (f : Fin 128) : EReal :=
  ∑ k : Fin 8192, ((rpw a p * (a (ix2 p k) + eyeE p k)) * rpw a k) * x (ix2 k f)

/-- The matrix a + I at (p, k). -/
theorem v6_at (x1 : FVec Ideal SA .f32) (p k : Fin 8192) :
    val_main_v6 (F := Ideal) x1 (ix2 p k) = x1 (ix2 p k) + eyeE p k :=
  addEye_at Cert.ReferenceIdeal.Gen.bcast_S_S8192x8192 x1 p k

/-- The row's base at p. -/
theorem v9_at (x1 : FVec Ideal SA .f32) (p : Fin 8192) : val_main_v9 (F := Ideal) x1 (ix1 p) = rbase x1 p :=
  rowBase_at Cert.ReferenceIdeal.Gen.reducesTo_S8192x8192_S8192_d1 Cert.ReferenceIdeal.Gen.h_S_
    Cert.ReferenceIdeal.Gen.bcast_S_S8192 Cert.ReferenceIdeal.Gen.bcast_S_S8192x8192 x1 p

/-- The normaliser at p. -/
theorem v11_at (x1 : FVec Ideal SA .f32) (p : Fin 8192) : val_main_v11 (F := Ideal) x1 (ix1 p) = rpw x1 p := by
  rw [val_main_v11_apply, v9_at, val_main_v10_apply, val_main_cst_1_apply]
  rfl

/-- The scaled matrix at (p, k). -/
theorem v17_at (x1 : FVec Ideal SA .f32) (p k : Fin 8192) :
    val_main_v17 (F := Ideal) x1 (ix2 p k) = (rpw x1 p * (x1 (ix2 p k) + eyeE p k)) * rpw x1 k := by
  have e1 : idx_main_v12 (idx_main_v13 (ix2 p k)) = ix1 p := funext fun a => match a with | ⟨0, _⟩ => rfl
  have e2 : idx_main_v15 (idx_main_v16 (ix2 p k)) = ix1 k := funext fun a => match a with | ⟨0, _⟩ => rfl
  rw [val_main_v17_apply, val_main_v14_apply, val_main_v13_apply, val_main_v12_apply, val_main_v16_apply,
    val_main_v15_apply, e1, e2, v11_at, v11_at, v6_at]
  rfl

/-- The scaled matrix times the features at (p, f). -/
theorem v18_at (x0 : FVec Ideal SX .f32) (x1 : FVec Ideal SA .f32) (p : Fin 8192) (f : Fin 128) :
    val_main_v18 (F := Ideal) x0 x1 (ix2 p f) = rsup x0 x1 p f := by
  rw [val_main_v18_apply]
  unfold rsup
  refine Finset.sum_congr rfl fun k _ => ?_
  have el : lidx_main_v18 (ix2 p f) k = ix2 p k :=
    funext fun a => match a with | ⟨0, _⟩ => rfl | ⟨1, _⟩ => rfl
  have er : ridx_main_v18 (ix2 p f) k = ix2 k f :=
    funext fun a => match a with | ⟨0, _⟩ => rfl | ⟨1, _⟩ => rfl
  rw [el, er, v17_at]

/-- The result at (p, g): the projection of row p, and the maximum with the zero word. -/
theorem v20_at (x0 : FVec Ideal SX .f32) (x1 : FVec Ideal SA .f32) (x2 : FVec Ideal SW .f32) (p : Fin 8192) (g : Fin 128) :
    val_main_v20 (F := Ideal) x0 x1 x2 (ix2 p g)
      = max (∑ f : Fin 128, rsup x0 x1 p f * x2 (ix2 f g)) (Ideal.ofBits .f32 0x00000000#32) := by
  rw [val_main_v20_apply, val_main_v19_apply, val_main_call0_v0_apply, val_main_call0_cst_apply]
  show max _ _ = _
  refine congrArg (max · _) (Finset.sum_congr rfl fun f _ => ?_)
  have el : lidx_main_v19 (ix2 p g) f = ix2 p f :=
    funext fun a => match a with | ⟨0, _⟩ => rfl | ⟨1, _⟩ => rfl
  have er : ridx_main_v19 (ix2 p g) f = ix2 f g :=
    funext fun a => match a with | ⟨0, _⟩ => rfl | ⟨1, _⟩ => rfl
  rw [el, er, v18_at]

end Cert.Proof.RefRead

end
-- ==== Proof.RefSide.lean ====
/-
  The reference's result, read index by index at the extended reals, is the layer's function of the three arrays
  wherever the inputs are real numbers and every row's base is positive.

  The row's base as the reference forms it, (0 + sum_k (a (p,k) + [p = k])) + eps, is the specification's
  ((sum_k a (p,k)) + 1) + eps.  Under the precondition it is a positive real v, so the reference's normaliser v ^ (-1/2)
  and the specification's 1 / sqrt v are the same positive real.  With every normaliser, adjacency entry and feature a
  real number the row identity turns the reference's  sum_k ((d p * (a + I) (p,k)) * d k) * x (k,f)  into the
  specification's  d p * ((sum_k a (p,k) * (d k * x (k,f))) + d p * x (p,f)); the projection and the maximum with zero
  are the same on both sides.
-/
import proofs.«149493_j3556232921092_2_alg».proof.Proof.Gen.ReferenceIdeal.Read
import proofs.«149493_j3556232921092_2_alg».proof.Proof.GcnSpec
import proofs.«149493_j3556232921092_2_alg».proof.Proof.RefLaws
import proofs.«149493_j3556232921092_2_alg».proof.Proof.RefPre
import proofs.«149493_j3556232921092_2_alg».proof.Proof.RefRead

noncomputable section

open Idealize.ShloMosaic Idealize.ShloMosaic.ValueIdx Cert.Fin Cert.Proof.RefRow Cert.Proof.RefRead Cert.Proof.RefLaws
open scoped BigOperators

namespace Cert.Proof.RefSide

/-- The row's base as the reference forms it is the specification's. -/
theorem rbase_eq_base (a : SA.Idx → EReal) (p : Fin 8192) : rbase a p = GcnSpec.base a p := by
  show (Ideal.ofBits .f32 0x00000000#32 + ∑ k : Fin 8192, (a (ix2 p k) + (if p = k then (1 : EReal) else 0)))
      + Ideal.ofBits .f32 0x322BCC77#32
    = ((∑ k : Fin 8192, a (ix2 p k)) + Ideal.ofBits .f32 0x3F800000#32) + Ideal.ofBits .f32 0x322BCC77#32
  rw [Ideal.ofBits_zero_f32, zero_add, sum_add_eye (fun k => a (ix2 p k)) p, wOne, EReal.coe_one]

/-- Under the decoded precondition every row's base is a positive real. -/
theorem base_pos {a : SA.Idx → EReal} (ha : AllReal a) (hpos : ∀ p : Fin 8192, 0 < rbase a p) (p : Fin 8192) :
    ∃ v : ℝ, 0 < v ∧ rbase a p = (v : EReal) := by
  have hr : IsReal (rbase a p) := by
    unfold rbase
    refine (IsReal.add ?_ (isReal_sum _ _ fun k _ => (ha _).add ?_)).add isReal_wEps
    · rw [Ideal.ofBits_zero_f32]; exact isReal_zero
    · unfold eyeE
      by_cases hk : p = k
      · rw [if_pos hk]; exact ⟨1, EReal.coe_one.symm⟩
      · rw [if_neg hk]; exact isReal_zero
  obtain ⟨v, hv⟩ := hr
  refine ⟨v, ?_, hv⟩
  have h := hpos p
  rw [hv] at h
  exact EReal.coe_pos.mp h

/-- The reference's normaliser is the specification's, and it is a real number. -/
theorem rpw_eq_dinv {a : SA.Idx → EReal} (ha : AllReal a) (hpos : ∀ p : Fin 8192, 0 < rbase a p) (p : Fin 8192) :
    rpw a p = GcnSpec.dinv a p ∧ IsReal (GcnSpec.dinv a p) := by
  obtain ⟨v, hv, e⟩ := base_pos ha hpos p
  have h1 : rpw a p = (((Real.sqrt v)⁻¹ : ℝ) : EReal) := by
    unfold rpw
    rw [e, pow_neg_half hv]
  have h2 : GcnSpec.dinv a p = (((Real.sqrt v)⁻¹ : ℝ) : EReal) := by
    show Ideal.div (Ideal.ofBits .f32 0x3F800000#32) (Ideal.sqrt (GcnSpec.base a p)) = _
    rw [← rbase_eq_base, e, div_one_sqrt hv]
  exact ⟨h1.trans h2.symm, ⟨_, h2⟩⟩

/-- The reference's scaled matrix times the features is the specification's scaled aggregate. -/
theorem rsup_eq_agg {x : SX.Idx → EReal} {a : SA.Idx → EReal} (hx : AllReal x) (ha : AllReal a)
    (hpos : ∀ p : Fin 8192, 0 < rbase a p) (p : Fin 8192) (f : Fin 128) : rsup x a p f = GcnSpec.agg x a p f := by
  have hn : ∀ k, rpw a k = GcnSpec.dinv a k := fun k => (rpw_eq_dinv ha hpos k).1
  have hs : rsup x a p f = ∑ k : Fin 8192,
      ((GcnSpec.dinv a p * (a (ix2 p k) + if p = k then (1 : EReal) else 0)) * GcnSpec.dinv a k) * x (ix2 k f) := by
    unfold rsup
    refine Finset.sum_congr rfl fun k _ => ?_
    rw [hn p, hn k]
    rfl
  rw [hs]
  exact row_identity (fun k => GcnSpec.dinv a k) (fun k => a (ix2 p k)) (fun k => x (ix2 k f)) p
    (fun k => (rpw_eq_dinv ha hpos k).2) (fun k => ha _) (fun k => hx _)

/-- The reference is the specification, over arrays typed as index functions. -/
theorem ref_eq_G_fn [Cert.Pre_finite_inputs.Facts] (x0 : FVec Ideal SX .f32) (x1 : FVec Ideal SA .f32) (x2 : FVec Ideal SW .f32)
    (hpre : Cert.Pre_finite_inputs.fn (F := Ideal) x0 x1 x2 = (fun _ => 1#1)) :
    Cert.ReferenceIdeal.Read.val_main_v20 (F := Ideal) x0 x1 x2 = GcnSpec.G x0 x1 x2 := by
  obtain ⟨hx, ha, _, hpos⟩ := Cert.Proof.RefPre.decode x0 x1 x2 hpre
  funext j
  obtain ⟨p, g, rfl⟩ : ∃ (p : Fin 8192) (g : Fin 128), j = ix2 p g := ⟨j 0, j 1, eq_ix2 j⟩
  rw [v20_at, Ideal.ofBits_zero_f32]
  show _ = max (∑ f : Fin 128, GcnSpec.agg x0 x1 p f * x2 (ix2 f g)) 0
  refine congrArg (max · 0) (Finset.sum_congr rfl fun f _ => ?_)
  rw [rsup_eq_agg hx ha hpos]

/-- The reference's result is the layer's function of the three arrays, under the precondition. -/
theorem ref_eq_G [Cert.Pre_finite_inputs.Facts]
    (x0 : (⟨Cert.ReferenceIdeal.S8192x128, .f32⟩ : BufTy).Contents (Elt Ideal))
    (x1 : (⟨Cert.ReferenceIdeal.S8192x8192, .f32⟩ : BufTy).Contents (Elt Ideal))
    (x2 : (⟨Cert.ReferenceIdeal.S128x128, .f32⟩ : BufTy).Contents (Elt Ideal))
    (hpre : Cert.Pre_finite_inputs.fn (F := Ideal) x0 x1 x2 = (fun _ => 1#1)) :
    Cert.ReferenceIdeal.Read.val_main_v20 (F := Ideal) x0 x1 x2 = Cert.Proof.GcnSpec.G x0 x1 x2 :=
  ref_eq_G_fn x0 x1 x2 hpre

end Cert.Proof.RefSide

end
-- ==== Proof.DegPieces.lean ====
/-
  What each case of the degree kernel's body leaves, as values of the payloads.

  Every store of the body goes through the whole-buffer rectangle at zero offsets, so the last store into a buffer leaves
  its payload, and a load through that rectangle reads the contents.  At a first column the accumulator ends holding the
  row-sum payload applied to the zero block (read back from the zeroing store) and the adjacency block; at a last column
  it ends holding the row-sum payload applied to what was there and the block, and the output block the normaliser payload
  of that.  General in the float model.
-/
import proofs.«149493_j3556232921092_2_alg».proof.Proof.DegData
import Idealize.ShloMosaic.Lib.Pipeline.Value
import Idealize.ShloMosaic.Lib.Tactic

set_option maxRecDepth 16384

noncomputable section

namespace Cert.KernelIdeal.DegValue

open Cert.KernelIdeal Cert.KernelIdeal.Gen Cert.KernelIdeal.Deg
open Idealize.ShloMosaic Idealize.ShloMosaic.TcCoe Idealize.ShloMosaic.Tactic Idealize.SL.Sem

variable {F : FTy → Type} [FloatOps F]

/-- The zero offsets, as a function. -/
theorem hz : (![0, 0] : Fin 2 → Nat) = fun _ => 0 := funext fun a => by fin_cases a <;> rfl

/-- At a first column the accumulator ends at the row sums of the block added to the zero block. -/
theorem accFirst_eq (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : firstCol i) (hl : ¬lastCol i) (x0 : Vec F S512x4096 .f32) :
    accFirst c i arg2 harg2 arg3 harg3 arg4 harg4 hf hl x0 = k0_pay2 (k0_pay1 (F := F)) x0 := by
  unfold accFirst
  rw [View.read_writes_junk_eq_canon]
  unfold runFirst
  dsimp only
  sl_unfold_words
  rw [View.canon_cons_unit_zero (S := S512x1) hz, View.readCov_unit_zero (S := S512x1) _ hz]
  simp only [View.readAt_eq_ld, harg2.read_unread, View.ld_unit_zero (S := S512x4096) hz]

/-- At a last column the accumulator ends at the row sums of the block added to what it held. -/
theorem accLast_eq (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : ¬firstCol i) (hl : lastCol i) (x0 : Vec F S512x4096 .f32) (xs : Vec F S512x1 .f32) :
    accLast c i arg2 harg2 arg3 harg3 arg4 harg4 hf hl x0 xs = k0_pay2 xs x0 := by
  unfold accLast
  rw [View.read_writes_junk_eq_canon]
  unfold runLast
  dsimp only
  sl_unfold_words
  rw [View.canon_unit_zero (S := S512x1) hz]
  simp only [View.readAt_eq_ld, harg2.read_unread, harg4.read_unread, View.ld_unit_zero (S := S512x4096) hz,
    View.ld_unit_zero (S := S512x1) hz]

/-- At a last column the output block ends at the normaliser of the accumulator's new contents. -/
theorem outLast_eq (c : Dev nD) (i : grid0.Coords)
    (arg2 : Memref sig .tc .vmem S512x4096 .f32) (harg2 : arg2.IsWhole)
    (arg3 : Memref sig .tc .vmem S512x1 .f32) (harg3 : arg3.IsWhole)
    (arg4 : Memref sig .tc .vmem S512x1 .f32) (harg4 : arg4.IsWhole)
    (hf : ¬firstCol i) (hl : lastCol i) (x0 : Vec F S512x4096 .f32) (xs : Vec F S512x1 .f32) :
    outLast c i arg2 harg2 arg3 harg3 arg4 harg4 hf hl x0 xs = k0_pay3 (k0_pay2 xs x0) := by
  unfold outLast
  rw [View.read_writes_junk_eq_canon]
  unfold runLast
  dsimp only
  sl_unfold_words
  rw [View.canon_unit_zero (S := S512x1) hz, View.readCov_unit_zero (S := S512x1) _ hz]
  simp only [View.readAt_eq_ld, harg2.read_unread, harg4.read_unread, View.ld_unit_zero (S := S512x4096) hz,
    View.ld_unit_zero (S := S512x1) hz]

end Cert.KernelIdeal.DegValue

end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.DegBlocks.lean ====
/-
  The degree kernel's three payloads, read at an index of the extended reals.

  The zero block is zero everywhere.  The row-sum payload at row r is the accumulator's entry there plus the sum of the
  block's row r (a lane reduction from the zero word, kept as a column).  The normaliser payload at row r is one divided
  by the square root of the entry plus one plus the regulariser's word.
-/
import proofs.«149493_j3556232921092_2_alg».proof.Proof.Gen.KernelIdeal.Skeleton
import proofs.«149493_j3556232921092_2_alg».proof.Proof.GcnSpec
import proofs.«149493_j3556232921092_2_alg».proof.Proof.LibReduceLayout
import proofs.«149493_j3556232921092_2_alg».proof.Proof.LibColumnLayout
import Idealize.ShloMosaic.Lib.Pipeline.Value
import Idealize.ShloMosaic.Lib.ValueIdx

noncomputable section

namespace Cert.KernelIdeal.DegValue

open Cert.KernelIdeal Cert.KernelIdeal.Gen
open Idealize.ShloMosaic Idealize.ShloMosaic.ValueIdx
open scoped BigOperators

/-- The zero block, at any index. -/
theorem pay1_at (r : Fin 512) (z : Fin 1) : k0_pay1 (F := Ideal) (ix2 r z) = 0 := by
  unfold k0_pay1
  rw [shapeCast_self]
  show Ideal.ofBits .f32 0x00000000#32 = 0
  exact Ideal.ofBits_zero_f32

/-- The row-sum payload at row r: the accumulator's entry plus the sum of the block's row. -/
theorem pay2_at (v3 : Vec Ideal S512x1 .f32) (v4 : Vec Ideal S512x4096 .f32) (r : Fin 512) (z : Fin 1) :
    k0_pay2 v3 v4 (ix2 r z) = v3 (ix2 r z) + ∑ k : Fin 4096, v4 (ix2 r k) := by
  unfold k0_pay2
  rw [shapeCast_self]
  show v3 (ix2 r z) + shapeCast S512x1 (multiReduction (F := Ideal) .add [1] S512 v4 0x00000000#32 reduces_S512x4096_S512 (.inl rfl) rfl)
    shapeCasts_S512_S512x1 (ix2 r z) = _
  refine congrArg (v3 (ix2 r z) + ·) ?_
  refine (Cert.Lib.ColumnLayout.shapeCast_a_a1_apply _ shapeCasts_S512_S512x1 r z).trans ?_
  exact Cert.Lib.ReduceLayout.sum_axis1_apply v4 _ reduces_S512x4096_S512 _ _ r

/-- The normaliser payload at row r. -/
theorem pay3_at (v : Vec Ideal S512x1 .f32) (r : Fin 512) (z : Fin 1) :
    k0_pay3 v (ix2 r z)
      = Ideal.div Cert.Proof.GcnSpec.one (Ideal.sqrt ((v (ix2 r z) + Cert.Proof.GcnSpec.one) + Cert.Proof.GcnSpec.eps)) := rfl

end Cert.KernelIdeal.DegValue

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.DegFinal.lean ====
/-
  The degree kernel's result column at the extended reals: after the region it holds, at row p, the specification's
  normaliser  1 / sqrt (((sum_k a (p,k)) + 1) + eps)  of the adjacency matrix a as the region found it.

  The 32 points run through 16 rows of blocks, two column blocks each.  The adjacency block of point t stands at rows
  512 (t / 2) .., columns 4096 (t % 2) .. of the matrix.  After an even point the accumulator holds zero plus the row sums
  of the left block; after the odd point that follows the output block holds the normaliser of that plus the row sums of
  the right block, and the two halves of a row of 8192 entries add up to the whole row's sum (in a commutative monoid: no
  finiteness is involved).  The odd points write their blocks back, to rows 512 (t / 2) .. of the column, and these
  cover it.
-/
import proofs.«149493_j3556232921092_2_alg».proof.Proof.DegPieces
import proofs.«149493_j3556232921092_2_alg».proof.Proof.DegBlocks
import proofs.«149493_j3556232921092_2_alg».proof.Proof.LibBlockRuns

set_option maxRecDepth 16384

noncomputable section

namespace Cert.KernelIdeal.DegValue

open Cert.KernelIdeal Cert.KernelIdeal.Gen Cert.KernelIdeal.Deg
open Idealize.ShloMosaic Idealize.ShloMosaic.TcCoe Idealize.ShloMosaic.ValueIdx Idealize.SL.Sem
open Idealize.ShloMosaic.Pipeline (Dat)
open scoped BigOperators

/-- Window 0's array is the adjacency matrix, window 1's the result column. -/
theorem arrRef_in : Pipeline.arrRef spec0 0 = main_arg1 := rfl
theorem arrRef_out : Pipeline.arrRef spec0 1 = main_v0 := rfl

/-- The printed index maps, decided over the grid. -/
theorem idx_facts : ∀ t : Fin cfg0.N, win0_0.index t (0 : Fin 2) = t.val / 2 ∧ win0_0.index t (1 : Fin 2) = t.val % 2
    ∧ win0_1.index t (0 : Fin 2) = t.val / 2 ∧ win0_1.index t (1 : Fin 2) = 0 :=
  (by decide +kernel : ∀ t : Fin grid0.N, win0_0.index t (0 : Fin 2) = t.val / 2 ∧ win0_0.index t (1 : Fin 2) = t.val % 2
    ∧ win0_1.index t (0 : Fin 2) = t.val / 2 ∧ win0_1.index t (1 : Fin 2) = 0)

variable (V : (c : Dev nD) → (b : Ref sig .tc) → Buf (Elt Ideal) ((c : Thread nD τ).loc b))

/-- The normaliser column. -/
def dcol (a : Cert.Proof.GcnSpec.SA.Idx → EReal) : S8192x1.Idx → EReal := fun j => Cert.Proof.GcnSpec.dinv a (j 0)

/-- The adjacency matrix as the region finds it, as an array of extended reals. -/
def adj (c : Dev nD) : Cert.Proof.GcnSpec.SA.Idx → EReal := V c main_arg1

/-- The adjacency block of point t, as an array of extended reals over the block's literal shape. -/
def blkAt (c : Dev nD) (t : Fin cfg0.N) : Vec Ideal S512x4096 .f32 := adjBlk V c t

/-- The adjacency block of point t at (r, k): the adjacency matrix at row 512 (t / 2) + r, column 4096 (t % 2) + k. -/
theorem blkAt_at (c : Dev nD) (t : Fin cfg0.N) (r : Fin 512) (k : Fin 4096) :
    blkAt V c t (ix2 r k)
      = adj V c (ix2 (⟨t.val / 2 * 512 + r.val, by have := t.isLt; have hN : cfg0.N = 32 := N_0; omega⟩ : Fin 8192)
          (⟨t.val % 2 * 4096 + k.val, by omega⟩ : Fin 8192)) := by
  obtain ⟨e0, e1, -, -⟩ := idx_facts t
  show V c main_arg1 (((cfg0.win 0).blk t).view.emb (ix2 r k))
    = V c main_arg1 (ix2 (⟨t.val / 2 * 512 + r.val, _⟩ : Fin 8192) (⟨t.val % 2 * 4096 + k.val, _⟩ : Fin 8192))
  refine congrArg (V c main_arg1) (funext fun a => Fin.ext ?_)
  match a with
  | ⟨0, _⟩ => show win0_0.index t (0 : Fin 2) * 512 + 1 * r.val = t.val / 2 * 512 + r.val; rw [e0]; omega
  | ⟨1, _⟩ => show win0_0.index t (1 : Fin 2) * 4096 + 1 * k.val = t.val % 2 * 4096 + k.val; rw [e1]; omega

/-- After an even point the accumulator holds, at row r, zero plus the row sum of that point's block. -/
theorem acc_even_at (c : Dev nD) (t : Fin cfg0.N) (h : t.val % 2 = 0) (r : Fin 512) (z : Fin 1) :
    (colsAt V c t.val t.isLt).2 (ix2 r z) = 0 + ∑ k : Fin 4096, blkAt V c t (ix2 r k) := by
  rw [colsAt_even V c t h]
  show accFirst c (grid0.coords t) (inM t) (inW t) (outM t) (outW t) accM (Memref.isWhole_whole _)
    (even_first t h) (even_notLast t h) (blkAt V c t) (ix2 r z) = _
  rw [accFirst_eq, pay2_at, pay1_at]

/-- After an odd point the output block holds, at row r, the normaliser of the two blocks' row sums. -/
theorem out_odd_at (c : Dev nD) (t : Fin cfg0.N) (h : t.val % 2 = 1) (r : Fin 512) (z : Fin 1) :
    (colsAt V c t.val t.isLt).1 (ix2 r z)
      = Ideal.div Cert.Proof.GcnSpec.one (Ideal.sqrt ((((0 + ∑ k : Fin 4096,
            blkAt V c ⟨t.val - 1, Nat.lt_of_le_of_lt (Nat.sub_le _ _) t.isLt⟩ (ix2 r k))
          + ∑ k : Fin 4096, blkAt V c t (ix2 r k)) + Cert.Proof.GcnSpec.one) + Cert.Proof.GcnSpec.eps)) := by
  have hne : ¬t.val % 2 = 0 := by omega
  have hlt : t.val - 1 < cfg0.N := Nat.lt_of_le_of_lt (Nat.sub_le _ _) t.isLt
  have hev : (⟨t.val - 1, hlt⟩ : Fin cfg0.N).val % 2 = 0 := by show (t.val - 1) % 2 = 0; omega
  have hacc := acc_even_at V c ⟨t.val - 1, hlt⟩ hev r z
  rw [colsAt_odd V c t hne]
  show outLast c (grid0.coords t) (inM t) (inW t) (outM t) (outW t) accM (Memref.isWhole_whole _)
    (odd_notFirst t hne) (odd_last t hne) (blkAt V c t) (colsAt V c (t.val - 1) hlt).2 (ix2 r z) = _
  rw [outLast_eq, pay3_at, pay2_at]
  exact congrArg (fun s => Ideal.div Cert.Proof.GcnSpec.one (Ideal.sqrt (((s
    + ∑ k : Fin 4096, blkAt V c t (ix2 r k)) + Cert.Proof.GcnSpec.one) + Cert.Proof.GcnSpec.eps))) hacc

/-- A row of 8192 entries sums as its first 4096 plus its last 4096. -/
theorem sum_halves (f : Fin 8192 → EReal) :
    ∑ k : Fin 8192, f k = (∑ k : Fin 4096, f ⟨0 * 4096 + k.val, by omega⟩) + ∑ k : Fin 4096, f ⟨1 * 4096 + k.val, by omega⟩ := by
  rw [Cert.Lib.BlockRuns.sum_runs 2 4096 8192 rfl f, Fin.sum_univ_two]
  rfl

/-- After an odd point the output block holds, at row r, the specification's normaliser of row 512 (t / 2) + r. -/
theorem out_odd_eq_dinv (c : Dev nD) (t : Fin cfg0.N) (h : t.val % 2 = 1) (r : Fin 512) (z : Fin 1) :
    (colsAt V c t.val t.isLt).1 (ix2 r z)
      = Cert.Proof.GcnSpec.dinv (adj V c)
          (⟨t.val / 2 * 512 + r.val, by have := t.isLt; have hN : cfg0.N = 32 := N_0; omega⟩ : Fin 8192) := by
  have hN : cfg0.N = 32 := N_0
  have ht := t.isLt
  rw [out_odd_at V c t h r z]
  show _ = Ideal.div Cert.Proof.GcnSpec.one (Ideal.sqrt (((∑ k : Fin 8192, adj V c
    (ix2 (⟨t.val / 2 * 512 + r.val, by omega⟩ : Fin 8192) k)) + Cert.Proof.GcnSpec.one) + Cert.Proof.GcnSpec.eps))
  refine congrArg (fun s => Ideal.div Cert.Proof.GcnSpec.one (Ideal.sqrt ((s + Cert.Proof.GcnSpec.one)
    + Cert.Proof.GcnSpec.eps))) ?_
  rw [zero_add, sum_halves (fun k => adj V c (ix2 (⟨t.val / 2 * 512 + r.val, by omega⟩ : Fin 8192) k))]
  refine congrArg₂ (· + ·) (Finset.sum_congr rfl fun k _ => ?_) (Finset.sum_congr rfl fun k _ => ?_)
  · rw [blkAt_at]
    exact congrArg₂ (fun p q => adj V c (ix2 p q))
      (Fin.ext (by show (t.val - 1) / 2 * 512 + r.val = t.val / 2 * 512 + r.val; omega))
      (Fin.ext (by show (t.val - 1) % 2 * 4096 + k.val = 0 * 4096 + k.val; omega))
  · rw [blkAt_at]
    exact congrArg (fun q => adj V c (ix2 (⟨t.val / 2 * 512 + r.val, by omega⟩ : Fin 8192) q))
      (Fin.ext (by show t.val % 2 * 4096 + k.val = 1 * 4096 + k.val; omega))

/-- What an odd point writes back is its block of the normaliser column. -/
theorem flushed_eq (c : Dev nD) (t : Fin cfg0.N) (hf : (cfg0.win 1).flush t = true) :
    (dat (F := Ideal) V c).flushed 1 t = ((cfg0.win 1).blk t).view.read (Elt Ideal) (dcol (V c main_arg1)) := by
  have hodd : t.val % 2 = 1 := (flush0_1 t).mp hf
  obtain ⟨-, -, e2, -⟩ := idx_facts t
  show (cfg0.win 1).cut (grid0.coords t) ((dat V c).after 1 t) = _
  rw [dat_after_out]
  funext j
  have hj0 : (j 0).val < 512 := (j 0).isLt
  have hj1 : (j 1).val < 1 := (j 1).isLt
  have hx : (cfg0.win 1).xinj (grid0.coords t) j = ix2 (⟨(j 0).val, hj0⟩ : Fin 512) (⟨(j 1).val, hj1⟩ : Fin 1) :=
    funext fun a => match a with | ⟨0, _⟩ => rfl | ⟨1, _⟩ => rfl
  show (colsAt V c t.val t.isLt).1 ((cfg0.win 1).xinj (grid0.coords t) j)
    = dcol (V c main_arg1) (((cfg0.win 1).blk t).view.emb j)
  rw [hx, out_odd_eq_dinv V c t hodd]
  unfold dcol
  refine congrArg (Cert.Proof.GcnSpec.dinv (adj V c)) (Fin.ext ?_)
  show t.val / 2 * 512 + (j 0).val = win0_1.index t (0 : Fin 2) * 512 + 1 * (j 0).val
  rw [e2]; omega

/-- Every row of the result column is in the block of some point that writes back: row p in point 2 (p / 512) + 1's. -/
theorem cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 32 := N_0
  have hlt : 2 * ((i 0).val / 512) + 1 < cfg0.N := by omega
  obtain ⟨-, -, e2, e3⟩ := idx_facts ⟨2 * ((i 0).val / 512) + 1, hlt⟩
  refine ⟨⟨2 * ((i 0).val / 512) + 1, hlt⟩, (flush0_1 _).mpr (by show (2 * ((i 0).val / 512) + 1) % 2 = 1; omega), ?_⟩
  show i ∈ ((View.whole main_v0).slice (win0_1.rect ⟨2 * ((i 0).val / 512) + 1, hlt⟩)).set
  rw [View.set_slice_whole, Rect.mem_set_unit]
  intro a
  match a with
  | ⟨0, _⟩ =>
    show win0_1.index ⟨2 * ((i 0).val / 512) + 1, hlt⟩ (0 : Fin 2) * 512 ≤ (i 0).val
      ∧ (i 0).val < win0_1.index ⟨2 * ((i 0).val / 512) + 1, hlt⟩ (0 : Fin 2) * 512 + 512
    rw [e2]
    show (2 * ((i 0).val / 512) + 1) / 2 * 512 ≤ (i 0).val ∧ (i 0).val < (2 * ((i 0).val / 512) + 1) / 2 * 512 + 512
    omega
  | ⟨1, _⟩ =>
    show win0_1.index ⟨2 * ((i 0).val / 512) + 1, hlt⟩ (1 : Fin 2) * 1 ≤ (i 1).val
      ∧ (i 1).val < win0_1.index ⟨2 * ((i 0).val / 512) + 1, hlt⟩ (1 : Fin 2) * 1 + 1
    rw [e3]
    omega

/-- After the region the result column holds, at row p, the specification's normaliser of the adjacency matrix as the
    region found it. -/
theorem deg_final (c : Dev nD) : (dat (F := Ideal) V c).arrAt 1 cfg0.N = dcol (V c main_arg1) :=
  (dat (F := Ideal) V c).arrAt_eq_of_cover 1 (dcol (V c main_arg1)) (flushed_eq V c) fun i => cover i

end Cert.KernelIdeal.DegValue

end
-- ==== Proof.GcnSpec1.lean ====
/-
  What the graph-convolution kernel alone computes from the five arrays it is handed, over the extended reals.

  From an adjacency matrix a [8192,8192], scaled features y [8192,128], features x [8192,128], a column of normalisers
  d [8192,1] and weights w [128,128]:

      out (p, g) = max (sum_f (d p * (sum_k a (p,k) * y (k,f) + d p * x (p,f))) * w (f,g)) 0.

  Nothing is assumed about how y and d relate to x and a: with y (k,f) = d k * x (k,f) and d the layer's normaliser this is
  the layer's function.
-/
import Idealize.ShloMosaic.PureOps.Ideal
import Idealize.ShloMosaic.Lib.ValueIdx

noncomputable section

open Idealize.ShloMosaic Idealize.ShloMosaic.ValueIdx
open scoped BigOperators

namespace Cert.Proof.GcnSpec1

abbrev SX : Shape := ⟨2, ![8192, 128]⟩
abbrev SA : Shape := ⟨2, ![8192, 8192]⟩
abbrev SW : Shape := ⟨2, ![128, 128]⟩
abbrev SD : Shape := ⟨2, ![8192, 1]⟩

/-- Row p of the scaled aggregate before the projection. -/
def agg1 (a : SA.Idx → EReal) (y x : SX.Idx → EReal) (d : SD.Idx → EReal) (p : Fin 8192) (f : Fin 128) : EReal :=
  d (ix2 p (0 : Fin 1)) * ((∑ k : Fin 8192, a (ix2 p k) * y (ix2 k f)) + d (ix2 p (0 : Fin 1)) * x (ix2 p f))

/-- The kernel's result at (p, g). -/
def G1 (a : SA.Idx → EReal) (y x : SX.Idx → EReal) (d : SD.Idx → EReal) (w : SW.Idx → EReal) : SX.Idx → EReal := fun j =>
  max (∑ f : Fin 128, agg1 a y x d (j 0) f * w (ix2 f (j 1))) 0

end Cert.Proof.GcnSpec1

end
-- ==== Proof.KernelValue.lean ====
/-
  The idealized kernel's whole run, read as the layer's function of the three argument arrays.

  Between the two regions the buffers are at known contents.  The arguments reach the second region as launched: no host
  operation writes them and the first region only reads the adjacency matrix.  The result column of the first region
  reaches it as that region left it, the specification's normaliser of the adjacency matrix.  The three host operations
  in between repeat the column along the feature axis, multiply by the features and narrow the product (the identity on
  the extended reals): the scaled features  d p * x (p,f).  With those two put into the second kernel's own function of
  the five arrays it is handed, that function is the layer's, term for term.  The second kernel computing its own function
  is a hypothesis here.
-/
import proofs.«149493_j3556232921092_2_alg».proof.Proof.KernelIdealRun
import proofs.«149493_j3556232921092_2_alg».proof.Proof.DegFinal
import proofs.«149493_j3556232921092_2_alg».proof.Proof.GcnSpec
import proofs.«149493_j3556232921092_2_alg».proof.Proof.GcnSpec1
import Idealize.ShloMosaic.Lib.StableHlo.Run
import Idealize.ShloMosaic.Lib.Pipeline.Value

set_option maxRecDepth 16384

noncomputable section

namespace Cert.KernelIdeal.Value2

open Cert.KernelIdeal Cert.KernelIdeal.Gen Cert.KernelIdeal.Whole
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-- The three argument arrays as launched, as arrays of extended reals. -/
def adjOf (c : Dev nD) : Cert.Proof.GcnSpec.SA.Idx → EReal := m ((c.tc : Thread nD τ).loc main_arg1)
def xOf (c : Dev nD) : Cert.Proof.GcnSpec.SX.Idx → EReal := m ((c.tc : Thread nD τ).loc main_arg0)
def wOf (c : Dev nD) : Cert.Proof.GcnSpec.SW.Idx → EReal := m ((c.tc : Thread nD τ).loc main_arg2)

/-- The arguments reach the second region as launched. -/
theorem R2_arg0 (c : Dev nD) : R2 m c main_arg0 = xOf m c :=
  (B2_of m c main_arg0 (by decide)).trans (B1_of_ne m c main_arg0 (by decide))
theorem R2_arg2 (c : Dev nD) : R2 m c main_arg2 = wOf m c :=
  (B2_of m c main_arg2 (by decide)).trans (B1_of_ne m c main_arg2 (by decide))
theorem R2_arg1 (c : Dev nD) : R2 m c main_arg1 = adjOf m c :=
  calc R2 m c main_arg1
    _ = B1 m c (Proc.devRef .tc main_arg1) := B2_of m c main_arg1 (by decide)
    _ = (Deg.dat (R0 m) c).arrAt 0 cfg0.N := B1_arr m c 0
    _ = (Deg.dat (R0 m) c).A 0 := (Deg.dat (R0 m) c).arrAt_in 0 rfl _
    _ = adjOf m c := Deg.dat_A (R0 m) c 0

/-- The result column reaches the second region as the first left it: the specification's normaliser. -/
theorem R2_v0 (c : Dev nD) : R2 m c main_v0 = DegValue.dcol (adjOf m c) :=
  calc R2 m c main_v0
    _ = B1 m c (Proc.devRef .tc main_v0) := B2_of m c main_v0 (by decide)
    _ = (Deg.dat (R0 m) c).arrAt 1 cfg0.N := B1_arr m c 1
    _ = DegValue.dcol (adjOf m c) := DegValue.deg_final (R0 m) c

theorem B1_v0 (c : Dev nD) : B1 m c (Proc.devRef .tc main_v0) = DegValue.dcol (adjOf m c) :=
  (B1_arr m c 1).trans (DegValue.deg_final (R0 m) c)
theorem B1_arg0 (c : Dev nD) : B1 m c (Proc.devRef .tc main_arg0) = xOf m c := B1_of_ne m c main_arg0 (by decide)

/-- The scaled features the host operations form. -/
theorem R2_v3 (c : Dev nD) :
    R2 m c main_v3 = fun j => Cert.Proof.GcnSpec.dinv (adjOf m c) (j 0) * xOf m c j := by
  show StableHlo.after hostOps1 (B1 m c) (Proc.devRef .tc main_v3) = _
  after_results
  rw [B1_v0, B1_arg0]
  funext j
  obtain ⟨p, f, rfl⟩ : ∃ (p : Fin 8192) (f : Fin 128), j = ix2 p f := ⟨j 0, j 1, eq_ix2 j⟩
  show broadcastInDim S8192x128 ![0, 1] bcast_S8192x1_S8192x128_0_1 (DegValue.dcol (adjOf m c)) (ix2 p f)
      * xOf m c (ix2 p f)
    = Cert.Proof.GcnSpec.dinv (adjOf m c) p * xOf m c (ix2 p f)
  refine congrArg (· * xOf m c (ix2 p f)) ?_
  exact broadcastInDim_apply _ bcast_S8192x1_S8192x128_0_1 (DegValue.dcol (adjOf m c)) (ix2 p f) (ix2 p (0 : Fin 1))
    (fun a => match a with
      | ⟨0, _⟩ => by show p.val = if (8192 : Nat) = 1 then 0 else p.val; rw [if_neg (by decide)]
      | ⟨1, _⟩ => by show 0 = if (1 : Nat) = 1 then 0 else f.val; rw [if_pos rfl])

/-- With the scaled features and the normaliser column put in, the second kernel's function is the layer's. -/
theorem G1_eq_G (a : Cert.Proof.GcnSpec.SA.Idx → EReal) (x : Cert.Proof.GcnSpec.SX.Idx → EReal)
    (w : Cert.Proof.GcnSpec.SW.Idx → EReal) :
    Cert.Proof.GcnSpec1.G1 a (fun j => Cert.Proof.GcnSpec.dinv a (j 0) * x j) x (DegValue.dcol a) w
      = Cert.Proof.GcnSpec.G x a w := by
  funext j
  rfl

/-- What the second pipeline leaves in the result array, given that it computes its own function of the five arrays
    it is handed, is the layer's function of the three arguments as launched. -/
theorem gcn_result (hfin : ∀ (V : Whole.Vals Ideal) (c : Dev nD), (Gcn.dat (F := Ideal) V c).arrAt 5 cfg1.N
      = Cert.Proof.GcnSpec1.G1 (V c main_arg1) (V c main_v3) (V c main_arg0) (V c main_v0) (V c main_arg2)) (c : Dev nD) :
    (Gcn.dat (F := Ideal) (R2 m) c).arrAt 5 cfg1.N = Cert.Proof.GcnSpec.G (xOf m c) (adjOf m c) (wOf m c) := by
  rw [hfin (R2 m) c, R2_arg1, R2_v3, R2_arg0, R2_v0, R2_arg2]
  exact G1_eq_G (adjOf m c) (xOf m c) (wOf m c)

/-- THE RUN, READ: the program terminates without a fault with the result array holding the layer's function of the
    three argument arrays as launched, and those arrays unchanged. -/
theorem kernel_value (hfin : ∀ (V : Whole.Vals Ideal) (c : Dev nD), (Gcn.dat (F := Ideal) V c).arrAt 5 cfg1.N
      = Cert.Proof.GcnSpec1.G1 (V c main_arg1) (V c main_v3) (V c main_arg0) (V c main_v0) (V c main_arg2))
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4)
        = Cert.Proof.GcnSpec.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (gcn_result m hfin c), (h c).2⟩) (Whole.run (F := Ideal) m ρ)

end Cert.KernelIdeal.Value2

end
-- ==== Proof.GcnPieces.lean ====
/-
  What each case of the graph-convolution kernel's body leaves, as values of the payloads: the accumulator after a first
  column is the accumulation step from zero, after a middle or a last column the step from what the point before left,
  and the output block after a last column is the output payload of that accumulator.
-/
import proofs.«149493_j3556232921092_2_alg».proof.Proof.GcnData
import Idealize.ShloMosaic.Lib.Pipeline.Value
import Idealize.ShloMosaic.Lib.Tactic

set_option maxRecDepth 16384
set_option pp.maxSteps 5000
set_option pp.deepTerms false

noncomputable section

namespace Cert.KernelIdeal.GcnValue

open Cert.KernelIdeal Cert.KernelIdeal.Gen Cert.KernelIdeal.Gcn
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

section Cases
variable (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S128x128 .f32) (harg6 : arg6.IsWhole)
    (arg7 : Memref sig .tc .vmem S2048x128 .f32) (harg7 : arg7.IsWhole)
    (arg8 : Memref sig .tc .vmem S2048x128 .f32) (harg8 : arg8.IsWhole)

/-- After a first column the accumulator holds the accumulation step taken from the zero block. -/
theorem accFirst_eq (hf : firstCol i) (hl : ¬lastCol i) (x0 : Vec F S2048x1024 .f32) (x1 : Vec F S1024x128 .bf16) (x2 : Vec F S2048x128 .f32)
    (x3 : Vec F S2048x1 .f32) (x4 : Vec F S128x128 .f32) :
    accFirst c i arg2 harg2 arg3 harg3 arg4 harg4 arg5 harg5 arg6 harg6 arg7 harg7 arg8 harg8 hf hl x0 x1 x2 x3 x4 = k1_pay2 x0 (k1_pay1 (F := F)) x1 := by
  unfold accFirst
  rw [View.read_writes_junk_eq_canon]
  unfold runFirst
  dsimp only
  sl_unfold_words
  rw [View.canon_cons_unit_zero (S := S2048x128) hz, View.readCov_unit_zero (S := S2048x128) _ hz]
  simp only [View.readAt_eq_ld, harg2.read_unread, harg3.read_unread,
    View.ld_unit_zero (S := S2048x1024) hz, View.ld_unit_zero (S := S1024x128) hz]

/-- After a middle column the accumulator holds the step taken from what the point before left. -/
theorem accMid_eq (hf : ¬firstCol i) (hl : ¬lastCol i) (x0 : Vec F S2048x1024 .f32) (x1 : Vec F S1024x128 .bf16) (x2 : Vec F S2048x128 .f32)
    (x3 : Vec F S2048x1 .f32) (x4 : Vec F S128x128 .f32) (xs : Vec F S2048x128 .f32) :
    accMid c i arg2 harg2 arg3 harg3 arg4 harg4 arg5 harg5 arg6 harg6 arg7 harg7 arg8 harg8 hf hl x0 x1 x2 x3 x4 xs = k1_pay2 x0 xs x1 := by
  unfold accMid
  rw [View.read_writes_junk_eq_canon]
  unfold runMid
  dsimp only
  sl_unfold_words
  rw [View.canon_unit_zero (S := S2048x128) hz]
  simp only [View.readAt_eq_ld, harg2.read_unread, harg3.read_unread, harg8.read_unread,
    View.ld_unit_zero (S := S2048x1024) hz, View.ld_unit_zero (S := S1024x128) hz, View.ld_unit_zero (S := S2048x128) hz]

/-- After a last column the accumulator holds the step taken from what the point before left, -/
theorem accLast_eq (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) :
    accLast c i arg2 harg2 arg3 harg3 arg4 harg4 arg5 harg5 arg6 harg6 arg7 harg7 arg8 harg8 hf hl x0 x1 x2 x3 x4 xs = k1_pay2 x0 xs x1 := by
  unfold accLast
  rw [View.read_writes_junk_eq_canon]
  unfold runLast
  dsimp only
  sl_unfold_words
  rw [View.canon_unit_zero (S := S2048x128) hz]
  simp only [View.readAt_eq_ld, harg2.read_unread, harg3.read_unread, harg8.read_unread,
    View.ld_unit_zero (S := S2048x1024) hz, View.ld_unit_zero (S := S1024x128) hz, View.ld_unit_zero (S := S2048x128) hz]

/-- and the output block the output payload of that accumulator, the normaliser's block, the features' row block and
    the weight matrix. -/
theorem outLast_eq (hf : ¬firstCol i) (hl : lastCol i) (x0 : Vec F S2048x1024 .f32) (x1 : Vec F S1024x128 .bf16) (x2 : Vec F S2048x128 .f32)
    (x3 : Vec F S2048x1 .f32) (x4 : Vec F S128x128 .f32) (xs : Vec F S2048x128 .f32) :
    outLast c i arg2 harg2 arg3 harg3 arg4 harg4 arg5 harg5 arg6 harg6 arg7 harg7 arg8 harg8 hf hl x0 x1 x2 x3 x4 xs = k1_pay3 x3 x2 (k1_pay2 x0 xs x1) x3 x4 := by
  unfold outLast
  rw [View.read_writes_junk_eq_canon]
  unfold runLast
  dsimp only
  sl_unfold_words
  rw [View.canon_unit_zero (S := S2048x128) hz, View.readCov_unit_zero (S := S2048x128) _ hz]
  simp only [View.readAt_eq_ld, harg2.read_unread, harg3.read_unread, harg4.read_unread, harg5.read_unread,
    harg6.read_unread, harg8.read_unread,
    View.ld_unit_zero (S := S2048x1024) hz, View.ld_unit_zero (S := S1024x128) hz, View.ld_unit_zero (S := S2048x128) hz,
    View.ld_unit_zero (S := S2048x1) hz, View.ld_unit_zero (S := S128x128) hz]

end Cases

end Cert.KernelIdeal.GcnValue

end
-- ==== Proof.GcnBlocks.lean ====
/-
  The graph-convolution kernel's three payloads, read at an index of the extended reals.

  The zero block is zero everywhere. The accumulation step at (p, f) is the accumulator's entry there plus the sum over
  the 1024 inner positions k of the adjacency block at (p, k) times the block of scaled features at (k, f): over the
  extended reals the rounding to the narrower format is the identity. The output payload at (p, g) is the larger of zero
  and the sum over the 128 features f of  d p * (acc (p, f) + d p * x (p, f))  times the weight at (f, g), where d is the
  normaliser's column, acc the accumulator and x the features' row block.
-/
import proofs.«149493_j3556232921092_2_alg».proof.Proof.Gen.KernelIdeal.Skeleton
import proofs.«149493_j3556232921092_2_alg».proof.Proof.LibColumnLayout
import Idealize.ShloMosaic.Lib.Pipeline.Value
import Idealize.ShloMosaic.Lib.ValueIdx
import Idealize.ShloMosaic.PureOps.Ideal.Laws

noncomputable section

namespace Cert.KernelIdeal.GcnValue

open Cert.KernelIdeal Cert.KernelIdeal.Gen
open Idealize.ShloMosaic Idealize.ShloMosaic.ValueIdx
open scoped BigOperators

/-! ### The accumulation step's product: [2048,1024] times [1024,128] -/

theorem dotAcc_lhs0 (i : S2048x128.Idx) (q : dot_S2048x1024_S1024x128_S2048x128_1_0_0_1_n_n.contr.Idx) : (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
theorem dotAcc_lhs1 (i : S2048x128.Idx) (q : dot_S2048x1024_S1024x128_S2048x128_1_0_0_1_n_n.contr.Idx) : (dot_S2048x1024_S1024x128_S2048x128_1_0_0_1_n_n.lhsIdx i q 1).val = (q ⟨0, by decide⟩).val :=
  dot_S2048x1024_S1024x128_S2048x128_1_0_0_1_n_n.lhsIdx_val_of_single rfl i q
theorem dotAcc_rhs0 (i : S2048x128.Idx) (q : dot_S2048x1024_S1024x128_S2048x128_1_0_0_1_n_n.contr.Idx) : (dot_S2048x1024_S1024x128_S2048x128_1_0_0_1_n_n.rhsIdx i q 0).val = (q ⟨0, by decide⟩).val :=
  dot_S2048x1024_S1024x128_S2048x128_1_0_0_1_n_n.rhsIdx_val_of_single rfl i q
theorem dotAcc_rhs1 (i : S2048x128.Idx) (q : dot_S2048x1024_S1024x128_S2048x128_1_0_0_1_n_n.contr.Idx) : (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The product into the zero block, read at (p, q): the sum over the 1024 inner positions. -/
theorem dotAcc_at {φ₁ φ₂ : FTy} (lhs : FVec Ideal S2048x1024 φ₁) (rhs : FVec Ideal S1024x128 φ₂) (p : Fin 2048) (q : Fin 128) :
    matmul (F := Ideal) dot_S2048x1024_S1024x128_S2048x128_1_0_0_1_n_n none lhs rhs (constant (F := Ideal) S2048x128 .f32 0x00000000#32) (ix2 p q)
      = ∑ k : Fin 1024, lhs (ix2 p k) * rhs (ix2 k q) := by
  show FloatOps.matmul dot_S2048x1024_S1024x128_S2048x128_1_0_0_1_n_n none lhs rhs (constant (F := Ideal) S2048x128 .f32 0x00000000#32) (ix2 p q) = _
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact dotAcc_lhs0 _ _
    | ⟨1, _⟩ => exact (dotAcc_lhs1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (dotAcc_rhs0 _ _).trans hk
    | ⟨1, _⟩ => exact dotAcc_rhs1 _ _)
  rw [el, er]

/-! ### The projection: [2048,128] times [128,128] -/

theorem dotOut_lhs0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
theorem dotOut_lhs1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem dotOut_rhs0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem dotOut_rhs1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- The product into the zero block, read at (p, q): the sum over the 128 inner positions. -/
theorem dotOut_at {φ₁ φ₂ : FTy} (lhs : FVec Ideal S2048x128 φ₁) (rhs : FVec Ideal S128x128 φ₂) (p : Fin 2048) (q : Fin 128) :
    matmul (F := Ideal) dot_S2048x128_S128x128_S2048x128_1_0_0_1_n_n none lhs rhs (constant (F := Ideal) S2048x128 .f32 0x00000000#32) (ix2 p q)
      = ∑ k : Fin 128, lhs (ix2 p k) * rhs (ix2 k q) := by
  show FloatOps.matmul dot_S2048x128_S128x128_S2048x128_1_0_0_1_n_n none lhs rhs (constant (F := Ideal) S2048x128 .f32 0x00000000#32) (ix2 p q) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact dotOut_lhs0 _ _
    | ⟨1, _⟩ => exact (dotOut_lhs1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (dotOut_rhs0 _ _).trans hk
    | ⟨1, _⟩ => exact dotOut_rhs1 _ _)
  rw [el, er]

/-! ### The payloads -/

/-- The zero block, at any index. -/
theorem pay1_at (p : Fin 2048) (f : Fin 128) : k1_pay1 (F := Ideal) (ix2 p f) = 0 := by
  unfold k1_pay1
  rw [shapeCast_self]
  show Ideal.ofBits .f32 0x00000000#32 = 0
  exact Ideal.ofBits_zero_f32

/-- The accumulation step at (p, f): the accumulator's entry plus the block product's. -/
theorem pay2_at (v3 : Vec Ideal S2048x1024 .f32) (v5 : Vec Ideal S2048x128 .f32) (v6 : Vec Ideal S1024x128 .bf16)
    (p : Fin 2048) (f : Fin 128) :
    k1_pay2 v3 v5 v6 (ix2 p f) = v5 (ix2 p f) + ∑ k : Fin 1024, v3 (ix2 p k) * v6 (ix2 k f) := by
  unfold k1_pay2
  rw [shapeCast_self, shapeCast_self]
  show v5 (ix2 p f) + matmul (F := Ideal) dot_S2048x1024_S1024x128_S2048x128_1_0_0_1_n_n none (truncf .bf16 v3 bitsLt_bf16_f32) v6
    (constant (F := Ideal) S2048x128 .f32 0x00000000#32) (ix2 p f) = _
  refine congrArg (v5 (ix2 p f) + ·) ?_
  exact (dotAcc_at (φ₁ := .bf16) (φ₂ := .bf16) _ _ p f).trans (Finset.sum_congr rfl fun k _ => rfl)

/-- The output payload at (p, g). -/
theorem pay3_at (v16 : Vec Ideal S2048x1 .f32) (v18 v21 : Vec Ideal S2048x128 .f32) (v23 : Vec Ideal S2048x1 .f32)
    (v28 : Vec Ideal S128x128 .f32) (p : Fin 2048) (g : Fin 128) :
    k1_pay3 v16 v18 v21 v23 v28 (ix2 p g)
      = max (∑ f : Fin 128, (v23 (ix2 p (0 : Fin 1)) * (v21 (ix2 p f) + v16 (ix2 p (0 : Fin 1)) * v18 (ix2 p f)))
          * v28 (ix2 f g)) 0 := by
  unfold k1_pay3
  rw [shapeCast_self, shapeCast_self]
  show max (matmul (F := Ideal) dot_S2048x128_S128x128_S2048x128_1_0_0_1_n_n none
      (truncf .bf16 (mulf (broadcastTo S2048x128 v23 broadcasts_S2048x1_S2048x128)
        (addf v21 (mulf (broadcastTo S2048x128 v16 broadcasts_S2048x1_S2048x128) v18))) bitsLt_bf16_f32)
      (truncf .bf16 v28 bitsLt_bf16_f32) (constant (F := Ideal) S2048x128 .f32 0x00000000#32) (ix2 p g))
    (Ideal.ofBits .f32 0x00000000#32) = _
  rw [Ideal.ofBits_zero_f32]
  refine congrArg (max · 0) ?_
  refine (dotOut_at (φ₁ := .bf16) (φ₂ := .bf16) _ _ p g).trans (Finset.sum_congr rfl fun f _ => ?_)
  show (broadcastTo S2048x128 v23 broadcasts_S2048x1_S2048x128 (ix2 p f)
      * (v21 (ix2 p f) + broadcastTo S2048x128 v16 broadcasts_S2048x1_S2048x128 (ix2 p f) * v18 (ix2 p f))) * v28 (ix2 f g) = _
  rw [Cert.Lib.ColumnLayout.broadcastTo_a1_ab_apply, Cert.Lib.ColumnLayout.broadcastTo_a1_ab_apply]

end Cert.KernelIdeal.GcnValue

end
-- ==== Proof.GcnFinal.lean ====
/-
  The graph-convolution kernel's result array at the extended reals: after the region it holds, at (p, g),

      max (sum_f (d p * (sum_k a (p,k) * y (k,f) + d p * x (p,f))) * w (f,g)) 0

  of the five arrays as the region found them: the adjacency matrix a, the scaled features y, the features x, the
  normaliser's column d and the weights w.

  The 32 points run through 4 rows of blocks, eight column blocks each. The adjacency block of point t stands at rows
  2048 (t / 8) .., columns 1024 (t % 8) .. of the matrix, the block of scaled features at rows 1024 (t % 8) .., the
  features' and the normaliser's row blocks at rows 2048 (t / 8) ..; the weights are one block. After point t the
  accumulator holds, at (p, f), the sum over the column blocks 0 .. t % 8 of the block products; after a last column that
  is the sum over all 8192 inner positions, taken as eight runs of 1024 (a regrouping in a commutative monoid: no
  finiteness is involved). The last columns write their blocks back, to rows 2048 (t / 8) .. of the result, and these
  cover it.
-/
import proofs.«149493_j3556232921092_2_alg».proof.Proof.GcnPieces
import proofs.«149493_j3556232921092_2_alg».proof.Proof.GcnBlocks
import proofs.«149493_j3556232921092_2_alg».proof.Proof.GcnSpec1
import proofs.«149493_j3556232921092_2_alg».proof.Proof.LibBlockRuns

set_option maxRecDepth 16384

noncomputable section

namespace Cert.KernelIdeal.GcnValue

open Cert.KernelIdeal Cert.KernelIdeal.Gen Cert.KernelIdeal.Gcn
open Idealize.ShloMosaic Idealize.ShloMosaic.TcCoe Idealize.ShloMosaic.ValueIdx Idealize.SL.Sem
open Idealize.ShloMosaic.Pipeline (Dat)
open scoped BigOperators

/-- The six windows' arrays: the adjacency matrix, the scaled features, the features, the normaliser's column, the
    weights, and the result. -/
theorem arrRef_0 : Pipeline.arrRef spec1 0 = main_arg1 := rfl
theorem arrRef_1 : Pipeline.arrRef spec1 1 = main_v3 := rfl
theorem arrRef_2 : Pipeline.arrRef spec1 2 = main_arg0 := rfl
theorem arrRef_3 : Pipeline.arrRef spec1 3 = main_v0 := rfl
theorem arrRef_4 : Pipeline.arrRef spec1 4 = main_arg2 := rfl
theorem arrRef_5 : Pipeline.arrRef spec1 5 = main_v4 := rfl

/-- The printed index maps, decided over the grid. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0)

variable (V : (c : Dev nD) → (b : Ref sig .tc) → Buf (Elt Ideal) ((c : Thread nD τ).loc b))

/-! ## The arrays and the blocks, as arrays of extended reals -/

/-- The five arrays as the region finds them. -/
def adj (c : Dev nD) : Cert.Proof.GcnSpec1.SA.Idx → EReal := V c main_arg1
def sfeat (c : Dev nD) : Cert.Proof.GcnSpec1.SX.Idx → EReal := V c main_v3
def feat (c : Dev nD) : Cert.Proof.GcnSpec1.SX.Idx → EReal := V c main_arg0
def nrm (c : Dev nD) : Cert.Proof.GcnSpec1.SD.Idx → EReal := V c main_v0
def wgt (c : Dev nD) : Cert.Proof.GcnSpec1.SW.Idx → EReal := V c main_arg2

/-- The five input blocks of point t, over the blocks' literal shapes. -/
def adjAt (c : Dev nD) (t : Fin cfg1.N) : Vec Ideal S2048x1024 .f32 := blk0 V c t
def sfeatAt (c : Dev nD) (t : Fin cfg1.N) : Vec Ideal S1024x128 .bf16 := blk1 V c t
def featAt (c : Dev nD) (t : Fin cfg1.N) : Vec Ideal S2048x128 .f32 := blk2 V c t
def nrmAt (c : Dev nD) (t : Fin cfg1.N) : Vec Ideal S2048x1 .f32 := blk3 V c t
def wgtAt (c : Dev nD) (t : Fin cfg1.N) : Vec Ideal S128x128 .f32 := blk4 V c t

/-- The adjacency block of point t at (p, k): the matrix at row 2048 (t / 8) + p, column 1024 (t % 8) + k. -/
theorem adjAt_at (c : Dev nD) (t : Fin cfg1.N) (p : Fin 2048) (k : Fin 1024) :
    adjAt V c t (ix2 p k) = adj V c (ix2 (⟨t.val / 8 * 2048 + p.val, by have := t.isLt; have hN : cfg1.N = 32 := N_1; omega⟩ : Fin 8192) (⟨t.val % 8 * 1024 + k.val, by omega⟩ : Fin 8192)) := by
  obtain ⟨e00, e01, e10, e11, e20, e21, e30, e31, e40, e41, e50, e51⟩ := idx_facts t
  show V c main_arg1 (((cfg1.win 0).blk t).view.emb (ix2 p k))
    = V c main_arg1 (ix2 (⟨t.val / 8 * 2048 + p.val, _⟩ : Fin 8192) (⟨t.val % 8 * 1024 + k.val, _⟩ : Fin 8192))
  refine congrArg (V c main_arg1) (funext fun a => Fin.ext ?_)
  match a with
  | ⟨0, _⟩ => show win1_0.index t (0 : Fin 2) * 2048 + 1 * p.val = t.val / 8 * 2048 + p.val; rw [e00]; omega
  | ⟨1, _⟩ => show win1_0.index t (1 : Fin 2) * 1024 + 1 * k.val = t.val % 8 * 1024 + k.val; rw [e01]; omega

/-- The block of scaled features of point t at (k, f): the array at row 1024 (t % 8) + k. -/
theorem sfeatAt_at (c : Dev nD) (t : Fin cfg1.N) (k : Fin 1024) (f : Fin 128) :
    sfeatAt V c t (ix2 k f) = sfeat V c (ix2 (⟨t.val % 8 * 1024 + k.val, by omega⟩ : Fin 8192) f) := by
  obtain ⟨e00, e01, e10, e11, e20, e21, e30, e31, e40, e41, e50, e51⟩ := idx_facts t
  show V c main_v3 (((cfg1.win 1).blk t).view.emb (ix2 k f))
    = V c main_v3 (ix2 (⟨t.val % 8 * 1024 + k.val, _⟩ : Fin 8192) f)
  refine congrArg (V c main_v3) (funext fun a => Fin.ext ?_)
  match a with
  | ⟨0, _⟩ => show win1_1.index t (0 : Fin 2) * 1024 + 1 * k.val = t.val % 8 * 1024 + k.val; rw [e10]; omega
  | ⟨1, _⟩ => show win1_1.index t (1 : Fin 2) * 128 + 1 * f.val = f.val; rw [e11]; omega

/-- The features' row block of point t at (p, f): the array at row 2048 (t / 8) + p. -/
theorem featAt_at (c : Dev nD) (t : Fin cfg1.N) (p : Fin 2048) (f : Fin 128) :
    featAt V c t (ix2 p f) = feat V c (ix2 (⟨t.val / 8 * 2048 + p.val, by have := t.isLt; have hN : cfg1.N = 32 := N_1; omega⟩ : Fin 8192) f) := by
  obtain ⟨e00, e01, e10, e11, e20, e21, e30, e31, e40, e41, e50, e51⟩ := idx_facts t
  show V c main_arg0 (((cfg1.win 2).blk t).view.emb (ix2 p f))
    = V c main_arg0 (ix2 (⟨t.val / 8 * 2048 + p.val, _⟩ : Fin 8192) f)
  refine congrArg (V c main_arg0) (funext fun a => Fin.ext ?_)
  match a with
  | ⟨0, _⟩ => show win1_2.index t (0 : Fin 2) * 2048 + 1 * p.val = t.val / 8 * 2048 + p.val; rw [e20]; omega
  | ⟨1, _⟩ => show win1_2.index t (1 : Fin 2) * 128 + 1 * f.val = f.val; rw [e21]; omega

/-- The normaliser's row block of point t at (p, 0): the column at row 2048 (t / 8) + p. -/
theorem nrmAt_at (c : Dev nD) (t : Fin cfg1.N) (p : Fin 2048) (z : Fin 1) :
    nrmAt V c t (ix2 p z) = nrm V c (ix2 (⟨t.val / 8 * 2048 + p.val, by have := t.isLt; have hN : cfg1.N = 32 := N_1; omega⟩ : Fin 8192) z) := by
  obtain ⟨e00, e01, e10, e11, e20, e21, e30, e31, e40, e41, e50, e51⟩ := idx_facts t
  show V c main_v0 (((cfg1.win 3).blk t).view.emb (ix2 p z))
    = V c main_v0 (ix2 (⟨t.val / 8 * 2048 + p.val, _⟩ : Fin 8192) z)
  refine congrArg (V c main_v0) (funext fun a => Fin.ext ?_)
  match a with
  | ⟨0, _⟩ => show win1_3.index t (0 : Fin 2) * 2048 + 1 * p.val = t.val / 8 * 2048 + p.val; rw [e30]; omega
  | ⟨1, _⟩ => show win1_3.index t (1 : Fin 2) * 1 + 1 * z.val = z.val; rw [e31]; omega

/-- The weights' block of any point is the weight matrix. -/
theorem wgtAt_at (c : Dev nD) (t : Fin cfg1.N) (f g : Fin 128) :
    wgtAt V c t (ix2 f g) = wgt V c (ix2 f g) := by
  obtain ⟨e00, e01, e10, e11, e20, e21, e30, e31, e40, e41, e50, e51⟩ := idx_facts t
  show V c main_arg2 (((cfg1.win 4).blk t).view.emb (ix2 f g)) = V c main_arg2 (ix2 f g)
  refine congrArg (V c main_arg2) (funext fun a => Fin.ext ?_)
  match a with
  | ⟨0, _⟩ => show win1_4.index t (0 : Fin 2) * 128 + 1 * f.val = f.val; rw [e40]; omega
  | ⟨1, _⟩ => show win1_4.index t (1 : Fin 2) * 128 + 1 * g.val = g.val; rw [e41]; omega

/-! ## The accumulator, step by step -/

/-- Column block j's share of the neighbour sum of row 2048 R + p at feature f (zero off the grid). -/
def run (c : Dev nD) (R : ℕ) (p : Fin 2048) (f : Fin 128) (j : ℕ) : EReal :=
  if h : R < 4 ∧ j < 8 then
    ∑ k : Fin 1024, adj V c (ix2 (⟨R * 2048 + p.val, by omega⟩ : Fin 8192) (⟨j * 1024 + k.val, by omega⟩ : Fin 8192))
      * sfeat V c (ix2 (⟨j * 1024 + k.val, by omega⟩ : Fin 8192) f)
  else 0

/-- The block product of point t at (p, f) is column block t % 8's share for row block t / 8. -/
theorem step_eq (c : Dev nD) (t : Fin cfg1.N) (p : Fin 2048) (f : Fin 128) :
    ∑ k : Fin 1024, adjAt V c t (ix2 p k) * sfeatAt V c t (ix2 k f) = run V c (t.val / 8) p f (t.val % 8) := by
  have ht := t.isLt
  have hN : cfg1.N = 32 := N_1
  unfold run
  rw [dif_pos ⟨by omega, by omega⟩]
  exact Finset.sum_congr rfl fun k _ => by rw [adjAt_at, sfeatAt_at]

/-- After a first column the accumulator holds the first share. -/
theorem acc_first (c : Dev nD) (t : Fin cfg1.N) (h : t.val % 8 = 0) (p : Fin 2048) (f : Fin 128) :
    (colsAt V c t.val t.isLt).2 (ix2 p f) = ∑ j ∈ Finset.range (t.val % 8 + 1), run V c (t.val / 8) p f j := by
  rw [colsAt_first V c t h]
  dsimp only
  rw [accFirst_eq]
  show k1_pay2 (adjAt V c t) (k1_pay1 (F := Ideal)) (sfeatAt V c t) (ix2 p f) = _
  rw [pay2_at, pay1_at, step_eq, h, zero_add]
  exact (Finset.sum_range_one _).symm

/-- After any later column it holds one share more than after the point before. -/
theorem acc_step (c : Dev nD) (t : Fin cfg1.N) (h : ¬t.val % 8 = 0) (p : Fin 2048) (f : Fin 128)
    (ih : (colsAt V c (t.val - 1) (Nat.lt_of_le_of_lt (Nat.sub_le _ _) t.isLt)).2 (ix2 p f)
      = ∑ j ∈ Finset.range ((t.val - 1) % 8 + 1), run V c ((t.val - 1) / 8) p f j) :
    (colsAt V c t.val t.isLt).2 (ix2 p f) = ∑ j ∈ Finset.range (t.val % 8 + 1), run V c (t.val / 8) p f j := by
  have e1 : (t.val - 1) % 8 + 1 = t.val % 8 := by omega
  have e2 : (t.val - 1) / 8 = t.val / 8 := by omega
  rw [e1, e2] at ih
  have hstep : (colsAt V c t.val t.isLt).2 (ix2 p f)
      = (colsAt V c (t.val - 1) (Nat.lt_of_le_of_lt (Nat.sub_le _ _) t.isLt)).2 (ix2 p f) + ∑ k : Fin 1024, adjAt V c t (ix2 p k) * sfeatAt V c t (ix2 k f) := by
    by_cases h7 : t.val % 8 = 7
    · rw [colsAt_last V c t h h7]
      dsimp only
      rw [accLast_eq]
      show k1_pay2 (adjAt V c t) (colsAt V c (t.val - 1) (Nat.lt_of_le_of_lt (Nat.sub_le _ _) t.isLt)).2 (sfeatAt V c t) (ix2 p f) = _
      rw [pay2_at]
    · rw [colsAt_mid V c t h h7]
      dsimp only
      rw [accMid_eq]
      show k1_pay2 (adjAt V c t) (colsAt V c (t.val - 1) (Nat.lt_of_le_of_lt (Nat.sub_le _ _) t.isLt)).2 (sfeatAt V c t) (ix2 p f) = _
      rw [pay2_at]
  rw [hstep, ih, step_eq, Finset.sum_range_succ]

/-- After point t the accumulator holds the shares of the column blocks 0 .. t % 8 of row block t / 8. -/
theorem acc_at (c : Dev nD) (p : Fin 2048) (f : Fin 128) : ∀ (n : ℕ) (t : Fin cfg1.N), t.val = n →
    (colsAt V c t.val t.isLt).2 (ix2 p f) = ∑ j ∈ Finset.range (t.val % 8 + 1), run V c (t.val / 8) p f j := by
  intro n
  induction n with
  | zero => intro t ht; exact acc_first V c t (by rw [ht]) p f
  | succ n ih =>
    intro t ht
    by_cases h : t.val % 8 = 0
    · exact acc_first V c t h p f
    · exact acc_step V c t h p f
        (ih ⟨t.val - 1, Nat.lt_of_le_of_lt (Nat.sub_le _ _) t.isLt⟩ (by show t.val - 1 = n; omega))

/-- The eight shares of a row add up to the sum over all 8192 inner positions. -/
theorem runs_total (c : Dev nD) (R : ℕ) (hR : R < 4) (p : Fin 2048) (f : Fin 128) :
    ∑ j ∈ Finset.range 8, run V c R p f j
      = ∑ k : Fin 8192, adj V c (ix2 (⟨R * 2048 + p.val, by omega⟩ : Fin 8192) k) * sfeat V c (ix2 k f) := by
  rw [Finset.sum_range, Cert.Lib.BlockRuns.sum_runs 8 1024 8192 rfl
    (fun k : Fin 8192 => adj V c (ix2 (⟨R * 2048 + p.val, by omega⟩ : Fin 8192) k) * sfeat V c (ix2 k f))]
  refine Finset.sum_congr rfl fun a _ => ?_
  unfold run
  rw [dif_pos ⟨hR, a.isLt⟩]
  rfl

/-! ## The output block at a last column -/

/-- After a last column the output block holds, at (p, g), the kernel's function of the five arrays at row
    2048 (t / 8) + p. -/
theorem out_last_at (c : Dev nD) (t : Fin cfg1.N) (h7 : t.val % 8 = 7) (p : Fin 2048) (g : Fin 128) :
    (colsAt V c t.val t.isLt).1 (ix2 p g) = Cert.Proof.GcnSpec1.G1 (adj V c) (sfeat V c) (feat V c) (nrm V c) (wgt V c) (ix2 (⟨t.val / 8 * 2048 + p.val, by have := t.isLt; have hN : cfg1.N = 32 := N_1; omega⟩ : Fin 8192) g) := by
  have ht := t.isLt
  have hN : cfg1.N = 32 := N_1
  have h : ¬t.val % 8 = 0 := by omega
  have hacc : ∀ f : Fin 128, k1_pay2 (adjAt V c t) (colsAt V c (t.val - 1) (Nat.lt_of_le_of_lt (Nat.sub_le _ _) t.isLt)).2 (sfeatAt V c t) (ix2 p f)
      = ∑ k : Fin 8192, adj V c (ix2 (⟨t.val / 8 * 2048 + p.val, by omega⟩ : Fin 8192) k) * sfeat V c (ix2 k f) := fun f => by
    have e := acc_at V c p f t.val t rfl
    rw [colsAt_last V c t h h7] at e
    dsimp only at e
    rw [accLast_eq, h7] at e
    exact e.trans (runs_total V c (t.val / 8) (by omega) p f)
  rw [colsAt_last V c t h h7]
  dsimp only
  rw [outLast_eq]
  show k1_pay3 (nrmAt V c t) (featAt V c t) (k1_pay2 (adjAt V c t) (colsAt V c (t.val - 1) (Nat.lt_of_le_of_lt (Nat.sub_le _ _) t.isLt)).2 (sfeatAt V c t))
    (nrmAt V c t) (wgtAt V c t) (ix2 p g) = _
  rw [pay3_at]
  show _ = max (∑ f : Fin 128,
      (nrm V c (ix2 (⟨t.val / 8 * 2048 + p.val, by omega⟩ : Fin 8192) (0 : Fin 1))
        * ((∑ k : Fin 8192, adj V c (ix2 (⟨t.val / 8 * 2048 + p.val, by omega⟩ : Fin 8192) k) * sfeat V c (ix2 k f))
          + nrm V c (ix2 (⟨t.val / 8 * 2048 + p.val, by omega⟩ : Fin 8192) (0 : Fin 1))
            * feat V c (ix2 (⟨t.val / 8 * 2048 + p.val, by omega⟩ : Fin 8192) f)))
        * wgt V c (ix2 f g)) 0
  refine congrArg (max · 0) (Finset.sum_congr rfl fun f _ => ?_)
  rw [hacc f, nrmAt_at, featAt_at, wgtAt_at]

/-! ## From the blocks to the array -/

/-- What a last column writes back is its block of the kernel's function. -/
theorem flushed_eq (c : Dev nD) (t : Fin cfg1.N) (hf : (cfg1.win 5).flush t = true) :
    (dat (F := Ideal) V c).flushed 5 t
      = ((cfg1.win 5).blk t).view.read (Elt Ideal) (Cert.Proof.GcnSpec1.G1 (V c main_arg1) (V c main_v3) (V c main_arg0) (V c main_v0) (V c main_arg2)) := by
  have h7 : t.val % 8 = 7 := (flush1_5 t).mp hf
  obtain ⟨e00, e01, e10, e11, e20, e21, e30, e31, e40, e41, e50, e51⟩ := idx_facts t
  show (cfg1.win 5).cut (grid1.coords t) ((dat V c).after 5 t) = _
  rw [dat_after_out]
  funext j
  have hj0 : (j 0).val < 2048 := (j 0).isLt
  have hj1 : (j 1).val < 128 := (j 1).isLt
  have hx : (cfg1.win 5).xinj (grid1.coords t) j = ix2 (⟨(j 0).val, hj0⟩ : Fin 2048) (⟨(j 1).val, hj1⟩ : Fin 128) :=
    funext fun a => match a with | ⟨0, _⟩ => rfl | ⟨1, _⟩ => rfl
  show (colsAt V c t.val t.isLt).1 ((cfg1.win 5).xinj (grid1.coords t) j)
    = Cert.Proof.GcnSpec1.G1 (adj V c) (sfeat V c) (feat V c) (nrm V c) (wgt V c) (((cfg1.win 5).blk t).view.emb j)
  rw [hx, out_last_at V c t h7]
  refine congrArg (Cert.Proof.GcnSpec1.G1 (adj V c) (sfeat V c) (feat V c) (nrm V c) (wgt V c)) (funext fun a => Fin.ext ?_)
  match a with
  | ⟨0, _⟩ => show t.val / 8 * 2048 + (j 0).val = win1_5.index t (0 : Fin 2) * 2048 + 1 * (j 0).val; rw [e50]; omega
  | ⟨1, _⟩ => show (j 1).val = win1_5.index t (1 : Fin 2) * 128 + 1 * (j 1).val; rw [e51]; omega

/-- Every row of the result is in the block of some point that writes back: row p in point 8 (p / 2048) + 7's. -/
theorem cover (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 32 := N_1
  have hlt : 8 * ((i 0).val / 2048) + 7 < cfg1.N := by omega
  obtain ⟨e00, e01, e10, e11, e20, e21, e30, e31, e40, e41, e50, e51⟩ := idx_facts ⟨8 * ((i 0).val / 2048) + 7, hlt⟩
  refine ⟨⟨8 * ((i 0).val / 2048) + 7, hlt⟩, (flush1_5 _).mpr (by show (8 * ((i 0).val / 2048) + 7) % 8 = 7; omega), ?_⟩
  show i ∈ ((View.whole main_v4).slice (win1_5.rect ⟨8 * ((i 0).val / 2048) + 7, hlt⟩)).set
  rw [View.set_slice_whole, Rect.mem_set_unit]
  intro a
  match a with
  | ⟨0, _⟩ =>
    show win1_5.index ⟨8 * ((i 0).val / 2048) + 7, hlt⟩ (0 : Fin 2) * 2048 ≤ (i 0).val
      ∧ (i 0).val < win1_5.index ⟨8 * ((i 0).val / 2048) + 7, hlt⟩ (0 : Fin 2) * 2048 + 2048
    rw [e50]
    show (8 * ((i 0).val / 2048) + 7) / 8 * 2048 ≤ (i 0).val ∧ (i 0).val < (8 * ((i 0).val / 2048) + 7) / 8 * 2048 + 2048
    omega
  | ⟨1, _⟩ =>
    show win1_5.index ⟨8 * ((i 0).val / 2048) + 7, hlt⟩ (1 : Fin 2) * 128 ≤ (i 1).val
      ∧ (i 1).val < win1_5.index ⟨8 * ((i 0).val / 2048) + 7, hlt⟩ (1 : Fin 2) * 128 + 128
    rw [e51]
    omega

/-- After the region the result array holds the kernel's function of the five arrays as the region found them. -/
theorem gcn_final (c : Dev nD) :
    (dat (F := Ideal) V c).arrAt 5 cfg1.N = Cert.Proof.GcnSpec1.G1 (V c main_arg1) (V c main_v3) (V c main_arg0) (V c main_v0) (V c main_arg2) :=
  (dat (F := Ideal) V c).arrAt_eq_of_cover 5 (Cert.Proof.GcnSpec1.G1 (V c main_arg1) (V c main_v3) (V c main_arg0) (V c main_v0) (V c main_arg2))
    (flushed_eq V c) fun i => cover i

end Cert.KernelIdeal.GcnValue

end
-- ==== Proof.lean ====
/-
  A graph-convolution layer, out = relu (D^-1/2 (A + I) D^-1/2 x W), computed by two kernels and by a jnp reference.

  The kernel's program: a first kernel sums each row of the adjacency matrix block by block into a column accumulator and
  writes the normaliser d p = 1 / sqrt (rowsum p + 1 + eps); three host operations scale the features, y = d * x; a second
  kernel accumulates (adjacency block) x (block of y) over the eight column blocks of a row block and at the last one adds the
  node's own term d p * x p, scales the row by d p, projects by the weights and clips at zero.

  The frames. Each kernel keeps an accumulator between grid points, so its run is followed point by point: what the
  accumulator and the output block hold after each point is a recursion over the points, the invariant between points
  holds the accumulator at that recursion's value, and the pipeline's write-backs assemble the result array. The two
  regions and the host operations between them are chained through the contents of the buffers at each boundary; no host
  operation writes an argument and a region only reads them, so the arguments end as launched. The same text proves the
  frame of the program read at the word level and at the extended reals.

  The values. At the extended reals the first region leaves d as above (a row sum over 8192 columns is the two blocks'
  sums), the host operations leave y (k, f) = d k * x (k, f), and the second region leaves
  max (sum_f (d p * (sum_k a (p,k) * y (k,f) + d p * x (p,f))) * w (f,g)) 0, the sum over k taken as eight runs of 1024.
  The reference computes sum_k (d p * (a + I) (p,k) * d k) * x (k,f) with d p = (sum_k (a + I) (p,k) + eps) ^ (-1/2). Where
  every input is a real number and every row's base is positive, that power is 1 / sqrt of the same base, every d is a
  positive real, and the two arrangements agree by distributivity; the precondition states exactly those two facts.

  The idealization rewrote no operation, so the kernel's idealization is its own text read at the extended reals.
-/
import proofs.«149493_j3556232921092_2_alg».proof.Defs
import proofs.«149493_j3556232921092_2_alg».proof.Proof.Gen.Kernel
import proofs.«149493_j3556232921092_2_alg».proof.Proof.Gen.KernelIdeal
import proofs.«149493_j3556232921092_2_alg».proof.Proof.Gen.ReferenceIdeal
import proofs.«149493_j3556232921092_2_alg».proof.Proof.Gen.Pre_finite_inputs
import proofs.«149493_j3556232921092_2_alg».proof.Proof.Gen.ReferenceIdeal.Run
import proofs.«149493_j3556232921092_2_alg».proof.Proof.Bits.KernelRun
import proofs.«149493_j3556232921092_2_alg».proof.Proof.KernelIdealRun
import proofs.«149493_j3556232921092_2_alg».proof.Proof.RefSide
import proofs.«149493_j3556232921092_2_alg».proof.Proof.Gen.ReferenceIdeal.Read
import proofs.«149493_j3556232921092_2_alg».proof.Proof.KernelValue
import proofs.«149493_j3556232921092_2_alg».proof.Proof.GcnFinal
import Idealize.ShloMosaic.Adequacy
import Idealize.ShloMosaic.Init

noncomputable section

namespace Cert.Proof

open Idealize.ShloMosaic Idealize.SL.Sem

/-- The program at the word level runs to its end, faults nowhere, and leaves its three arguments as launched. -/
theorem frame_kernel : Cert.frame_Kernel := fun m ρ _ => Cert.Kernel.Whole.frame (F := Bits) m ρ

/-- So does the same program read at the extended reals. -/
theorem frame_kernelIdeal : Cert.frame_KernelIdeal := fun m ρ _ => Cert.KernelIdeal.Whole.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

open Cert.KernelIdeal in
/-- At the extended reals, from memories agreeing on the three arguments: the kernel's program ends with the result array at
    the layer's function of its arguments (the two regions' values chained through the host operations), and the reference's
    last stage is the same function of its own arguments wherever the precondition holds; the arguments agree. -/
theorem algebraic : Cert.algebraic_KernelIdeal_ReferenceIdeal := by
  intro m ρ m' ρ' hpre hagree
  refine ⟨fun c => Cert.Proof.GcnSpec.G (m ((c.tc : Thread nD τ).loc main_arg0)) (m ((c.tc : Thread nD τ).loc main_arg1))
      (m ((c.tc : Thread nD τ).loc main_arg2)),
    Cert.KernelIdeal.Value2.kernel_value Cert.KernelIdeal.GcnValue.gcn_final m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.Proof.RefSide.ref_eq_G _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
